-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v16)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v16) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v47) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x64 : Shape := ⟨2, ![8192, 64]⟩
abbrev S8192 : Shape := ⟨1, ![8192]⟩
abbrev S_ : Shape := ⟨0, ![]⟩

class Facts : Prop where
  bcast_S_S8192x64 : S_.BroadcastsInDim S8192x64 (![] : Fin 0 → Fin S8192x64.rank)
  reducesTo_S8192x64_S_d0_1 : S8192x64.ReducesTo [0, 1] S_
  h_S_ : 0 < S_.numel

variable [Facts]

def fn {F : FTy → Type} [FloatOps F] (main_arg0 : FVec F S8192x64 .f32) (main_arg1 : IVec S8192 32) : IVec S_ 1 :=
  let main_v0 : FVec F S8192x64 .f32 := Host.absf main_arg0
  let main_cst : FVec F S_ .f32 := constant S_ .f32 0x7F800000#32
  let main_v1 : FVec F S8192x64 .f32 := broadcastInDim S8192x64 ![] bcast_S_S8192x64 main_cst
  let main_v2 : IVec S8192x64 1 := cmpf .olt main_v0 main_v1
  let main_c : IVec S_ 1 := constantI S_ 1 1#1
  let main_v3 : IVec S_ 1 := (fun x v => Host.reduce IntOp.andi x v reducesTo_S8192x64_S_d0_1 h_S_) main_v2 main_c
  main_v3
-- ==== Kernel.lean ====
abbrev S8192x64 : Shape := ⟨2, ![8192, 64]⟩
abbrev S8192 : Shape := ⟨1, ![8192]⟩
abbrev S64x8192 : Shape := ⟨2, ![64, 8192]⟩
abbrev S8192x1 : Shape := ⟨2, ![8192, 1]⟩
abbrev S1x8192 : Shape := ⟨2, ![1, 8192]⟩
abbrev S1x128 : Shape := ⟨2, ![1, 128]⟩
abbrev S256x64 : Shape := ⟨2, ![256, 64]⟩
abbrev S64x256 : Shape := ⟨2, ![64, 256]⟩
abbrev S256x1 : Shape := ⟨2, ![256, 1]⟩
abbrev S1x256 : Shape := ⟨2, ![1, 256]⟩
abbrev S256 : Shape := ⟨1, ![256]⟩
abbrev S256x256 : Shape := ⟨2, ![256, 256]⟩
abbrev S1 : Shape := ⟨1, ![1]⟩
abbrev S1x1 : Shape := ⟨2, ![1, 1]⟩
abbrev S_ : Shape := ⟨0, ![]⟩

abbrev nBuf : Space → Nat
  | .hbm => 23
  | .vmem => 9
  | .smem => 0
  | _ => 0

abbrev bufTy : (tb : Table) → Fin (tcTables nBuf tb) → BufTy
  | .hbm, ⟨0, _⟩ => ⟨S8192x64, .f32⟩
  | .hbm, ⟨1, _⟩ => ⟨S8192, .i32⟩
  | .hbm, ⟨2, _⟩ => ⟨S64x8192, .f32⟩
  | .hbm, ⟨3, _⟩ => ⟨S8192x1, .i32⟩
  | .hbm, ⟨4, _⟩ => ⟨S1x8192, .i32⟩
  | .hbm, ⟨5, _⟩ => ⟨S1x128, .f32⟩
  | .hbm, ⟨6, _⟩ => ⟨S1x1, .f32⟩
  | .hbm, ⟨7, _⟩ => ⟨S_, .f32⟩
  | .hbm, ⟨8, _⟩ => ⟨S1x1, .f32⟩
  | .hbm, ⟨9, _⟩ => ⟨S_, .f32⟩
  | .hbm, ⟨10, _⟩ => ⟨S1x1, .f32⟩
  | .hbm, ⟨11, _⟩ => ⟨S_, .f32⟩
  | .hbm, ⟨12, _⟩ => ⟨S_, .f32⟩
  | .hbm, ⟨13, _⟩ => ⟨S_, .f32⟩
  | .hbm, ⟨14, _⟩ => ⟨S_, .f32⟩
  | .hbm, ⟨15, _⟩ => ⟨S_, .f32⟩
  | .hbm, ⟨16, _⟩ => ⟨S_, .f32⟩
  | .hbm, ⟨17, _⟩ => ⟨S_, .f32⟩
  | .hbm, ⟨18, _⟩ => ⟨S_, .f32⟩
  | .hbm, ⟨19, _⟩ => ⟨S_, .f32⟩
  | .hbm, ⟨20, _⟩ => ⟨S_, .f32⟩
  | .hbm, ⟨21, _⟩ => ⟨S_, .f32⟩
  | .hbm, ⟨22, _⟩ => ⟨S_, .f32⟩
  | .local _ .vmem, ⟨0, _⟩ => ⟨S256x64, .f32⟩
  | .local _ .vmem, ⟨1, _⟩ => ⟨S256x64, .f32⟩
  | .local _ .vmem, ⟨2, _⟩ => ⟨S64x256, .f32⟩
  | .local _ .vmem, ⟨3, _⟩ => ⟨S64x256, .f32⟩
  | .local _ .vmem, ⟨4, _⟩ => ⟨S256x1, .i32⟩
  | .local _ .vmem, ⟨5, _⟩ => ⟨S256x1, .i32⟩
  | .local _ .vmem, ⟨6, _⟩ => ⟨S1x256, .i32⟩
  | .local _ .vmem, ⟨7, _⟩ => ⟨S1x256, .i32⟩
  | .local _ .vmem, ⟨8, _⟩ => ⟨S1x128, .f32⟩
  | _, _ => ⟨S8192x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_cst : Ref sig .tc := ⟨.hbm, 12, rfl⟩
abbrev main_v10 : Ref sig .tc := ⟨.hbm, 13, rfl⟩
abbrev main_cst_0 : Ref sig .tc := ⟨.hbm, 14, rfl⟩
abbrev main_v11 : Ref sig .tc := ⟨.hbm, 15, rfl⟩
abbrev main_cst_1 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_cst_2 : Ref sig .tc := ⟨.hbm, 21, rfl⟩
abbrev main_v16 : Ref sig .tc := ⟨.hbm, 22, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8

abbrev nD : Nat := 1
abbrev τ : Topo := Topo.v7x

variable {F : FTy → Type} [FloatOps F]

abbrev grid0 : Pipeline.Grid := ⟨2, ![32, 32], ![false, false]⟩

def k0_cond1 (i : grid0.Coords) : BitVec 1 :=
  let arg0 : BitVec 32 := BitVec.ofNat 32 (i 0).val
  let c0_i32 : BitVec 32 := 0#32
  let v0 : BitVec 1 := Scalar.cmpi .eq arg0 c0_i32
  let arg1 : BitVec 32 := BitVec.ofNat 32 (i 1).val
  let c0_i32_0 : BitVec 32 := 0#32
  let v1 : BitVec 1 := Scalar.cmpi .eq arg1 c0_i32_0
  let v2 : BitVec 1 := Scalar.andi v0 v1
  let v3 : BitVec 32 := Scalar.extui v2
  let c0_i32_1 : BitVec 32 := 0#32
  let v4 : BitVec 1 := Scalar.cmpi .ne v3 c0_i32_1
  v4

def k0_cond2 (i : grid0.Coords) : BitVec 1 :=
  let arg0 : BitVec 32 := BitVec.ofNat 32 (i 0).val
  let arg1 : BitVec 32 := BitVec.ofNat 32 (i 1).val
  let v5 : BitVec 1 := Scalar.cmpi .sle arg0 arg1
  let v6 : BitVec 32 := Scalar.extui v5
  let c0_i32_2 : BitVec 32 := 0#32
  let v7 : BitVec 1 := Scalar.cmpi .ne v6 c0_i32_2
  v7

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S64x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S256x1 .i32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x256 .i32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

class Facts₀ : Prop where
  transposes_S8192x64_S64x8192_1_0 : S8192x64.Transposes [1, 0] S64x8192
  shapeCasts_S8192_S8192x1 : S8192.ShapeCasts S8192x1
  shapeCasts_S8192_S1x8192 : S8192.ShapeCasts S1x8192
  inb_S1x128_S1x128_0_0 : ∀ a, (![0, 0] : Fin 2 → Nat) a + S1x128.size a ≤ S1x128.size a
  h_S1x128 : 0 < S1x128.numel
  inb_S256x64_S256x64_0_0 : ∀ a, (![0, 0] : Fin 2 → Nat) a + S256x64.size a ≤ S256x64.size a
  h_S256x64 : 0 < S256x64.numel
  inb_S64x256_S64x256_0_0 : ∀ a, (![0, 0] : Fin 2 → Nat) a + S64x256.size a ≤ S64x256.size a
  h_S64x256 : 0 < S64x256.numel
  shapeCasts_S64x256_S64x256 : S64x256.ShapeCasts S64x256
  reduces_S256x64_S256 : S256x64.Reduces [1] S256
  shapeCasts_S256_S256x1 : S256.ShapeCasts S256x1
  reduces_S64x256_S256 : S64x256.Reduces [0] S256
  shapeCasts_S256_S1x256 : S256.ShapeCasts S1x256
  broadcasts_S256x1_S256x256 : S256x1.Broadcasts S256x256
  broadcasts_S1x256_S256x256 : S1x256.Broadcasts S256x256
  iota_S256x256_d0_w32 : S256x256.Iotas .tc 32 [0]
  iota_S256x256_d1_w32 : S256x256.Iotas .tc 32 [1]
  inb_S256x1_S256x1_0_0 : ∀ a, (![0, 0] : Fin 2 → Nat) a + S256x1.size a ≤ S256x1.size a
  h_S256x1 : 0 < S256x1.numel
  shapeCasts_S256x1_S256x1 : S256x1.ShapeCasts S256x1
  inb_S1x256_S1x256_0_0 : ∀ a, (![0, 0] : Fin 2 → Nat) a + S1x256.size a ≤ S1x256.size a
  h_S1x256 : 0 < S1x256.numel
  shapeCasts_S1x256_S1x256 : S1x256.ShapeCasts S1x256
  reduces_S256x256_S256 : S256x256.Reduces [1] S256
  reduces_S256x1_S1 : S256x1.Reduces [0] S1
  shapeCasts_S1_S1x1 : S1.ShapeCasts S1x1
  natLt_1_32 : 1 < 32
  iota_S1x128_d1_w32 : S1x128.Iotas .tc 32 [1]
  shapeCasts_S1x1_S1x1 : S1x1.ShapeCasts S1x1
  broadcasts_S1x1_S1x128 : S1x1.Broadcasts S1x128
  shapeCasts_S1x128_S1x128 : S1x128.ShapeCasts S1x128
  slices_S1x128_S1x1_0_0 : S1x128.Slices ![0, 0] S1x1
  shapeCasts_S1x1_S_ : S1x1.ShapeCasts S_
  slices_S1x128_S1x1_0_1 : S1x128.Slices ![0, 1] S1x1
  slices_S1x128_S1x1_0_2 : S1x128.Slices ![0, 2] S1x1
  dot_S256x64_S64x256_S256x256_1_0_0_1_n_n_wf : DotDims.WF S256x64 S64x256 S256x256 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S256x64.size a ≤ S8192x64.size a
  hwx0_0 : ∀ i : grid0.Coords, EltTy.bits .f32 = 32 ∨ (Rect.block (s := S8192x64) S256x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S64x256.size a ≤ S64x8192.size a
  hwx0_1 : ∀ i : grid0.Coords, EltTy.bits .f32 = 32 ∨ (Rect.block (s := S64x8192) S64x256.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S256x1.size a ≤ S8192x1.size a
  hwx0_2 : ∀ i : grid0.Coords, EltTy.bits .i32 = 32 ∨ (Rect.block (s := S8192x1) S256x1.size (cc0_transform_2 i) (hinb0_2 i)).WholeWords (EltTy.packing .i32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x256.size a ≤ S1x8192.size a
  hwx0_3 : ∀ i : grid0.Coords, EltTy.bits .i32 = 32 ∨ (Rect.block (s := S1x8192) S1x256.size (cc0_transform_3 i) (hinb0_3 i)).WholeWords (EltTy.packing .i32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x128.size a ≤ S1x128.size a
  hwx0_4 : ∀ i : grid0.Coords, EltTy.bits .f32 = 32 ∨ (Rect.block (s := S1x128) S1x128.size (cc0_transform_4 i) (hinb0_4 i)).WholeWords (EltTy.packing .f32)

variable [Facts₀]

def dot_S256x64_S64x256_S256x256_1_0_0_1_n_n : DotDims S256x64 S64x256 S256x256 where
  lhsContracting := [1]
  rhsContracting := [0]
  lhsNonContracting := [0]
  rhsNonContracting := [1]
  lhsBatch := []
  rhsBatch := []
  wf := dot_S256x64_S64x256_S256x256_1_0_0_1_n_n_wf

abbrev win0_0 : Pipeline.Window sig grid0 :=
  Pipeline.Window.ofSpec (Memref.whole main_arg0) S256x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S64x256.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v1) S256x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v2) S1x256.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v3) S1x128.size cc0_transform_4 reads0_4 true true 1 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev idle0 : Fin 5 → grid0.Coords → Bool := fun | 0 => fun _ => false | 1 => fun _ => false | 2 => fun _ => false | 3 => fun _ => false | 4 => fun i => !(k0_cond1 i == 1#1) && !(k0_cond2 i == 1#1) | ⟨_ + 5, h⟩ => absurd h (Nat.not_lt.2 (Nat.le_add_left _ _))

class Facts : Prop extends Facts₀ where

variable [Facts]
-- ==== ReferenceIdeal.lean ====
abbrev S8192x64 : Shape := ⟨2, ![8192, 64]⟩
abbrev S8192 : Shape := ⟨1, ![8192]⟩
abbrev S_ : Shape := ⟨0, ![]⟩
abbrev S8192x1 : Shape := ⟨2, ![8192, 1]⟩
abbrev S1x8192 : Shape := ⟨2, ![1, 8192]⟩
abbrev S8192x8192 : Shape := ⟨2, ![8192, 8192]⟩
abbrev S64x8192 : Shape := ⟨2, ![64, 8192]⟩

abbrev nBuf : Space → Nat
  | .hbm => 82
  | .vmem => 0
  | .smem => 0
  | _ => 0

abbrev bufTy : (tb : Table) → Fin (tcTables nBuf tb) → BufTy
  | .hbm, ⟨0, _⟩ => ⟨S8192x64, .f32⟩
  | .hbm, ⟨1, _⟩ => ⟨S8192, .i32⟩
  | .hbm, ⟨2, _⟩ => ⟨S8192x64, .f32⟩
  | .hbm, ⟨3, _⟩ => ⟨S_, .f32⟩
  | .hbm, ⟨4, _⟩ => ⟨S8192, .f32⟩
  | .hbm, ⟨5, _⟩ => ⟨S8192x1, .f32⟩
  | .hbm, ⟨6, _⟩ => ⟨S1x8192, .f32⟩
  | .hbm, ⟨7, _⟩ => ⟨S8192x8192, .f32⟩
  | .hbm, ⟨8, _⟩ => ⟨S8192x8192, .f32⟩
  | .hbm, ⟨9, _⟩ => ⟨S8192x8192, .f32⟩
  | .hbm, ⟨10, _⟩ => ⟨S64x8192, .f32⟩
  | .hbm, ⟨11, _⟩ => ⟨S8192x8192, .f32⟩
  | .hbm, ⟨12, _⟩ => ⟨S_, .f32⟩
  | .hbm, ⟨13, _⟩ => ⟨S8192x8192, .f32⟩
  | .hbm, ⟨14, _⟩ => ⟨S8192x8192, .f32⟩
  | .hbm, ⟨15, _⟩ => ⟨S8192x8192, .f32⟩
  | .hbm, ⟨16, _⟩ => ⟨S_, .f32⟩
  | .hbm, ⟨17, _⟩ => ⟨S8192x8192, .f32⟩
  | .hbm, ⟨18, _⟩ => ⟨S8192x8192, .f32⟩
  | .hbm, ⟨19, _⟩ => ⟨S_, .i1⟩
  | .hbm, ⟨20, _⟩ => ⟨S8192x8192, .i1⟩
  | .hbm, ⟨21, _⟩ => ⟨S8192x8192, .i32⟩
  | .hbm, ⟨22, _⟩ => ⟨S_, .i32⟩
  | .hbm, ⟨23, _⟩ => ⟨S8192x8192, .i32⟩
  | .hbm, ⟨24, _⟩ => ⟨S8192x8192, .i32⟩
  | .hbm, ⟨25, _⟩ => ⟨S8192x8192, .i32⟩
  | .hbm, ⟨26, _⟩ => ⟨S8192x8192, .i1⟩
  | .hbm, ⟨27, _⟩ => ⟨S_, .i1⟩
  | .hbm, ⟨28, _⟩ => ⟨S8192x8192, .i1⟩
  | .hbm, ⟨29, _⟩ => ⟨S8192x8192, .i1⟩
  | .hbm, ⟨30, _⟩ => ⟨S8192x1, .i32⟩
  | .hbm, ⟨31, _⟩ => ⟨S1x8192, .i32⟩
  | .hbm, ⟨32, _⟩ => ⟨S8192x8192, .i32⟩
  | .hbm, ⟨33, _⟩ => ⟨S8192x8192, .i32⟩
  | .hbm, ⟨34, _⟩ => ⟨S8192x8192, .i1⟩
  | .hbm, ⟨35, _⟩ => ⟨S8192x8192, .i1⟩
  | .hbm, ⟨36, _⟩ => ⟨S8192x8192, .i1⟩
  | .hbm, ⟨37, _⟩ => ⟨S8192x8192, .i1⟩
  | .hbm, ⟨38, _⟩ => ⟨S_, .f32⟩
  | .hbm, ⟨39, _⟩ => ⟨S_, .f32⟩
  | .hbm, ⟨40, _⟩ => ⟨S8192x8192, .f32⟩
  | .hbm, ⟨41, _⟩ => ⟨S8192x8192, .f32⟩
  | .hbm, ⟨42, _⟩ => ⟨S_, .f32⟩
  | .hbm, ⟨43, _⟩ => ⟨S_, .f32⟩
  | .hbm, ⟨44, _⟩ => ⟨S_, .f32⟩
  | .hbm, ⟨45, _⟩ => ⟨S8192x8192, .f32⟩
  | .hbm, ⟨46, _⟩ => ⟨S8192x8192, .f32⟩
  | .hbm, ⟨47, _⟩ => ⟨S_, .f32⟩
  | .hbm, ⟨48, _⟩ => ⟨S_, .f32⟩
  | .hbm, ⟨49, _⟩ => ⟨S8192x8192, .f32⟩
  | .hbm, ⟨50, _⟩ => ⟨S8192x8192, .f32⟩
  | .hbm, ⟨51, _⟩ => ⟨S8192x8192, .f32⟩
  | .hbm, ⟨52, _⟩ => ⟨S_, .f32⟩
  | .hbm, ⟨53, _⟩ => ⟨S8192x8192, .f32⟩
  | .hbm, ⟨54, _⟩ => ⟨S8192x8192, .f32⟩
  | .hbm, ⟨55, _⟩ => ⟨S_, .f32⟩
  | .hbm, ⟨56, _⟩ => ⟨S8192x8192, .f32⟩
  | .hbm, ⟨57, _⟩ => ⟨S8192x8192, .f32⟩
  | .hbm, ⟨58, _⟩ => ⟨S8192x8192, .f32⟩
  | .hbm, ⟨59, _⟩ => ⟨S_, .f32⟩
  | .hbm, ⟨60, _⟩ => ⟨S_, .f32⟩
  | .hbm, ⟨61, _⟩ => ⟨S8192x8192, .f32⟩
  | .hbm, ⟨62, _⟩ => ⟨S8192x8192, .f32⟩
  | .hbm, ⟨63, _⟩ => ⟨S_, .f32⟩
  | .hbm, ⟨64, _⟩ => ⟨S_, .f32⟩
  | .hbm, ⟨65, _⟩ => ⟨S8192x8192, .i32⟩
  | .hbm, ⟨66, _⟩ => ⟨S_, .i32⟩
  | .hbm, ⟨67, _⟩ => ⟨S_, .i32⟩
  | .hbm, ⟨68, _⟩ => ⟨S_, .i32⟩
  | .hbm, ⟨69, _⟩ => ⟨S_, .i32⟩
  | .hbm, ⟨70, _⟩ => ⟨S_, .f32⟩
  | .hbm, ⟨71, _⟩ => ⟨S8192x8192, .i32⟩
  | .hbm, ⟨72, _⟩ => ⟨S_, .i32⟩
  | .hbm, ⟨73, _⟩ => ⟨S_, .i32⟩
  | .hbm, ⟨74, _⟩ => ⟨S_, .i32⟩
  | .hbm, ⟨75, _⟩ => ⟨S_, .i32⟩
  | .hbm, ⟨76, _⟩ => ⟨S_, .f32⟩
  | .hbm, ⟨77, _⟩ => ⟨S_, .f32⟩
  | .hbm, ⟨78, _⟩ => ⟨S_, .f32⟩
  | .hbm, ⟨79, _⟩ => ⟨S_, .f32⟩
  | .hbm, ⟨80, _⟩ => ⟨S_, .f32⟩
  | .hbm, ⟨81, _⟩ => ⟨S_, .f32⟩
  | _, _ => ⟨S8192x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_cst_0 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_cst_1 : Ref sig .tc := ⟨.hbm, 16, rfl⟩
abbrev main_v12 : Ref sig .tc := ⟨.hbm, 17, rfl⟩
abbrev main_v13 : Ref sig .tc := ⟨.hbm, 18, rfl⟩
abbrev main_c : Ref sig .tc := ⟨.hbm, 19, rfl⟩
abbrev main_v14 : Ref sig .tc := ⟨.hbm, 20, rfl⟩
abbrev main_call0_v0 : Ref sig .tc := ⟨.hbm, 21, rfl⟩
abbrev main_call0_c : Ref sig .tc := ⟨.hbm, 22, rfl⟩
abbrev main_call0_v1 : Ref sig .tc := ⟨.hbm, 23, rfl⟩
abbrev main_call0_v2 : Ref sig .tc := ⟨.hbm, 24, rfl⟩
abbrev main_call0_v3 : Ref sig .tc := ⟨.hbm, 25, rfl⟩
abbrev main_call0_v4 : Ref sig .tc := ⟨.hbm, 26, rfl⟩
abbrev main_call0_c_0 : Ref sig .tc := ⟨.hbm, 27, rfl⟩
abbrev main_call0_v5 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_cst_2 : Ref sig .tc := ⟨.hbm, 38, rfl⟩
abbrev main_call1_v0 : Ref sig .tc := ⟨.hbm, 39, rfl⟩
abbrev main_call1_v1 : Ref sig .tc := ⟨.hbm, 40, rfl⟩
abbrev main_v24 : Ref sig .tc := ⟨.hbm, 41, rfl⟩
abbrev main_cst_3 : Ref sig .tc := ⟨.hbm, 42, rfl⟩
abbrev main_v25 : Ref sig .tc := ⟨.hbm, 43, rfl⟩
abbrev main_cst_4 : Ref sig .tc := ⟨.hbm, 44, rfl⟩
abbrev main_v26 : Ref sig .tc := ⟨.hbm, 45, rfl⟩
abbrev main_v27 : Ref sig .tc := ⟨.hbm, 46, rfl⟩
abbrev main_cst_5 : Ref sig .tc := ⟨.hbm, 47, rfl⟩
abbrev main_call2_v0 : Ref sig .tc := ⟨.hbm, 48, rfl⟩
abbrev main_call2_v1 : Ref sig .tc := ⟨.hbm, 49, rfl⟩
abbrev main_v28 : Ref sig .tc := ⟨.hbm, 50, rfl⟩
abbrev main_v29 : Ref sig .tc := ⟨.hbm, 51, rfl⟩
abbrev main_cst_6 : Ref sig .tc := ⟨.hbm, 52, rfl⟩
abbrev main_v30 : Ref sig .tc := ⟨.hbm, 53, rfl⟩
abbrev main_v31 : Ref sig .tc := ⟨.hbm, 54, rfl⟩
abbrev main_call3_cst : Ref sig .tc := ⟨.hbm, 55, rfl⟩
abbrev main_call3_v0 : Ref sig .tc := ⟨.hbm, 56, rfl⟩
abbrev main_v32 : Ref sig .tc := ⟨.hbm, 57, rfl⟩
abbrev main_v33 : Ref sig .tc := ⟨.hbm, 58, rfl⟩
abbrev main_cst_7 : Ref sig .tc := ⟨.hbm, 59, rfl⟩
abbrev main_call4_v0 : Ref sig .tc := ⟨.hbm, 60, rfl⟩
abbrev main_call4_v1 : Ref sig .tc := ⟨.hbm, 61, rfl⟩
abbrev main_v34 : Ref sig .tc := ⟨.hbm, 62, rfl⟩
abbrev main_cst_8 : Ref sig .tc := ⟨.hbm, 63, rfl⟩
abbrev main_v35 : Ref sig .tc := ⟨.hbm, 64, rfl⟩
abbrev main_v36 : Ref sig .tc := ⟨.hbm, 65, rfl⟩
abbrev main_c_9 : Ref sig .tc := ⟨.hbm, 66, rfl⟩
abbrev main_v37 : Ref sig .tc := ⟨.hbm, 67, rfl⟩
abbrev main_c_10 : Ref sig .tc := ⟨.hbm, 68, rfl⟩
abbrev main_v38 : Ref sig .tc := ⟨.hbm, 69, rfl⟩
abbrev main_v39 : Ref sig .tc := ⟨.hbm, 70, rfl⟩
abbrev main_v40 : Ref sig .tc := ⟨.hbm, 71, rfl⟩
abbrev main_c_11 : Ref sig .tc := ⟨.hbm, 72, rfl⟩
abbrev main_v41 : Ref sig .tc := ⟨.hbm, 73, rfl⟩
abbrev main_c_12 : Ref sig .tc := ⟨.hbm, 74, rfl⟩
abbrev main_v42 : Ref sig .tc := ⟨.hbm, 75, rfl⟩
abbrev main_v43 : Ref sig .tc := ⟨.hbm, 76, rfl⟩
abbrev main_v44 : Ref sig .tc := ⟨.hbm, 77, rfl⟩
abbrev main_v45 : Ref sig .tc := ⟨.hbm, 78, rfl⟩
abbrev main_v46 : Ref sig .tc := ⟨.hbm, 79, rfl⟩
abbrev main_cst_13 : Ref sig .tc := ⟨.hbm, 80, rfl⟩
abbrev main_v47 : Ref sig .tc := ⟨.hbm, 81, rfl⟩

abbrev nD : Nat := 1
abbrev τ : Topo := Topo.v7x

variable {F : FTy → Type} [FloatOps F]

class Facts₀ : Prop where
  reducesTo_S8192x64_S8192_d1 : S8192x64.ReducesTo [1] S8192
  h_S_ : 0 < S_.numel
  bcast_S8192_S8192x1_0 : S8192.BroadcastsInDim S8192x1 (![0] : Fin 1 → Fin S8192x1.rank)
  bcast_S8192_S1x8192_1 : S8192.BroadcastsInDim S1x8192 (![1] : Fin 1 → Fin S1x8192.rank)
  bcast_S8192x1_S8192x8192_0_1 : S8192x1.BroadcastsInDim S8192x8192 (![0, 1] : Fin 2 → Fin S8192x8192.rank)
  bcast_S1x8192_S8192x8192_0_1 : S1x8192.BroadcastsInDim S8192x8192 (![0, 1] : Fin 2 → Fin S8192x8192.rank)
  transposes_S8192x64_S64x8192_1_0 : S8192x64.Transposes [1, 0] S64x8192
  bcast_S_S8192x8192 : S_.BroadcastsInDim S8192x8192 (![] : Fin 0 → Fin S8192x8192.rank)
  reducesTo_S8192x8192_S_d0_1 : S8192x8192.ReducesTo [0, 1] S_
  natLt_1_32 : 1 < 32
  dot_S8192x64_S64x8192_S8192x8192_1_0_0_1_n_n_wf : DotDims.WF S8192x64 S64x8192 S8192x8192 [1] [0] [0] [1] [] []

variable [Facts₀]

def dot_S8192x64_S64x8192_S8192x8192_1_0_0_1_n_n : DotDims S8192x64 S64x8192 S8192x8192 where
  lhsContracting := [1]
  rhsContracting := [0]
  lhsNonContracting := [0]
  rhsNonContracting := [1]
  lhsBatch := []
  rhsBatch := []
  wf := dot_S8192x64_S64x8192_S8192x8192_1_0_0_1_n_n_wf

class Facts : Prop extends Facts₀ where

variable [Facts]
-- ==== Proof.Body.lean ====
/-
  The frame of the pairwise-loss kernel: the body run at every grid point, the proof data of the pipeline, the run of
  @main and the frame claim, at any float instance.

  The grid is 32 x 32 tiles of the pair matrix, visited row by row. The output block (one row of 128 lanes) never moves:
  it is an accumulator, cleared at the first tile, added to at every tile on or above the diagonal (tile row <= tile
  column), left alone at the tiles below it, and written back once, after the last tile. So there are three kinds of
  point: the first (clear, then add), a later one on or above the diagonal (add to what the point before left), and one
  below the diagonal (nothing stored: the buffer is handed back as found). What the accumulator holds after point n is
  defined by recursion on n over these three kinds.
-/
import proofs.«115014_j88038239634243_2_alg».proof.Proof.Gen.KernelIdeal.Frame
import proofs.«115014_j88038239634243_2_alg».proof.Proof.Gen.KernelIdeal.Skeleton
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The two conditions over the grid -/

/-- The clearing branch is taken at the first point only. -/
theorem hcond1 : ∀ t : Fin cfg0.N, k0_cond1 (grid0.coords t) = 1#1 ↔ t.val = 0 :=
  (by decide +kernel : ∀ t : Fin grid0.N, k0_cond1 (grid0.coords t) = 1#1 ↔ t.val = 0)
/-- The adding branch is taken on and above the diagonal of tiles: tile row <= tile column. -/
theorem hcond2 : ∀ t : Fin cfg0.N, k0_cond2 (grid0.coords t) = 1#1 ↔ t.val / 32 ≤ t.val % 32 :=
  (by decide +kernel : ∀ t : Fin grid0.N, k0_cond2 (grid0.coords t) = 1#1 ↔ t.val / 32 ≤ t.val % 32)
/-- The output window is idle exactly below the diagonal. -/
theorem hidle4 : ∀ t : Fin cfg0.N, cfg0.idle 4 (grid0.coords t) = decide (¬ t.val / 32 ≤ t.val % 32) :=
  (by decide +kernel : ∀ t : Fin grid0.N, idle0 4 (grid0.coords t) = decide (¬ t.val / 32 ≤ t.val % 32))

/-! ## The staging memrefs at a point -/

abbrev VO4 : View sig .tc .vmem S1x128 .f32 := (Memref.whole cc0_stg4_0 : Memref sig .tc .vmem S1x128 .f32).view
abbrev ms0 (t : Fin cfg0.N) : Memref sig .tc .vmem S256x64 .f32 := win0_0.stage (cfg0.slots t 0)
abbrev hs0 (t : Fin cfg0.N) : (ms0 t).IsWhole := hstage0_0 ((cfg0.slots t 0).cast nbuf0_0)
abbrev ms1 (t : Fin cfg0.N) : Memref sig .tc .vmem S64x256 .f32 := win0_1.stage (cfg0.slots t 1)
abbrev hs1 (t : Fin cfg0.N) : (ms1 t).IsWhole := hstage0_1 ((cfg0.slots t 1).cast nbuf0_1)
abbrev ms2 (t : Fin cfg0.N) : Memref sig .tc .vmem S256x1 .i32 := win0_2.stage (cfg0.slots t 2)
abbrev hs2 (t : Fin cfg0.N) : (ms2 t).IsWhole := hstage0_2 ((cfg0.slots t 2).cast nbuf0_2)
abbrev ms3 (t : Fin cfg0.N) : Memref sig .tc .vmem S1x256 .i32 := win0_3.stage (cfg0.slots t 3)
abbrev hs3 (t : Fin cfg0.N) : (ms3 t).IsWhole := hstage0_3 ((cfg0.slots t 3).cast nbuf0_3)
abbrev ms4 (t : Fin cfg0.N) : Memref sig .tc .vmem S1x128 .f32 := win0_4.stage (cfg0.slots t 4)
abbrev hs4 (t : Fin cfg0.N) : (ms4 t).IsWhole := hstage0_4 ((cfg0.slots t 4).cast nbuf0_4)

/-! ## The body on any whole staging memrefs, one run per kind of point -/

set_option maxHeartbeats 2000000 in
/-- The first point: both branches taken. The inputs are held at their contents, the output at anything; the body
    returns the inputs as they were and the output with its stores written (the pieces the run finds, last first). -/
noncomputable def runFirst (c : Dev nD) (i : grid0.Coords)
    (a2 : Memref sig .tc .vmem S256x64 .f32) (h2 : a2.IsWhole) (a3 : Memref sig .tc .vmem S64x256 .f32) (h3 : a3.IsWhole)
    (a4 : Memref sig .tc .vmem S256x1 .i32) (h4 : a4.IsWhole) (a5 : Memref sig .tc .vmem S1x256 .i32) (h5 : a5.IsWhole)
    (a6 : Memref sig .tc .vmem S1x128 .f32) (h6 : a6.IsWhole) (hc1 : k0_cond1 i = 1#1) (hc2 : k0_cond2 i = 1#1)
    (x0 : Vec F S256x64 .f32) (x1 : Vec F S64x256 .f32) (x2 : Vec F S256x1 .i32) (x3 : Vec F S1x256 .i32) :
    { L : List (View.Piece (Elt F) S1x128 .f32) //
      ∀ (E : Set ℕ) (K : PUnit → sProp 𝕄),
        iprop(owns (c : Thread nD τ) a2 fullShare x0 ∗ owns (c : Thread nD τ) a3 fullShare x1 ∗ owns (c : Thread nD τ) a4 fullShare x2
            ∗ owns (c : Thread nD τ) a5 fullShare x3 ∗ (∃ d, owns (c : Thread nD τ) a6 fullShare d)
            ∗ (iprop(owns (c : Thread nD τ) a2 fullShare x0 ∗ owns (c : Thread nD τ) a3 fullShare x1 ∗ owns (c : Thread nD τ) a4 fullShare x2
                ∗ owns (c : Thread nD τ) a5 fullShare x3
                ∗ (∃ f, a6.view.loc (c : Thread nD τ) ↦[a6.view.set]{fullShare} a6.view.writes (Elt F) f L)) -∗ K ⟨⟩))
          ⊢ wp frame (wpE (defs₀ (F := F)) Variants.none c none) E (cc0__kernel i a2 h2 a3 h3 a4 h4 a5 h5 a6 h6) K } := by
  refine ⟨?_, fun E K => ?run⟩
  case run =>
    simp only [cc0__kernel_eq_skeleton]; unfold cc0__kernel_skel
    simp only [k0_part1_eq_skeleton, k0_part2_eq_skeleton]
    unfold owns
    iintro ⟨⟨%f0, %hf0, H0⟩, ⟨%f1, %hf1, H1⟩, ⟨%f2, %hf2, H2⟩, ⟨%f3, %hf3, H3⟩, ⟨%d4, %f4, -, H4⟩, Hk⟩
    obtain rfl := h2.eq_unread hf0; obtain rfl := h3.eq_unread hf1; obtain rfl := h4.eq_unread hf2; obtain rfl := h5.eq_unread hf3
    sl_exec (disch := first | exact hc1 | exact hc2)
    sl_step
    iapply Hk
    isplitl [H0]
    · iexists _; isplitr; · ipureintro; exact h2.read_unread _
      iexact H0
    isplitl [H1]
    · iexists _; isplitr; · ipureintro; exact h3.read_unread _
      iexact H1
    isplitl [H2]
    · iexists _; isplitr; · ipureintro; exact h4.read_unread _
      iexact H2
    isplitl [H3]
    · iexists _; isplitr; · ipureintro; exact h5.read_unread _
      iexact H3
    iexists _; iexact H4

set_option maxHeartbeats 2000000 in
/-- A later point on or above the diagonal: the clearing branch not taken, the adding branch taken. The output is held
    at its running contents `xo`, which the body reads before it stores. -/
noncomputable def runLater (c : Dev nD) (i : grid0.Coords)
    (a2 : Memref sig .tc .vmem S256x64 .f32) (h2 : a2.IsWhole) (a3 : Memref sig .tc .vmem S64x256 .f32) (h3 : a3.IsWhole)
    (a4 : Memref sig .tc .vmem S256x1 .i32) (h4 : a4.IsWhole) (a5 : Memref sig .tc .vmem S1x256 .i32) (h5 : a5.IsWhole)
    (a6 : Memref sig .tc .vmem S1x128 .f32) (h6 : a6.IsWhole) (hc1 : ¬k0_cond1 i = 1#1) (hc2 : k0_cond2 i = 1#1)
    (x0 : Vec F S256x64 .f32) (x1 : Vec F S64x256 .f32) (x2 : Vec F S256x1 .i32) (x3 : Vec F S1x256 .i32) (xo : Vec F S1x128 .f32) :
    { L : List (View.Piece (Elt F) S1x128 .f32) //
      ∀ (E : Set ℕ) (K : PUnit → sProp 𝕄),
        iprop(owns (c : Thread nD τ) a2 fullShare x0 ∗ owns (c : Thread nD τ) a3 fullShare x1 ∗ owns (c : Thread nD τ) a4 fullShare x2
            ∗ owns (c : Thread nD τ) a5 fullShare x3 ∗ owns (c : Thread nD τ) a6 fullShare xo
            ∗ (iprop(owns (c : Thread nD τ) a2 fullShare x0 ∗ owns (c : Thread nD τ) a3 fullShare x1 ∗ owns (c : Thread nD τ) a4 fullShare x2
                ∗ owns (c : Thread nD τ) a5 fullShare x3
                ∗ (∃ f, a6.view.loc (c : Thread nD τ) ↦[a6.view.set]{fullShare} a6.view.writes (Elt F) f L)) -∗ K ⟨⟩))
          ⊢ wp frame (wpE (defs₀ (F := F)) Variants.none c none) E (cc0__kernel i a2 h2 a3 h3 a4 h4 a5 h5 a6 h6) K } := by
  refine ⟨?_, fun E K => ?run⟩
  case run =>
    simp only [cc0__kernel_eq_skeleton]; unfold cc0__kernel_skel
    simp only [k0_part1_eq_skeleton, k0_part2_eq_skeleton]
    unfold owns
    iintro ⟨⟨%f0, %hf0, H0⟩, ⟨%f1, %hf1, H1⟩, ⟨%f2, %hf2, H2⟩, ⟨%f3, %hf3, H3⟩, ⟨%f4, %hf4, H4⟩, Hk⟩
    obtain rfl := h2.eq_unread hf0; obtain rfl := h3.eq_unread hf1; obtain rfl := h4.eq_unread hf2; obtain rfl := h5.eq_unread hf3
    obtain rfl := h6.eq_unread hf4
    sl_exec (disch := first | exact hc1 | exact hc2)
    sl_step
    iapply Hk
    isplitl [H0]
    · iexists _; isplitr; · ipureintro; exact h2.read_unread _
      iexact H0
    isplitl [H1]
    · iexists _; isplitr; · ipureintro; exact h3.read_unread _
      iexact H1
    isplitl [H2]
    · iexists _; isplitr; · ipureintro; exact h4.read_unread _
      iexact H2
    isplitl [H3]
    · iexists _; isplitr; · ipureintro; exact h5.read_unread _
      iexact H3
    iexists _; iexact H4

set_option maxHeartbeats 2000000 in
/-- A point below the diagonal: neither branch taken. The body touches nothing and returns every buffer as it found it. -/
theorem runBelow (c : Dev nD) (i : grid0.Coords)
    (a2 : Memref sig .tc .vmem S256x64 .f32) (h2 : a2.IsWhole) (a3 : Memref sig .tc .vmem S64x256 .f32) (h3 : a3.IsWhole)
    (a4 : Memref sig .tc .vmem S256x1 .i32) (h4 : a4.IsWhole) (a5 : Memref sig .tc .vmem S1x256 .i32) (h5 : a5.IsWhole)
    (a6 : Memref sig .tc .vmem S1x128 .f32) (h6 : a6.IsWhole) (hc1 : ¬k0_cond1 i = 1#1) (hc2 : ¬k0_cond2 i = 1#1)
    (E : Set ℕ) (K : PUnit → sProp 𝕄) :
    K ⟨⟩ ⊢ wp frame (wpE (defs₀ (F := F)) Variants.none c none) E (cc0__kernel i a2 h2 a3 h3 a4 h4 a5 h5 a6 h6) K := by
  simp only [cc0__kernel_eq_skeleton]; unfold cc0__kernel_skel
  iintro Hk
  sl_exec (disch := first | exact hc1 | exact hc2)
  sl_step
  iexact Hk

/-! ## What each kind of point leaves in the output's staging buffer -/

/-- The first point's stores tile the output block, so they cover it. -/
theorem coverFirst (c : Dev nD) (i : grid0.Coords)
    (a2 : Memref sig .tc .vmem S256x64 .f32) (h2 : a2.IsWhole) (a3 : Memref sig .tc .vmem S64x256 .f32) (h3 : a3.IsWhole)
    (a4 : Memref sig .tc .vmem S256x1 .i32) (h4 : a4.IsWhole) (a5 : Memref sig .tc .vmem S1x256 .i32) (h5 : a5.IsWhole)
    (a6 : Memref sig .tc .vmem S1x128 .f32) (h6 : a6.IsWhole) (hc1 : k0_cond1 i = 1#1) (hc2 : k0_cond2 i = 1#1)
    (x0 : Vec F S256x64 .f32) (x1 : Vec F S64x256 .f32) (x2 : Vec F S256x1 .i32) (x3 : Vec F S1x256 .i32) (y : S1x128.Idx) :
    ∃ pc ∈ (runFirst c i a2 h2 a3 h3 a4 h4 a5 h5 a6 h6 hc1 hc2 x0 x1 x2 x3).1, y ∈ pc.1.set :=
  View.cover_of_tiledL (runFirst c i a2 h2 a3 h3 a4 h4 a5 h5 a6 h6 hc1 hc2 x0 x1 x2 x3).1 S1x128.size (by sl_kernel_rfl) y

/-- What the first point leaves: its stores read back. -/
def outFirst (c : Dev nD) (i : grid0.Coords)
    (a2 : Memref sig .tc .vmem S256x64 .f32) (h2 : a2.IsWhole) (a3 : Memref sig .tc .vmem S64x256 .f32) (h3 : a3.IsWhole)
    (a4 : Memref sig .tc .vmem S256x1 .i32) (h4 : a4.IsWhole) (a5 : Memref sig .tc .vmem S1x256 .i32) (h5 : a5.IsWhole)
    (a6 : Memref sig .tc .vmem S1x128 .f32) (h6 : a6.IsWhole) (hc1 : k0_cond1 i = 1#1) (hc2 : k0_cond2 i = 1#1)
    (x0 : Vec F S256x64 .f32) (x1 : Vec F S64x256 .f32) (x2 : Vec F S256x1 .i32) (x3 : Vec F S1x256 .i32) : Vec F S1x128 .f32 :=
  VO4.read (Elt F) (VO4.writes (Elt F) VO4.junk (runFirst c i a2 h2 a3 h3 a4 h4 a5 h5 a6 h6 hc1 hc2 x0 x1 x2 x3).1)

/-- A later adding point's one store covers the output block. -/
theorem coverLater (c : Dev nD) (i : grid0.Coords)
    (a2 : Memref sig .tc .vmem S256x64 .f32) (h2 : a2.IsWhole) (a3 : Memref sig .tc .vmem S64x256 .f32) (h3 : a3.IsWhole)
    (a4 : Memref sig .tc .vmem S256x1 .i32) (h4 : a4.IsWhole) (a5 : Memref sig .tc .vmem S1x256 .i32) (h5 : a5.IsWhole)
    (a6 : Memref sig .tc .vmem S1x128 .f32) (h6 : a6.IsWhole) (hc1 : ¬k0_cond1 i = 1#1) (hc2 : k0_cond2 i = 1#1)
    (x0 : Vec F S256x64 .f32) (x1 : Vec F S64x256 .f32) (x2 : Vec F S256x1 .i32) (x3 : Vec F S1x256 .i32) (xo : Vec F S1x128 .f32) (y : S1x128.Idx) :
    ∃ pc ∈ (runLater c i a2 h2 a3 h3 a4 h4 a5 h5 a6 h6 hc1 hc2 x0 x1 x2 x3 xo).1, y ∈ pc.1.set :=
  View.cover_of_tiledL (runLater c i a2 h2 a3 h3 a4 h4 a5 h5 a6 h6 hc1 hc2 x0 x1 x2 x3 xo).1 S1x128.size (by sl_kernel_rfl) y

/-- What a later adding point leaves over the running contents `xo`. -/
def outLater (c : Dev nD) (i : grid0.Coords)
    (a2 : Memref sig .tc .vmem S256x64 .f32) (h2 : a2.IsWhole) (a3 : Memref sig .tc .vmem S64x256 .f32) (h3 : a3.IsWhole)
    (a4 : Memref sig .tc .vmem S256x1 .i32) (h4 : a4.IsWhole) (a5 : Memref sig .tc .vmem S1x256 .i32) (h5 : a5.IsWhole)
    (a6 : Memref sig .tc .vmem S1x128 .f32) (h6 : a6.IsWhole) (hc1 : ¬k0_cond1 i = 1#1) (hc2 : k0_cond2 i = 1#1)
    (x0 : Vec F S256x64 .f32) (x1 : Vec F S64x256 .f32) (x2 : Vec F S256x1 .i32) (x3 : Vec F S1x256 .i32) (xo : Vec F S1x128 .f32) : Vec F S1x128 .f32 :=
  VO4.read (Elt F) (VO4.writes (Elt F) VO4.junk (runLater c i a2 h2 a3 h3 a4 h4 a5 h5 a6 h6 hc1 hc2 x0 x1 x2 x3 xo).1)

/-! ## The accumulator, point by point -/

theorem first_cond2 (hn : 0 < cfg0.N) : k0_cond2 (grid0.coords (⟨0, hn⟩ : Fin cfg0.N)) = 1#1 :=
  (hcond2 ⟨0, hn⟩).mpr (by show 0 / 32 ≤ 0 % 32; decide)

theorem later_not_cond1 (n : ℕ) (hn : n + 1 < cfg0.N) : ¬k0_cond1 (grid0.coords (⟨n + 1, hn⟩ : Fin cfg0.N)) = 1#1 :=
  fun h => Nat.succ_ne_zero n ((hcond1 ⟨n + 1, hn⟩).mp h)

/-- What the output's staging buffer holds after the body at point `n`: at the first point what the clearing and adding
    stores leave; at a later point on or above the diagonal what the adding store leaves over the point before; below the
    diagonal what the point before left. -/
def acc (c : Dev nD) : (n : ℕ) → n < cfg0.N → Vec F S1x128 .f32
  | 0, hn => outFirst c (grid0.coords ⟨0, hn⟩) (ms0 ⟨0, hn⟩) (hs0 ⟨0, hn⟩) (ms1 ⟨0, hn⟩) (hs1 ⟨0, hn⟩) (ms2 ⟨0, hn⟩) (hs2 ⟨0, hn⟩)
      (ms3 ⟨0, hn⟩) (hs3 ⟨0, hn⟩) (ms4 ⟨0, hn⟩) (hs4 ⟨0, hn⟩) ((hcond1 ⟨0, hn⟩).mpr rfl) (first_cond2 hn)
      (iblk m c 0 ⟨0, hn⟩) (iblk m c 1 ⟨0, hn⟩) (iblk m c 2 ⟨0, hn⟩) (iblk m c 3 ⟨0, hn⟩)
  | n + 1, hn =>
    if h2 : (n + 1) / 32 ≤ (n + 1) % 32 then
      outLater c (grid0.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩)
        (ms3 ⟨n + 1, hn⟩) (hs3 ⟨n + 1, hn⟩) (ms4 ⟨n + 1, hn⟩) (hs4 ⟨n + 1, hn⟩) (later_not_cond1 n hn) ((hcond2 ⟨n + 1, hn⟩).mpr h2)
        (iblk m c 0 ⟨n + 1, hn⟩) (iblk m c 1 ⟨n + 1, hn⟩) (iblk m c 2 ⟨n + 1, hn⟩) (iblk m c 3 ⟨n + 1, hn⟩) (acc c n (Nat.lt_of_succ_lt hn))
    else acc c n (Nat.lt_of_succ_lt hn)

/-- The accumulator at a later point on or above the diagonal. -/
theorem acc_later (c : Dev nD) (t : Fin cfg0.N) (ht : t.val ≠ 0) (h2 : t.val / 32 ≤ t.val % 32) :
    acc m c t.val t.isLt = outLater c (grid0.coords t) (ms0 t) (hs0 t) (ms1 t) (hs1 t) (ms2 t) (hs2 t) (ms3 t) (hs3 t) (ms4 t) (hs4 t)
      (fun h => ht ((hcond1 t).mp h)) ((hcond2 t).mpr h2) (iblk m c 0 t) (iblk m c 1 t) (iblk m c 2 t) (iblk m c 3 t)
      (acc m c (t.val - 1) (Nat.lt_of_le_of_lt (Nat.sub_le _ _) t.isLt)) := by
  obtain ⟨n, hn⟩ := t
  cases n with
  | zero => exact absurd rfl ht
  | succ n => exact (dif_pos h2).trans rfl

/-- The accumulator at a point below the diagonal: what the point before left. -/
theorem acc_below (c : Dev nD) (t : Fin cfg0.N) (h2 : ¬t.val / 32 ≤ t.val % 32) :
    acc m c t.val t.isLt = acc m c (t.val - 1) (Nat.lt_of_le_of_lt (Nat.sub_le _ _) t.isLt) := by
  obtain ⟨n, hn⟩ := t
  cases n with
  | zero => exact absurd (by show 0 / 32 ≤ 0 % 32; decide) h2
  | succ n => exact (dif_neg h2).trans rfl

/-! ## The pipeline's proof data -/

/-- The arrays as the region finds them; after the body each input's buffer at its block and the output's at the
    accumulator; the class's invariant; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => acc m c t.val t.isLt
  Φ _ := Pipeline.ΦA spec0 c
  q _ := fullShare
  owed _ := 0

theorem A_eq (c : Dev nD) (w : Fin cfg0.W) : (dats m 0 c).A w = V m c (Pipeline.arrRef spec0 w) := by
  dsimp only [dats]

theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) : (dats m 0 c).after 3 t = iblk m c 3 t := by dsimp only [dats]
theorem after4 (c : Dev nD) (t : Fin cfg0.N) : (dats m 0 c).after 4 t = acc m c t.val t.isLt := by dsimp only [dats]

theorem before0 (c : Dev nD) (t : Fin cfg0.N) (d) : (dats m 0 c).before 0 t d = iblk m c 0 t :=
  before0_0_of m (dats m 0 c) (A_eq m c 0) (after0 m c) t d
theorem before1 (c : Dev nD) (t : Fin cfg0.N) (d) : (dats m 0 c).before 1 t d = iblk m c 1 t :=
  before0_1_of m (dats m 0 c) (A_eq m c 1) (after1 m c) t d
theorem before2 (c : Dev nD) (t : Fin cfg0.N) (d) : (dats m 0 c).before 2 t d = iblk m c 2 t :=
  before0_2_of m (dats m 0 c) (A_eq m c 2) (after2 m c) t d
theorem before3 (c : Dev nD) (t : Fin cfg0.N) (d) : (dats m 0 c).before 3 t d = iblk m c 3 t :=
  before0_3_of m (dats m 0 c) (A_eq m c 3) (after3 m c) t d

/-! ## The output's staging buffer before a point -/

/-- The output block is written back at the last point only. -/
theorem flush4_false (t : Fin cfg0.N) (h : t.val ≠ 1023) : (cfg0.win 4).flush t = false :=
  Bool.eq_false_iff.mpr fun hf => by
    have h1 := (flush0_4 t).mp hf
    have h2 : t.val < 1024 := lt_of_lt_of_eq t.isLt N_0
    omega

/-- The output block is uncut: kept in place it is all of what the body left. -/
theorem kept4 (c : Dev nD) (t : Fin cfg0.N) (d) : (dats m 0 c).kept 4 t d = (dats m 0 c).after 4 t := by
  unfold Dat.kept
  rw [Pipeline.fill_of_clip_none (cfg := cfg0) 4 _ (fun _ => rfl) d ((dats m 0 c).after 4 t)]
  exact Window.fill_cut _ _ _

/-- What a point that does not write back leaves for the next one is the accumulator after it — given that, when it is
    not the first point, it found the accumulator of the point before. -/
theorem left4 (c : Dev nD) (d) (t : Fin cfg0.N)
    (hb : t.val ≠ 0 → (dats m 0 c).before 4 t d = acc m c (t.val - 1) (Nat.lt_of_le_of_lt (Nat.sub_le _ _) t.isLt)) :
    (dats m 0 c).left 4 t d = acc m c t.val t.isLt := by
  unfold Dat.left
  by_cases h2 : t.val / 32 ≤ t.val % 32
  · have hi : cfg0.idle 4 (grid0.coords t) = false := by rw [hidle4]; exact decide_eq_false (not_not.mpr h2)
    rw [hi]; dsimp only; rw [kept4, after4]
  · have hi : cfg0.idle 4 (grid0.coords t) = true := by rw [hidle4]; exact decide_eq_true h2
    have h0 : t.val ≠ 0 := fun h => h2 (by omega)
    rw [hi]; dsimp only; rw [hb h0]; exact (acc_below m c t h2).symm

/-- After the first point the body finds, in the output's staging buffer, the accumulator of the point before: the
    buffer is never written back in between, and through a stretch of points below the diagonal it is handed on untouched. -/
theorem before4_aux (c : Dev nD) : ∀ (n : ℕ) (hn : n < cfg0.N), n ≠ 0 → ∀ d,
    (dats m 0 c).before 4 ⟨n, hn⟩ d = acc m c (n - 1) (Nat.lt_of_le_of_lt (Nat.sub_le _ _) hn)
  | 0, _, h, _ => absurd rfl h
  | k + 1, hn, _, d => by
    have hN : k + 1 < 1024 := lt_of_lt_of_eq hn N_0
    rw [Dat.before_of_pos _ 4 ⟨k + 1, hn⟩ (Nat.succ_ne_zero k) ((cfg0.win 4).fetch_out rfl _) d,
      if_neg (by rw [flush4_false _ (by show k + 1 - 1 ≠ 1023; omega)]; exact Bool.false_ne_true)]
    exact left4 m c d ⟨k, Nat.lt_of_succ_lt hn⟩ (fun h0 => before4_aux c k _ h0 d)

theorem before4 (c : Dev nD) (t : Fin cfg0.N) (ht : t.val ≠ 0) (d) :
    (dats m 0 c).before 4 t d = acc m c (t.val - 1) (Nat.lt_of_le_of_lt (Nat.sub_le _ _) t.isLt) :=
  before4_aux m c t.val t.isLt ht d

/-- The accumulator at the first point. -/
theorem acc_first (c : Dev nD) (t : Fin cfg0.N) (h0 : t.val = 0) (h2 : t.val / 32 ≤ t.val % 32) :
    acc m c t.val t.isLt = outFirst c (grid0.coords t) (ms0 t) (hs0 t) (ms1 t) (hs1 t) (ms2 t) (hs2 t) (ms3 t) (hs3 t) (ms4 t) (hs4 t)
      ((hcond1 t).mpr h0) ((hcond2 t).mpr h2) (iblk m c 0 t) (iblk m c 1 t) (iblk m c 2 t) (iblk m c 3 t) := by
  obtain ⟨n, hn⟩ := t
  cases n with
  | zero => rfl
  | succ n => exact absurd h0 (Nat.succ_ne_zero n)

/-- At a point on or above the diagonal the obligation's post for the output is the accumulator. -/
theorem leaves4_live (c : Dev nD) (t : Fin cfg0.N) (h : cfg0.idle 4 (grid0.coords t) = false) :
    (dats m 0 c).leavesExact 4 t = owns (c : Thread nD τ) (ms4 t) fullShare ((dats m 0 c).after 4 t) := by
  unfold Dat.leavesExact; rw [h]

/-! ## The body obligation, at a generic point -/

def bodyPre (c : Dev nD) (t : Fin cfg0.N) : sProp 𝕄 :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d))
    ∗ (∃ d, owns (c : Thread nD τ) (ms3 t) fullShare ((dats m 0 c).before 3 t d))
    ∗ (∃ d, owns (c : Thread nD τ) (ms4 t) fullShare ((dats m 0 c).before 4 t d)))

def bodyPost (c : Dev nD) (t : Fin cfg0.N) : sProp 𝕄 :=
  iprop((dats m 0 c).Φ t.succ ∗ (dats m 0 c).owesAt () t.succ
    ∗ owns (c : Thread nD τ) (ms0 t) fullShare ((dats m 0 c).after 0 t)
    ∗ owns (c : Thread nD τ) (ms1 t) fullShare ((dats m 0 c).after 1 t)
    ∗ owns (c : Thread nD τ) (ms2 t) fullShare ((dats m 0 c).after 2 t)
    ∗ owns (c : Thread nD τ) (ms3 t) fullShare ((dats m 0 c).after 3 t)
    ∗ (dats m 0 c).leavesExact 4 t)

set_option maxHeartbeats 1600000 in
/-- The body at any point: the inputs' buffers hold their blocks; on or above the diagonal the output's buffer holds
    anything (first point) or the accumulator of the point before, and the matching run applies; below the diagonal the
    body hands every buffer back. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1, before2, before3]
  rw [show (dats m 0 c).Φ t.succ = (dats m 0 c).Φ t.castSucc from rfl,
    show (dats m 0 c).owesAt () t.succ = (dats m 0 c).owesAt () t.castSucc from rfl,
    after0, after1, after2, after3]
  have hN : t.val < 1024 := lt_of_lt_of_eq t.isLt N_0
  by_cases h2 : t.val / 32 ≤ t.val % 32
  · have hlive : cfg0.idle 4 (grid0.coords t) = false := by rw [hidle4]; exact decide_eq_false (not_not.mpr h2)
    rw [leaves4_live m c t hlive, after4]
    by_cases h0 : t.val = 0
    · rw [acc_first m c t h0 h2]
      unfold outFirst
      iintro ⟨HΦ, Ho, ⟨%d0, H0⟩, ⟨%d1, H1⟩, ⟨%d2, H2⟩, ⟨%d3, H3⟩, ⟨%d4, H4⟩⟩
      iapply ((runFirst c (grid0.coords t) _ _ _ _ _ _ _ _ _ _ ((hcond1 t).mpr h0) ((hcond2 t).mpr h2)
        (iblk m c 0 t) (iblk m c 1 t) (iblk m c 2 t) (iblk m c 3 t)).2 Set.univ _)
      isplitl [H0]; · iexact H0
      isplitl [H1]; · iexact H1
      isplitl [H2]; · iexact H2
      isplitl [H3]; · iexact H3
      isplitl [H4]; · iexists _; iexact H4
      iintro ⟨H0, H1, H2, H3, ⟨%e4, H4⟩⟩
      isplitl [HΦ]; · iexact HΦ
      isplitl [Ho]; · iexact Ho
      isplitl [H0]; · iexact H0
      isplitl [H1]; · iexact H1
      isplitl [H2]; · iexact H2
      isplitl [H3]; · iexact H3
      unfold owns; iexists _; isplitr
      swap; · iexact H4
      ipureintro; exact View.read_writes_of_cover _ _ _ _ _ (coverFirst c _ _ _ _ _ _ _ _ _ _ _ _ _ _ _ _ _)
    · rw [acc_later m c t h0 h2]
      simp only [before4 m c t h0]
      unfold outLater
      iintro ⟨HΦ, Ho, ⟨%d0, H0⟩, ⟨%d1, H1⟩, ⟨%d2, H2⟩, ⟨%d3, H3⟩, ⟨%d4, H4⟩⟩
      iapply ((runLater c (grid0.coords t) _ _ _ _ _ _ _ _ _ _ (fun h => h0 ((hcond1 t).mp h)) ((hcond2 t).mpr h2)
        (iblk m c 0 t) (iblk m c 1 t) (iblk m c 2 t) (iblk m c 3 t) _).2 Set.univ _)
      isplitl [H0]; · iexact H0
      isplitl [H1]; · iexact H1
      isplitl [H2]; · iexact H2
      isplitl [H3]; · iexact H3
      isplitl [H4]; · iexact H4
      iintro ⟨H0, H1, H2, H3, ⟨%e4, H4⟩⟩
      isplitl [HΦ]; · iexact HΦ
      isplitl [Ho]; · iexact Ho
      isplitl [H0]; · iexact H0
      isplitl [H1]; · iexact H1
      isplitl [H2]; · iexact H2
      isplitl [H3]; · iexact H3
      unfold owns; iexists _; isplitr
      swap; · iexact H4
      ipureintro; exact View.read_writes_of_cover _ _ _ _ _ (coverLater c _ _ _ _ _ _ _ _ _ _ _ _ _ _ _ _ _ _)
  · have hidle : cfg0.idle 4 (grid0.coords t) = true := by rw [hidle4]; exact decide_eq_true h2
    have hfl : (cfg0.win 4).flush t = false := flush4_false t (fun h => h2 (by omega))
    rw [Dat.leavesExact_idle _ 4 t hidle hfl]
    iintro ⟨HΦ, Ho, ⟨%d0, H0⟩, ⟨%d1, H1⟩, ⟨%d2, H2⟩, ⟨%d3, H3⟩, ⟨%d4, H4⟩⟩
    iapply (runBelow c (grid0.coords t) _ _ _ _ _ _ _ _ _ _ (fun h => h2 (by have := (hcond1 t).mp h; omega))
      (fun h => h2 ((hcond2 t).mp h)) Set.univ _)
    isplitl [HΦ]; · iexact HΦ
    isplitl [Ho]; · iexact Ho
    isplitl [H0]; · iexact H0
    isplitl [H1]; · iexact H1
    isplitl [H2]; · iexact H2
    isplitl [H3]; · iexact H3
    iexists _; iexact H4

/-- The library's body obligation, at every point. -/
theorem body_obligation (c : Dev nD) : BodyObligation (dats (F := F) m 0 c) (defs₀ (F := F)) Variants.none () Set.univ := fun t => by
  rw [bigSep_W0, bigSep_W0]
  exact sound_body m c t

/-! ## The run and the frame -/

set_option backward.isDefEq.respectTransparency.types false in
/-- Every weakly fair execution of @main terminates; every array of the pipeline ends at what the proof data computes,
    and every other buffer at what the host lines after the region compute from them. -/
theorem run_main : θ_run defs (onTc (τ := τ) (main (F := F))) (s₀ m ρ)
    (Pipeline.FramePost cfgs (dats m) 0 (Pipeline.afterTail₀ cfgs (dats m) 0 (V0 m) [hostOps1])) :=
  Pipeline.θ_run_frame_around cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hΦ := fun _ _ => rfl)

/-- The frame claim: @main runs and leaves both argument arrays as it found them. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  frame_of m ρ (dats m) (A_eq m) (run_main m ρ)

end Cert.KernelIdeal.Body

end
-- ==== Proof.BodyK.lean ====
/-
  The frame of the pairwise-loss kernel: the body run at every grid point, the proof data of the pipeline, the run of
  @main and the frame claim, at any float instance.

  The grid is 32 x 32 tiles of the pair matrix, visited row by row. The output block (one row of 128 lanes) never moves:
  it is an accumulator, cleared at the first tile, added to at every tile on or above the diagonal (tile row <= tile
  column), left alone at the tiles below it, and written back once, after the last tile. So there are three kinds of
  point: the first (clear, then add), a later one on or above the diagonal (add to what the point before left), and one
  below the diagonal (nothing stored: the buffer is handed back as found). What the accumulator holds after point n is
  defined by recursion on n over these three kinds.
-/
import proofs.«115014_j88038239634243_2_alg».proof.Proof.Gen.Kernel.Frame
import proofs.«115014_j88038239634243_2_alg».proof.Proof.Gen.Kernel.Skeleton
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.Kernel.Body

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The two conditions over the grid -/

/-- The clearing branch is taken at the first point only. -/
theorem hcond1 : ∀ t : Fin cfg0.N, k0_cond1 (grid0.coords t) = 1#1 ↔ t.val = 0 :=
  (by decide +kernel : ∀ t : Fin grid0.N, k0_cond1 (grid0.coords t) = 1#1 ↔ t.val = 0)
/-- The adding branch is taken on and above the diagonal of tiles: tile row <= tile column. -/
theorem hcond2 : ∀ t : Fin cfg0.N, k0_cond2 (grid0.coords t) = 1#1 ↔ t.val / 32 ≤ t.val % 32 :=
  (by decide +kernel : ∀ t : Fin grid0.N, k0_cond2 (grid0.coords t) = 1#1 ↔ t.val / 32 ≤ t.val % 32)
/-- The output window is idle exactly below the diagonal. -/
theorem hidle4 : ∀ t : Fin cfg0.N, cfg0.idle 4 (grid0.coords t) = decide (¬ t.val / 32 ≤ t.val % 32) :=
  (by decide +kernel : ∀ t : Fin grid0.N, idle0 4 (grid0.coords t) = decide (¬ t.val / 32 ≤ t.val % 32))

/-! ## The staging memrefs at a point -/

abbrev VO4 : View sig .tc .vmem S1x128 .f32 := (Memref.whole cc0_stg4_0 : Memref sig .tc .vmem S1x128 .f32).view
abbrev ms0 (t : Fin cfg0.N) : Memref sig .tc .vmem S256x64 .f32 := win0_0.stage (cfg0.slots t 0)
abbrev hs0 (t : Fin cfg0.N) : (ms0 t).IsWhole := hstage0_0 ((cfg0.slots t 0).cast nbuf0_0)
abbrev ms1 (t : Fin cfg0.N) : Memref sig .tc .vmem S64x256 .f32 := win0_1.stage (cfg0.slots t 1)
abbrev hs1 (t : Fin cfg0.N) : (ms1 t).IsWhole := hstage0_1 ((cfg0.slots t 1).cast nbuf0_1)
abbrev ms2 (t : Fin cfg0.N) : Memref sig .tc .vmem S256x1 .i32 := win0_2.stage (cfg0.slots t 2)
abbrev hs2 (t : Fin cfg0.N) : (ms2 t).IsWhole := hstage0_2 ((cfg0.slots t 2).cast nbuf0_2)
abbrev ms3 (t : Fin cfg0.N) : Memref sig .tc .vmem S1x256 .i32 := win0_3.stage (cfg0.slots t 3)
abbrev hs3 (t : Fin cfg0.N) : (ms3 t).IsWhole := hstage0_3 ((cfg0.slots t 3).cast nbuf0_3)
abbrev ms4 (t : Fin cfg0.N) : Memref sig .tc .vmem S1x128 .f32 := win0_4.stage (cfg0.slots t 4)
abbrev hs4 (t : Fin cfg0.N) : (ms4 t).IsWhole := hstage0_4 ((cfg0.slots t 4).cast nbuf0_4)

/-! ## The body on any whole staging memrefs, one run per kind of point -/

set_option maxHeartbeats 2000000 in
/-- The first point: both branches taken. The inputs are held at their contents, the output at anything; the body
    returns the inputs as they were and the output with its stores written (the pieces the run finds, last first). -/
noncomputable def runFirst (c : Dev nD) (i : grid0.Coords)
    (a2 : Memref sig .tc .vmem S256x64 .f32) (h2 : a2.IsWhole) (a3 : Memref sig .tc .vmem S64x256 .f32) (h3 : a3.IsWhole)
    (a4 : Memref sig .tc .vmem S256x1 .i32) (h4 : a4.IsWhole) (a5 : Memref sig .tc .vmem S1x256 .i32) (h5 : a5.IsWhole)
    (a6 : Memref sig .tc .vmem S1x128 .f32) (h6 : a6.IsWhole) (hc1 : k0_cond1 i = 1#1) (hc2 : k0_cond2 i = 1#1)
    (x0 : Vec F S256x64 .f32) (x1 : Vec F S64x256 .f32) (x2 : Vec F S256x1 .i32) (x3 : Vec F S1x256 .i32) :
    { L : List (View.Piece (Elt F) S1x128 .f32) //
      ∀ (E : Set ℕ) (K : PUnit → sProp 𝕄),
        iprop(owns (c : Thread nD τ) a2 fullShare x0 ∗ owns (c : Thread nD τ) a3 fullShare x1 ∗ owns (c : Thread nD τ) a4 fullShare x2
            ∗ owns (c : Thread nD τ) a5 fullShare x3 ∗ (∃ d, owns (c : Thread nD τ) a6 fullShare d)
            ∗ (iprop(owns (c : Thread nD τ) a2 fullShare x0 ∗ owns (c : Thread nD τ) a3 fullShare x1 ∗ owns (c : Thread nD τ) a4 fullShare x2
                ∗ owns (c : Thread nD τ) a5 fullShare x3
                ∗ (∃ f, a6.view.loc (c : Thread nD τ) ↦[a6.view.set]{fullShare} a6.view.writes (Elt F) f L)) -∗ K ⟨⟩))
          ⊢ wp frame (wpE (defs₀ (F := F)) Variants.none c none) E (cc0__kernel i a2 h2 a3 h3 a4 h4 a5 h5 a6 h6) K } := by
  refine ⟨?_, fun E K => ?run⟩
  case run =>
    simp only [cc0__kernel_eq_skeleton]; unfold cc0__kernel_skel
    simp only [k0_part1_eq_skeleton, k0_part2_eq_skeleton]
    unfold owns
    iintro ⟨⟨%f0, %hf0, H0⟩, ⟨%f1, %hf1, H1⟩, ⟨%f2, %hf2, H2⟩, ⟨%f3, %hf3, H3⟩, ⟨%d4, %f4, -, H4⟩, Hk⟩
    obtain rfl := h2.eq_unread hf0; obtain rfl := h3.eq_unread hf1; obtain rfl := h4.eq_unread hf2; obtain rfl := h5.eq_unread hf3
    sl_exec (disch := first | exact hc1 | exact hc2)
    sl_step
    iapply Hk
    isplitl [H0]
    · iexists _; isplitr; · ipureintro; exact h2.read_unread _
      iexact H0
    isplitl [H1]
    · iexists _; isplitr; · ipureintro; exact h3.read_unread _
      iexact H1
    isplitl [H2]
    · iexists _; isplitr; · ipureintro; exact h4.read_unread _
      iexact H2
    isplitl [H3]
    · iexists _; isplitr; · ipureintro; exact h5.read_unread _
      iexact H3
    iexists _; iexact H4

set_option maxHeartbeats 2000000 in
/-- A later point on or above the diagonal: the clearing branch not taken, the adding branch taken. The output is held
    at its running contents `xo`, which the body reads before it stores. -/
noncomputable def runLater (c : Dev nD) (i : grid0.Coords)
    (a2 : Memref sig .tc .vmem S256x64 .f32) (h2 : a2.IsWhole) (a3 : Memref sig .tc .vmem S64x256 .f32) (h3 : a3.IsWhole)
    (a4 : Memref sig .tc .vmem S256x1 .i32) (h4 : a4.IsWhole) (a5 : Memref sig .tc .vmem S1x256 .i32) (h5 : a5.IsWhole)
    (a6 : Memref sig .tc .vmem S1x128 .f32) (h6 : a6.IsWhole) (hc1 : ¬k0_cond1 i = 1#1) (hc2 : k0_cond2 i = 1#1)
    (x0 : Vec F S256x64 .f32) (x1 : Vec F S64x256 .f32) (x2 : Vec F S256x1 .i32) (x3 : Vec F S1x256 .i32) (xo : Vec F S1x128 .f32) :
    { L : List (View.Piece (Elt F) S1x128 .f32) //
      ∀ (E : Set ℕ) (K : PUnit → sProp 𝕄),
        iprop(owns (c : Thread nD τ) a2 fullShare x0 ∗ owns (c : Thread nD τ) a3 fullShare x1 ∗ owns (c : Thread nD τ) a4 fullShare x2
            ∗ owns (c : Thread nD τ) a5 fullShare x3 ∗ owns (c : Thread nD τ) a6 fullShare xo
            ∗ (iprop(owns (c : Thread nD τ) a2 fullShare x0 ∗ owns (c : Thread nD τ) a3 fullShare x1 ∗ owns (c : Thread nD τ) a4 fullShare x2
                ∗ owns (c : Thread nD τ) a5 fullShare x3
                ∗ (∃ f, a6.view.loc (c : Thread nD τ) ↦[a6.view.set]{fullShare} a6.view.writes (Elt F) f L)) -∗ K ⟨⟩))
          ⊢ wp frame (wpE (defs₀ (F := F)) Variants.none c none) E (cc0__kernel i a2 h2 a3 h3 a4 h4 a5 h5 a6 h6) K } := by
  refine ⟨?_, fun E K => ?run⟩
  case run =>
    simp only [cc0__kernel_eq_skeleton]; unfold cc0__kernel_skel
    simp only [k0_part1_eq_skeleton, k0_part2_eq_skeleton]
    unfold owns
    iintro ⟨⟨%f0, %hf0, H0⟩, ⟨%f1, %hf1, H1⟩, ⟨%f2, %hf2, H2⟩, ⟨%f3, %hf3, H3⟩, ⟨%f4, %hf4, H4⟩, Hk⟩
    obtain rfl := h2.eq_unread hf0; obtain rfl := h3.eq_unread hf1; obtain rfl := h4.eq_unread hf2; obtain rfl := h5.eq_unread hf3
    obtain rfl := h6.eq_unread hf4
    sl_exec (disch := first | exact hc1 | exact hc2)
    sl_step
    iapply Hk
    isplitl [H0]
    · iexists _; isplitr; · ipureintro; exact h2.read_unread _
      iexact H0
    isplitl [H1]
    · iexists _; isplitr; · ipureintro; exact h3.read_unread _
      iexact H1
    isplitl [H2]
    · iexists _; isplitr; · ipureintro; exact h4.read_unread _
      iexact H2
    isplitl [H3]
    · iexists _; isplitr; · ipureintro; exact h5.read_unread _
      iexact H3
    iexists _; iexact H4

set_option maxHeartbeats 2000000 in
/-- A point below the diagonal: neither branch taken. The body touches nothing and returns every buffer as it found it. -/
theorem runBelow (c : Dev nD) (i : grid0.Coords)
    (a2 : Memref sig .tc .vmem S256x64 .f32) (h2 : a2.IsWhole) (a3 : Memref sig .tc .vmem S64x256 .f32) (h3 : a3.IsWhole)
    (a4 : Memref sig .tc .vmem S256x1 .i32) (h4 : a4.IsWhole) (a5 : Memref sig .tc .vmem S1x256 .i32) (h5 : a5.IsWhole)
    (a6 : Memref sig .tc .vmem S1x128 .f32) (h6 : a6.IsWhole) (hc1 : ¬k0_cond1 i = 1#1) (hc2 : ¬k0_cond2 i = 1#1)
    (E : Set ℕ) (K : PUnit → sProp 𝕄) :
    K ⟨⟩ ⊢ wp frame (wpE (defs₀ (F := F)) Variants.none c none) E (cc0__kernel i a2 h2 a3 h3 a4 h4 a5 h5 a6 h6) K := by
  simp only [cc0__kernel_eq_skeleton]; unfold cc0__kernel_skel
  iintro Hk
  sl_exec (disch := first | exact hc1 | exact hc2)
  sl_step
  iexact Hk

/-! ## What each kind of point leaves in the output's staging buffer -/

/-- The first point's stores tile the output block, so they cover it. -/
theorem coverFirst (c : Dev nD) (i : grid0.Coords)
    (a2 : Memref sig .tc .vmem S256x64 .f32) (h2 : a2.IsWhole) (a3 : Memref sig .tc .vmem S64x256 .f32) (h3 : a3.IsWhole)
    (a4 : Memref sig .tc .vmem S256x1 .i32) (h4 : a4.IsWhole) (a5 : Memref sig .tc .vmem S1x256 .i32) (h5 : a5.IsWhole)
    (a6 : Memref sig .tc .vmem S1x128 .f32) (h6 : a6.IsWhole) (hc1 : k0_cond1 i = 1#1) (hc2 : k0_cond2 i = 1#1)
    (x0 : Vec F S256x64 .f32) (x1 : Vec F S64x256 .f32) (x2 : Vec F S256x1 .i32) (x3 : Vec F S1x256 .i32) (y : S1x128.Idx) :
    ∃ pc ∈ (runFirst c i a2 h2 a3 h3 a4 h4 a5 h5 a6 h6 hc1 hc2 x0 x1 x2 x3).1, y ∈ pc.1.set :=
  View.cover_of_tiledL (runFirst c i a2 h2 a3 h3 a4 h4 a5 h5 a6 h6 hc1 hc2 x0 x1 x2 x3).1 S1x128.size (by sl_kernel_rfl) y

/-- What the first point leaves: its stores read back. -/
def outFirst (c : Dev nD) (i : grid0.Coords)
    (a2 : Memref sig .tc .vmem S256x64 .f32) (h2 : a2.IsWhole) (a3 : Memref sig .tc .vmem S64x256 .f32) (h3 : a3.IsWhole)
    (a4 : Memref sig .tc .vmem S256x1 .i32) (h4 : a4.IsWhole) (a5 : Memref sig .tc .vmem S1x256 .i32) (h5 : a5.IsWhole)
    (a6 : Memref sig .tc .vmem S1x128 .f32) (h6 : a6.IsWhole) (hc1 : k0_cond1 i = 1#1) (hc2 : k0_cond2 i = 1#1)
    (x0 : Vec F S256x64 .f32) (x1 : Vec F S64x256 .f32) (x2 : Vec F S256x1 .i32) (x3 : Vec F S1x256 .i32) : Vec F S1x128 .f32 :=
  VO4.read (Elt F) (VO4.writes (Elt F) VO4.junk (runFirst c i a2 h2 a3 h3 a4 h4 a5 h5 a6 h6 hc1 hc2 x0 x1 x2 x3).1)

/-- A later adding point's one store covers the output block. -/
theorem coverLater (c : Dev nD) (i : grid0.Coords)
    (a2 : Memref sig .tc .vmem S256x64 .f32) (h2 : a2.IsWhole) (a3 : Memref sig .tc .vmem S64x256 .f32) (h3 : a3.IsWhole)
    (a4 : Memref sig .tc .vmem S256x1 .i32) (h4 : a4.IsWhole) (a5 : Memref sig .tc .vmem S1x256 .i32) (h5 : a5.IsWhole)
    (a6 : Memref sig .tc .vmem S1x128 .f32) (h6 : a6.IsWhole) (hc1 : ¬k0_cond1 i = 1#1) (hc2 : k0_cond2 i = 1#1)
    (x0 : Vec F S256x64 .f32) (x1 : Vec F S64x256 .f32) (x2 : Vec F S256x1 .i32) (x3 : Vec F S1x256 .i32) (xo : Vec F S1x128 .f32) (y : S1x128.Idx) :
    ∃ pc ∈ (runLater c i a2 h2 a3 h3 a4 h4 a5 h5 a6 h6 hc1 hc2 x0 x1 x2 x3 xo).1, y ∈ pc.1.set :=
  View.cover_of_tiledL (runLater c i a2 h2 a3 h3 a4 h4 a5 h5 a6 h6 hc1 hc2 x0 x1 x2 x3 xo).1 S1x128.size (by sl_kernel_rfl) y

/-- What a later adding point leaves over the running contents `xo`. -/
def outLater (c : Dev nD) (i : grid0.Coords)
    (a2 : Memref sig .tc .vmem S256x64 .f32) (h2 : a2.IsWhole) (a3 : Memref sig .tc .vmem S64x256 .f32) (h3 : a3.IsWhole)
    (a4 : Memref sig .tc .vmem S256x1 .i32) (h4 : a4.IsWhole) (a5 : Memref sig .tc .vmem S1x256 .i32) (h5 : a5.IsWhole)
    (a6 : Memref sig .tc .vmem S1x128 .f32) (h6 : a6.IsWhole) (hc1 : ¬k0_cond1 i = 1#1) (hc2 : k0_cond2 i = 1#1)
    (x0 : Vec F S256x64 .f32) (x1 : Vec F S64x256 .f32) (x2 : Vec F S256x1 .i32) (x3 : Vec F S1x256 .i32) (xo : Vec F S1x128 .f32) : Vec F S1x128 .f32 :=
  VO4.read (Elt F) (VO4.writes (Elt F) VO4.junk (runLater c i a2 h2 a3 h3 a4 h4 a5 h5 a6 h6 hc1 hc2 x0 x1 x2 x3 xo).1)

/-! ## The accumulator, point by point -/

theorem first_cond2 (hn : 0 < cfg0.N) : k0_cond2 (grid0.coords (⟨0, hn⟩ : Fin cfg0.N)) = 1#1 :=
  (hcond2 ⟨0, hn⟩).mpr (by show 0 / 32 ≤ 0 % 32; decide)

theorem later_not_cond1 (n : ℕ) (hn : n + 1 < cfg0.N) : ¬k0_cond1 (grid0.coords (⟨n + 1, hn⟩ : Fin cfg0.N)) = 1#1 :=
  fun h => Nat.succ_ne_zero n ((hcond1 ⟨n + 1, hn⟩).mp h)

/-- What the output's staging buffer holds after the body at point `n`: at the first point what the clearing and adding
    stores leave; at a later point on or above the diagonal what the adding store leaves over the point before; below the
    diagonal what the point before left. -/
def acc (c : Dev nD) : (n : ℕ) → n < cfg0.N → Vec F S1x128 .f32
  | 0, hn => outFirst c (grid0.coords ⟨0, hn⟩) (ms0 ⟨0, hn⟩) (hs0 ⟨0, hn⟩) (ms1 ⟨0, hn⟩) (hs1 ⟨0, hn⟩) (ms2 ⟨0, hn⟩) (hs2 ⟨0, hn⟩)
      (ms3 ⟨0, hn⟩) (hs3 ⟨0, hn⟩) (ms4 ⟨0, hn⟩) (hs4 ⟨0, hn⟩) ((hcond1 ⟨0, hn⟩).mpr rfl) (first_cond2 hn)
      (iblk m c 0 ⟨0, hn⟩) (iblk m c 1 ⟨0, hn⟩) (iblk m c 2 ⟨0, hn⟩) (iblk m c 3 ⟨0, hn⟩)
  | n + 1, hn =>
    if h2 : (n + 1) / 32 ≤ (n + 1) % 32 then
      outLater c (grid0.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩)
        (ms3 ⟨n + 1, hn⟩) (hs3 ⟨n + 1, hn⟩) (ms4 ⟨n + 1, hn⟩) (hs4 ⟨n + 1, hn⟩) (later_not_cond1 n hn) ((hcond2 ⟨n + 1, hn⟩).mpr h2)
        (iblk m c 0 ⟨n + 1, hn⟩) (iblk m c 1 ⟨n + 1, hn⟩) (iblk m c 2 ⟨n + 1, hn⟩) (iblk m c 3 ⟨n + 1, hn⟩) (acc c n (Nat.lt_of_succ_lt hn))
    else acc c n (Nat.lt_of_succ_lt hn)

/-- The accumulator at a later point on or above the diagonal. -/
theorem acc_later (c : Dev nD) (t : Fin cfg0.N) (ht : t.val ≠ 0) (h2 : t.val / 32 ≤ t.val % 32) :
    acc m c t.val t.isLt = outLater c (grid0.coords t) (ms0 t) (hs0 t) (ms1 t) (hs1 t) (ms2 t) (hs2 t) (ms3 t) (hs3 t) (ms4 t) (hs4 t)
      (fun h => ht ((hcond1 t).mp h)) ((hcond2 t).mpr h2) (iblk m c 0 t) (iblk m c 1 t) (iblk m c 2 t) (iblk m c 3 t)
      (acc m c (t.val - 1) (Nat.lt_of_le_of_lt (Nat.sub_le _ _) t.isLt)) := by
  obtain ⟨n, hn⟩ := t
  cases n with
  | zero => exact absurd rfl ht
  | succ n => exact (dif_pos h2).trans rfl

/-- The accumulator at a point below the diagonal: what the point before left. -/
theorem acc_below (c : Dev nD) (t : Fin cfg0.N) (h2 : ¬t.val / 32 ≤ t.val % 32) :
    acc m c t.val t.isLt = acc m c (t.val - 1) (Nat.lt_of_le_of_lt (Nat.sub_le _ _) t.isLt) := by
  obtain ⟨n, hn⟩ := t
  cases n with
  | zero => exact absurd (by show 0 / 32 ≤ 0 % 32; decide) h2
  | succ n => exact (dif_neg h2).trans rfl

/-! ## The pipeline's proof data -/

/-- The arrays as the region finds them; after the body each input's buffer at its block and the output's at the
    accumulator; the class's invariant; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => acc m c t.val t.isLt
  Φ _ := Pipeline.ΦA spec0 c
  q _ := fullShare
  owed _ := 0

theorem A_eq (c : Dev nD) (w : Fin cfg0.W) : (dats m 0 c).A w = V m c (Pipeline.arrRef spec0 w) := by
  dsimp only [dats]

theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) : (dats m 0 c).after 3 t = iblk m c 3 t := by dsimp only [dats]
theorem after4 (c : Dev nD) (t : Fin cfg0.N) : (dats m 0 c).after 4 t = acc m c t.val t.isLt := by dsimp only [dats]

theorem before0 (c : Dev nD) (t : Fin cfg0.N) (d) : (dats m 0 c).before 0 t d = iblk m c 0 t :=
  before0_0_of m (dats m 0 c) (A_eq m c 0) (after0 m c) t d
theorem before1 (c : Dev nD) (t : Fin cfg0.N) (d) : (dats m 0 c).before 1 t d = iblk m c 1 t :=
  before0_1_of m (dats m 0 c) (A_eq m c 1) (after1 m c) t d
theorem before2 (c : Dev nD) (t : Fin cfg0.N) (d) : (dats m 0 c).before 2 t d = iblk m c 2 t :=
  before0_2_of m (dats m 0 c) (A_eq m c 2) (after2 m c) t d
theorem before3 (c : Dev nD) (t : Fin cfg0.N) (d) : (dats m 0 c).before 3 t d = iblk m c 3 t :=
  before0_3_of m (dats m 0 c) (A_eq m c 3) (after3 m c) t d

/-! ## The output's staging buffer before a point -/

/-- The output block is written back at the last point only. -/
theorem flush4_false (t : Fin cfg0.N) (h : t.val ≠ 1023) : (cfg0.win 4).flush t = false :=
  Bool.eq_false_iff.mpr fun hf => by
    have h1 := (flush0_4 t).mp hf
    have h2 : t.val < 1024 := lt_of_lt_of_eq t.isLt N_0
    omega

/-- The output block is uncut: kept in place it is all of what the body left. -/
theorem kept4 (c : Dev nD) (t : Fin cfg0.N) (d) : (dats m 0 c).kept 4 t d = (dats m 0 c).after 4 t := by
  unfold Dat.kept
  rw [Pipeline.fill_of_clip_none (cfg := cfg0) 4 _ (fun _ => rfl) d ((dats m 0 c).after 4 t)]
  exact Window.fill_cut _ _ _

/-- What a point that does not write back leaves for the next one is the accumulator after it — given that, when it is
    not the first point, it found the accumulator of the point before. -/
theorem left4 (c : Dev nD) (d) (t : Fin cfg0.N)
    (hb : t.val ≠ 0 → (dats m 0 c).before 4 t d = acc m c (t.val - 1) (Nat.lt_of_le_of_lt (Nat.sub_le _ _) t.isLt)) :
    (dats m 0 c).left 4 t d = acc m c t.val t.isLt := by
  unfold Dat.left
  by_cases h2 : t.val / 32 ≤ t.val % 32
  · have hi : cfg0.idle 4 (grid0.coords t) = false := by rw [hidle4]; exact decide_eq_false (not_not.mpr h2)
    rw [hi]; dsimp only; rw [kept4, after4]
  · have hi : cfg0.idle 4 (grid0.coords t) = true := by rw [hidle4]; exact decide_eq_true h2
    have h0 : t.val ≠ 0 := fun h => h2 (by omega)
    rw [hi]; dsimp only; rw [hb h0]; exact (acc_below m c t h2).symm

/-- After the first point the body finds, in the output's staging buffer, the accumulator of the point before: the
    buffer is never written back in between, and through a stretch of points below the diagonal it is handed on untouched. -/
theorem before4_aux (c : Dev nD) : ∀ (n : ℕ) (hn : n < cfg0.N), n ≠ 0 → ∀ d,
    (dats m 0 c).before 4 ⟨n, hn⟩ d = acc m c (n - 1) (Nat.lt_of_le_of_lt (Nat.sub_le _ _) hn)
  | 0, _, h, _ => absurd rfl h
  | k + 1, hn, _, d => by
    have hN : k + 1 < 1024 := lt_of_lt_of_eq hn N_0
    rw [Dat.before_of_pos _ 4 ⟨k + 1, hn⟩ (Nat.succ_ne_zero k) ((cfg0.win 4).fetch_out rfl _) d,
      if_neg (by rw [flush4_false _ (by show k + 1 - 1 ≠ 1023; omega)]; exact Bool.false_ne_true)]
    exact left4 m c d ⟨k, Nat.lt_of_succ_lt hn⟩ (fun h0 => before4_aux c k _ h0 d)

theorem before4 (c : Dev nD) (t : Fin cfg0.N) (ht : t.val ≠ 0) (d) :
    (dats m 0 c).before 4 t d = acc m c (t.val - 1) (Nat.lt_of_le_of_lt (Nat.sub_le _ _) t.isLt) :=
  before4_aux m c t.val t.isLt ht d

/-- The accumulator at the first point. -/
theorem acc_first (c : Dev nD) (t : Fin cfg0.N) (h0 : t.val = 0) (h2 : t.val / 32 ≤ t.val % 32) :
    acc m c t.val t.isLt = outFirst c (grid0.coords t) (ms0 t) (hs0 t) (ms1 t) (hs1 t) (ms2 t) (hs2 t) (ms3 t) (hs3 t) (ms4 t) (hs4 t)
      ((hcond1 t).mpr h0) ((hcond2 t).mpr h2) (iblk m c 0 t) (iblk m c 1 t) (iblk m c 2 t) (iblk m c 3 t) := by
  obtain ⟨n, hn⟩ := t
  cases n with
  | zero => rfl
  | succ n => exact absurd h0 (Nat.succ_ne_zero n)

/-- At a point on or above the diagonal the obligation's post for the output is the accumulator. -/
theorem leaves4_live (c : Dev nD) (t : Fin cfg0.N) (h : cfg0.idle 4 (grid0.coords t) = false) :
    (dats m 0 c).leavesExact 4 t = owns (c : Thread nD τ) (ms4 t) fullShare ((dats m 0 c).after 4 t) := by
  unfold Dat.leavesExact; rw [h]

/-! ## The body obligation, at a generic point -/

def bodyPre (c : Dev nD) (t : Fin cfg0.N) : sProp 𝕄 :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d))
    ∗ (∃ d, owns (c : Thread nD τ) (ms3 t) fullShare ((dats m 0 c).before 3 t d))
    ∗ (∃ d, owns (c : Thread nD τ) (ms4 t) fullShare ((dats m 0 c).before 4 t d)))

def bodyPost (c : Dev nD) (t : Fin cfg0.N) : sProp 𝕄 :=
  iprop((dats m 0 c).Φ t.succ ∗ (dats m 0 c).owesAt () t.succ
    ∗ owns (c : Thread nD τ) (ms0 t) fullShare ((dats m 0 c).after 0 t)
    ∗ owns (c : Thread nD τ) (ms1 t) fullShare ((dats m 0 c).after 1 t)
    ∗ owns (c : Thread nD τ) (ms2 t) fullShare ((dats m 0 c).after 2 t)
    ∗ owns (c : Thread nD τ) (ms3 t) fullShare ((dats m 0 c).after 3 t)
    ∗ (dats m 0 c).leavesExact 4 t)

set_option maxHeartbeats 1600000 in
/-- The body at any point: the inputs' buffers hold their blocks; on or above the diagonal the output's buffer holds
    anything (first point) or the accumulator of the point before, and the matching run applies; below the diagonal the
    body hands every buffer back. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1, before2, before3]
  rw [show (dats m 0 c).Φ t.succ = (dats m 0 c).Φ t.castSucc from rfl,
    show (dats m 0 c).owesAt () t.succ = (dats m 0 c).owesAt () t.castSucc from rfl,
    after0, after1, after2, after3]
  have hN : t.val < 1024 := lt_of_lt_of_eq t.isLt N_0
  by_cases h2 : t.val / 32 ≤ t.val % 32
  · have hlive : cfg0.idle 4 (grid0.coords t) = false := by rw [hidle4]; exact decide_eq_false (not_not.mpr h2)
    rw [leaves4_live m c t hlive, after4]
    by_cases h0 : t.val = 0
    · rw [acc_first m c t h0 h2]
      unfold outFirst
      iintro ⟨HΦ, Ho, ⟨%d0, H0⟩, ⟨%d1, H1⟩, ⟨%d2, H2⟩, ⟨%d3, H3⟩, ⟨%d4, H4⟩⟩
      iapply ((runFirst c (grid0.coords t) _ _ _ _ _ _ _ _ _ _ ((hcond1 t).mpr h0) ((hcond2 t).mpr h2)
        (iblk m c 0 t) (iblk m c 1 t) (iblk m c 2 t) (iblk m c 3 t)).2 Set.univ _)
      isplitl [H0]; · iexact H0
      isplitl [H1]; · iexact H1
      isplitl [H2]; · iexact H2
      isplitl [H3]; · iexact H3
      isplitl [H4]; · iexists _; iexact H4
      iintro ⟨H0, H1, H2, H3, ⟨%e4, H4⟩⟩
      isplitl [HΦ]; · iexact HΦ
      isplitl [Ho]; · iexact Ho
      isplitl [H0]; · iexact H0
      isplitl [H1]; · iexact H1
      isplitl [H2]; · iexact H2
      isplitl [H3]; · iexact H3
      unfold owns; iexists _; isplitr
      swap; · iexact H4
      ipureintro; exact View.read_writes_of_cover _ _ _ _ _ (coverFirst c _ _ _ _ _ _ _ _ _ _ _ _ _ _ _ _ _)
    · rw [acc_later m c t h0 h2]
      simp only [before4 m c t h0]
      unfold outLater
      iintro ⟨HΦ, Ho, ⟨%d0, H0⟩, ⟨%d1, H1⟩, ⟨%d2, H2⟩, ⟨%d3, H3⟩, ⟨%d4, H4⟩⟩
      iapply ((runLater c (grid0.coords t) _ _ _ _ _ _ _ _ _ _ (fun h => h0 ((hcond1 t).mp h)) ((hcond2 t).mpr h2)
        (iblk m c 0 t) (iblk m c 1 t) (iblk m c 2 t) (iblk m c 3 t) _).2 Set.univ _)
      isplitl [H0]; · iexact H0
      isplitl [H1]; · iexact H1
      isplitl [H2]; · iexact H2
      isplitl [H3]; · iexact H3
      isplitl [H4]; · iexact H4
      iintro ⟨H0, H1, H2, H3, ⟨%e4, H4⟩⟩
      isplitl [HΦ]; · iexact HΦ
      isplitl [Ho]; · iexact Ho
      isplitl [H0]; · iexact H0
      isplitl [H1]; · iexact H1
      isplitl [H2]; · iexact H2
      isplitl [H3]; · iexact H3
      unfold owns; iexists _; isplitr
      swap; · iexact H4
      ipureintro; exact View.read_writes_of_cover _ _ _ _ _ (coverLater c _ _ _ _ _ _ _ _ _ _ _ _ _ _ _ _ _ _)
  · have hidle : cfg0.idle 4 (grid0.coords t) = true := by rw [hidle4]; exact decide_eq_true h2
    have hfl : (cfg0.win 4).flush t = false := flush4_false t (fun h => h2 (by omega))
    rw [Dat.leavesExact_idle _ 4 t hidle hfl]
    iintro ⟨HΦ, Ho, ⟨%d0, H0⟩, ⟨%d1, H1⟩, ⟨%d2, H2⟩, ⟨%d3, H3⟩, ⟨%d4, H4⟩⟩
    iapply (runBelow c (grid0.coords t) _ _ _ _ _ _ _ _ _ _ (fun h => h2 (by have := (hcond1 t).mp h; omega))
      (fun h => h2 ((hcond2 t).mp h)) Set.univ _)
    isplitl [HΦ]; · iexact HΦ
    isplitl [Ho]; · iexact Ho
    isplitl [H0]; · iexact H0
    isplitl [H1]; · iexact H1
    isplitl [H2]; · iexact H2
    isplitl [H3]; · iexact H3
    iexists _; iexact H4

/-- The library's body obligation, at every point. -/
theorem body_obligation (c : Dev nD) : BodyObligation (dats (F := F) m 0 c) (defs₀ (F := F)) Variants.none () Set.univ := fun t => by
  rw [bigSep_W0, bigSep_W0]
  exact sound_body m c t

/-! ## The run and the frame -/

set_option backward.isDefEq.respectTransparency.types false in
/-- Every weakly fair execution of @main terminates; every array of the pipeline ends at what the proof data computes,
    and every other buffer at what the host lines after the region compute from them. -/
theorem run_main : θ_run defs (onTc (τ := τ) (main (F := F))) (s₀ m ρ)
    (Pipeline.FramePost cfgs (dats m) 0 (Pipeline.afterTail₀ cfgs (dats m) 0 (V0 m) [hostOps1])) :=
  Pipeline.θ_run_frame_around cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hΦ := fun _ _ => rfl)

/-- The frame claim: @main runs and leaves both argument arrays as it found them. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  frame_of m ρ (dats m) (A_eq m) (run_main m ρ)

end Cert.Kernel.Body

end
-- ==== Proof.LibBitCount.lean ====
/-
  Counting one-bit words.

  A one-bit word widened to 32 bits is the number 0 or 1, so a 32-bit two's-complement sum of fewer than 2^31 of them
  never wraps around: read back as a signed integer, and that integer as an extended real, the sum is the sum of the
  bits' own values. This is the step between "convert every bit, then add the numbers" and "add the bits as integers,
  then convert the total".
-/
import Idealize.ShloMosaic.PureOps.Reduce
import Idealize.ShloMosaic.PureOps.Ideal

namespace Cert.BitCount

open Idealize.ShloMosaic

/-- The value of a one-bit word as an extended real: 0 or 1. -/
def ind (b : BitVec 1) : EReal := ((b.toNat : ℝ) : EReal)

theorem ind_one : ind 1#1 = 1 := by
  show (((1 : ℕ) : ℝ) : EReal) = 1
  rw [Nat.cast_one, EReal.coe_one]

theorem ind_zero : ind 0#1 = 0 := by
  show (((0 : ℕ) : ℝ) : EReal) = 0
  rw [Nat.cast_zero, EReal.coe_zero]

/-- A one-bit word's unsigned value is at most one. -/
theorem toNat_le_one (b : BitVec 1) : b.toNat ≤ 1 := by
  have h := b.isLt
  omega

/-- Widening a one-bit word to 32 bits keeps its unsigned value. -/
theorem toNat_widen (b : BitVec 1) : (b.setWidth 32).toNat = b.toNat := by
  rw [BitVec.toNat_setWidth]
  have h := b.isLt
  exact Nat.mod_eq_of_lt (by omega)

/-- One widened bit, read as a signed integer and then as an extended real, is the bit's value. -/
theorem signed_widen (b : BitVec 1) : ((((b.setWidth 32).toInt : ℤ) : ℝ) : EReal) = ind b := by
  have h : (b.setWidth 32).toInt = ((b.toNat : ℕ) : ℤ) := by
    rw [BitVec.toInt_eq_toNat_of_lt (by rw [toNat_widen]; have := toNat_le_one b; omega), toNat_widen]
  rw [h, Int.cast_natCast]
  rfl

/-- The set bits among a finite family are at most as many as the family. -/
theorem sum_toNat_le_card {ι : Type*} (f : ι → BitVec 1) (S : Finset ι) : ∑ k ∈ S, (f k).toNat ≤ S.card := by
  rw [Finset.card_eq_sum_ones]
  exact Finset.sum_le_sum fun k _ => toNat_le_one (f k)

/-- The fold of 32-bit addition over a finite family of widened bits, started at zero, has as its unsigned value the
    number of set bits, as long as the family has fewer than 2^32 members (no carry leaves the word). -/
theorem toNat_fold_widen {ι : Type*} [DecidableEq ι] (f : ι → BitVec 1) (S : Finset ι) (hS : S.card < 2 ^ 32) :
    (S.fold IntOp.addi 0#32 (fun k => (f k).setWidth 32)).toNat = ∑ k ∈ S, (f k).toNat := by
  induction S using Finset.induction_on with
  | empty => rfl
  | insert a S ha ih =>
    have hc : S.card < 2 ^ 32 := by
      rw [Finset.card_insert_of_notMem ha] at hS
      omega
    have hle := sum_toNat_le_card f S
    have h1 := toNat_le_one (f a)
    rw [Finset.fold_insert ha, Finset.sum_insert ha]
    show ((f a).setWidth 32 + S.fold IntOp.addi 0#32 (fun k => (f k).setWidth 32)).toNat = _
    rw [BitVec.toNat_add, ih hc, toNat_widen]
    rw [Finset.card_insert_of_notMem ha] at hS
    exact Nat.mod_eq_of_lt (by omega)

/-- The values of finitely many bits, added as naturals and the total read as an extended real, is the sum of the bits'
    values as extended reals. -/
theorem cast_sum_toNat {ι : Type*} [DecidableEq ι] (f : ι → BitVec 1) (S : Finset ι) :
    (((∑ k ∈ S, (f k).toNat : ℕ) : ℝ) : EReal) = ∑ k ∈ S, ind (f k) := by
  induction S using Finset.induction_on with
  | empty => rw [Finset.sum_empty, Finset.sum_empty, Nat.cast_zero, EReal.coe_zero]
  | insert a S ha ih =>
    rw [Finset.sum_insert ha, Finset.sum_insert ha, Nat.cast_add, EReal.coe_add, ih]
    rfl

/-- THE COUNT: the 32-bit sum of fewer than 2^31 widened bits, read as a SIGNED integer and that as an extended real, is
    the sum of the bits' values (the total is below 2^31, so its sign bit is clear and no carry left the word). -/
theorem signed_fold_widen {ι : Type*} [DecidableEq ι] (f : ι → BitVec 1) (S : Finset ι) (hS : S.card < 2 ^ 31) :
    ((((S.fold IntOp.addi 0#32 (fun k => (f k).setWidth 32)).toInt : ℤ) : ℝ) : EReal) = ∑ k ∈ S, ind (f k) := by
  have hn := toNat_fold_widen f S (by omega)
  have hle := sum_toNat_le_card f S
  have h : (S.fold IntOp.addi 0#32 (fun k => (f k).setWidth 32)).toInt = ((∑ k ∈ S, (f k).toNat : ℕ) : ℤ) := by
    rw [BitVec.toInt_eq_toNat_of_lt (by rw [hn]; omega), hn]
  rw [h, Int.cast_natCast]
  exact cast_sum_toNat f S

end Cert.BitCount
-- ==== Proof.Spec.lean ====
/-
  The margin contrastive loss over all ordered pairs of rows, as one function of the feature array and the class array.

  For rows i, j of an [8192, 64] array x with integer classes: the squared distance is
  d2(i, j) = max(|x_i|^2 + |x_j|^2 - 2 <x_i, x_j>, 0). A pair is counted only when i < j. A pair of equal classes
  contributes d2 to the positive sum and 1 to the positive count; a pair of different classes contributes
  max(1 - sqrt(max(d2, eps)), 0)^2 to the negative sum. The number of negative pairs is the number of all pairs i < j,
  8192 * 8191 / 2 = 33550336, less the positive count. The loss is
  (1/2) (pos / (8192 + count) + neg / max(1, 33550336 - count)).
  Float literals stay the words the programs print; only zero is read.
-/
import Idealize.ShloMosaic.PureOps.Ideal
import Idealize.ShloMosaic.PureOps.Ideal.Laws
import Idealize.ShloMosaic.Lib.ValueIdx
import proofs.«115014_j88038239634243_2_alg».proof.Proof.LibBitCount

noncomputable section

namespace Cert.PairLoss

open Idealize.ShloMosaic Idealize.ShloMosaic.ValueIdx

/-- The feature array: 8192 rows of 64 extended reals. -/
abbrev Feats := (⟨2, ![8192, 64]⟩ : Shape).Idx → EReal
/-- The class array: 8192 words. -/
abbrev Classes := (⟨1, ![8192]⟩ : Shape).Idx → BitVec 32

/-- The words of 2, of the distance floor 1e-12, of 1, of 1/2, of 8192 and of 33550336. -/
abbrev two : EReal := Ideal.ofBits .f32 0x40000000#32
abbrev eps : EReal := Ideal.ofBits .f32 0x2B8CBCCC#32
abbrev one : EReal := Ideal.ofBits .f32 0x3F800000#32
abbrev half : EReal := Ideal.ofBits .f32 0x3F000000#32
abbrev nRows : EReal := Ideal.ofBits .f32 0x46000000#32
abbrev nPairs : EReal := Ideal.ofBits .f32 0x4BFFF800#32

variable (x : Feats) (cls : Classes)

/-- The squared norm of row i. -/
def sq (i : Fin 8192) : EReal := ∑ k : Fin 64, x (ix2 i k) * x (ix2 i k)
/-- The inner product of rows i and j. -/
def dot (i j : Fin 8192) : EReal := ∑ k : Fin 64, x (ix2 i k) * x (ix2 j k)
/-- The squared distance of rows i and j, floored at zero. -/
def d2 (i j : Fin 8192) : EReal := max (sq x i + sq x j - two * dot x i j) 0

/-- A pair i < j of equal classes, as a one-bit word. -/
def posB (i j : Fin 8192) : BitVec 1 := if i.val < j.val ∧ cls (ix1 i) = cls (ix1 j) then 1#1 else 0#1
/-- A pair i < j of different classes, as a one-bit word. -/
def negB (i j : Fin 8192) : BitVec 1 := if i.val < j.val ∧ cls (ix1 i) ≠ cls (ix1 j) then 1#1 else 0#1

/-- The hinge of a pair: max(1 - sqrt(max(d2, eps)), 0). -/
def hinge (i j : Fin 8192) : EReal := max (one - Ideal.sqrt (max (d2 x i j) eps)) 0

/-- What a pair adds to the positive sum, to the negative sum and to the positive count. -/
def posT (i j : Fin 8192) : EReal := if posB cls i j = 1#1 then d2 x i j else 0
def negT (i j : Fin 8192) : EReal := if negB cls i j = 1#1 then hinge x i j * hinge x i j else 0
def cntT (i j : Fin 8192) : EReal := Cert.BitCount.ind (posB cls i j)

/-- The three totals over all pairs. -/
def posSum : EReal := ∑ i : Fin 8192, ∑ j : Fin 8192, posT x cls i j
def negSum : EReal := ∑ i : Fin 8192, ∑ j : Fin 8192, negT x cls i j
def posCnt : EReal := ∑ i : Fin 8192, ∑ j : Fin 8192, cntT cls i j

/-- Row r of tile I: the rows are cut into 32 tiles of 256. -/
def row (I : Fin 32) (r : Fin 256) : Fin 8192 := ⟨I.val * 256 + r.val, by have := I.isLt; have := r.isLt; omega⟩

/-- What tile (I, J) of the pair matrix adds to lane l of the accumulator row: its positive sum in lane 0, its negative
    sum in lane 1, its positive count in lane 2, nothing elsewhere. -/
def tileInc (I J : Fin 32) (l : Fin 128) : EReal :=
  if l.val = 0 then ∑ r : Fin 256, ∑ c : Fin 256, posT x cls (row I r) (row J c)
  else if l.val = 1 then ∑ r : Fin 256, ∑ c : Fin 256, negT x cls (row I r) (row J c)
  else if l.val = 2 then ∑ r : Fin 256, ∑ c : Fin 256, cntT cls (row I r) (row J c)
  else 0

/-- The loss from the three totals. -/
def lossOf (p n c : EReal) : EReal :=
  half * (Ideal.div p (nRows + c) + Ideal.div n (max one (nPairs - c)))

/-- The loss. -/
def loss : EReal := lossOf (posSum x cls) (negSum x cls) (posCnt cls)

end Cert.PairLoss

end
-- ==== Proof.Algebra.lean ====
/-
  Sums over the pair matrix, rearranged.

  (1) A sum over all pairs of rows is the sum over the 32 x 32 tiles of the sums inside each tile.
  (2) The pairs i < j among 8192 rows number 8192 * 8191 / 2 = 33550336, and each is positive or negative, never both.
  (3) An accumulator that starts at the first tile's term and, walking the tiles row by row, adds a tile's term exactly
      when the tile is on or above the diagonal, ends at the sum of those tiles' terms.
-/
import proofs.«115014_j88038239634243_2_alg».proof.Proof.Spec

noncomputable section

namespace Cert.PairLoss

open Idealize.ShloMosaic Idealize.ShloMosaic.ValueIdx

/-- The rows, as pairs (tile, row inside the tile). -/
def rowEquiv : Fin 32 × Fin 256 ≃ Fin 8192 where
  toFun p := row p.1 p.2
  invFun i := (⟨i.val / 256, by have := i.isLt; omega⟩, ⟨i.val % 256, Nat.mod_lt _ (by omega)⟩)
  left_inv := by
    rintro ⟨I, r⟩
    have hI := I.isLt
    have hr := r.isLt
    apply Prod.ext
    · apply Fin.ext
      show (I.val * 256 + r.val) / 256 = I.val
      omega
    · apply Fin.ext
      show (I.val * 256 + r.val) % 256 = r.val
      omega
  right_inv := by
    intro i
    apply Fin.ext
    show i.val / 256 * 256 + i.val % 256 = i.val
    omega

/-- A sum over the rows is the sum over the tiles of the sums inside each tile. -/
theorem sum_rows {M : Type} [AddCommMonoid M] (f : Fin 8192 → M) :
    ∑ i : Fin 8192, f i = ∑ I : Fin 32, ∑ r : Fin 256, f (row I r) := by
  rw [← Fintype.sum_prod_type' (fun I r => f (row I r))]
  exact (Fintype.sum_equiv rowEquiv (fun p => f (row p.1 p.2)) f (fun _ => rfl)).symm

/-- (1) Tiling a double sum over the rows. -/
theorem sum_tiles {M : Type} [AddCommMonoid M] (f : Fin 8192 → Fin 8192 → M) :
    ∑ i : Fin 8192, ∑ j : Fin 8192, f i j
      = ∑ I : Fin 32, ∑ J : Fin 32, ∑ r : Fin 256, ∑ c : Fin 256, f (row I r) (row J c) := by
  rw [sum_rows (fun i => ∑ j : Fin 8192, f i j)]
  refine Finset.sum_congr rfl (fun I _ => ?_)
  have h : ∀ r : Fin 256, ∑ j : Fin 8192, f (row I r) j = ∑ J : Fin 32, ∑ c : Fin 256, f (row I r) (row J c) :=
    fun r => sum_rows (fun j => f (row I r) j)
  rw [Finset.sum_congr rfl (fun r _ => h r)]
  exact Finset.sum_comm

/-- Whether a pair counts, as a number. -/
theorem negB_add_posB (cls : Classes) (i j : Fin 8192) :
    (negB cls i j).toNat + (posB cls i j).toNat = if i < j then 1 else 0 := by
  unfold negB posB
  by_cases hij : i.val < j.val
  · have hlt : i < j := hij
    by_cases hc : cls (ix1 i) = cls (ix1 j)
    · simp [hij, hc, hlt]
    · simp [hij, hc, hlt]
  · have hlt : ¬ i < j := hij
    simp [hij, hlt]

/-- The rows after row i number 8191 - i. -/
theorem count_after (i : Fin 8192) : (∑ j : Fin 8192, if i < j then 1 else 0) = 8191 - i.val := by
  rw [Finset.sum_boole]
  have : (Finset.univ.filter (fun j : Fin 8192 => i < j)) = Finset.Ioi i := by
    ext j; simp
  rw [this, Fin.card_Ioi]
  simp

/-- The pairs i < j among 8192 rows number 8192 * 8191 / 2. -/
theorem count_pairs : (∑ i : Fin 8192, ∑ j : Fin 8192, if i < j then 1 else 0) = 33550336 := by
  rw [Finset.sum_congr rfl (fun i _ => count_after i)]
  rw [Fin.sum_univ_eq_sum_range (fun k => 8191 - k) 8192]
  have h := Finset.sum_range_reflect (fun k => k) 8192
  have h2 : ∑ k ∈ Finset.range 8192, (8191 - k) = ∑ k ∈ Finset.range 8192, k := by
    simpa using h
  rw [h2, Finset.sum_range_id]

/-- (2) Every pair i < j is positive or negative, never both: the two bit counts add up to the number of pairs. -/
theorem neg_add_pos (cls : Classes) :
    (∑ i : Fin 8192, ∑ j : Fin 8192, (negB cls i j).toNat) + (∑ i : Fin 8192, ∑ j : Fin 8192, (posB cls i j).toNat) = 33550336 := by
  rw [← Finset.sum_add_distrib]
  rw [Finset.sum_congr rfl (fun i _ => (Finset.sum_add_distrib (f := fun j => (negB cls i j).toNat)
    (g := fun j => (posB cls i j).toNat) (s := Finset.univ)).symm)]
  rw [Finset.sum_congr rfl (fun i _ => Finset.sum_congr rfl (fun j _ => negB_add_posB cls i j))]
  exact count_pairs

/-- The tiles in row-major order, as pairs (tile row, tile column). -/
def tileEquiv : Fin 32 × Fin 32 ≃ Fin 1024 where
  toFun p := ⟨p.1.val * 32 + p.2.val, by have := p.1.isLt; have := p.2.isLt; omega⟩
  invFun k := (⟨k.val / 32, by have := k.isLt; omega⟩, ⟨k.val % 32, Nat.mod_lt _ (by omega)⟩)
  left_inv := by
    rintro ⟨I, J⟩
    have hI := I.isLt
    have hJ := J.isLt
    apply Prod.ext
    · apply Fin.ext
      show (I.val * 32 + J.val) / 32 = I.val
      omega
    · apply Fin.ext
      show (I.val * 32 + J.val) % 32 = J.val
      omega
  right_inv := by
    intro k
    apply Fin.ext
    show k.val / 32 * 32 + k.val % 32 = k.val
    omega

/-- The term of the k-th tile of the walk: the tile's term when it is on or above the diagonal, zero otherwise. -/
def walkTerm {M : Type} [AddCommMonoid M] (g : Fin 32 → Fin 32 → M) (k : ℕ) : M :=
  if h : k < 1024 then
    (if k / 32 ≤ k % 32 then g ⟨k / 32, by omega⟩ ⟨k % 32, Nat.mod_lt _ (by omega)⟩ else 0)
  else 0

/-- The walk's accumulator after tile n is the sum of the terms of tiles 0 .. n. -/
theorem walk_invariant {M : Type} [AddCommMonoid M] (g : Fin 32 → Fin 32 → M) (a : (n : ℕ) → n < 1024 → M)
    (h0 : a 0 (by omega) = g 0 0)
    (hs : ∀ (n : ℕ) (h : n + 1 < 1024), a (n + 1) h =
      if (n + 1) / 32 ≤ (n + 1) % 32 then a n (by omega) + g ⟨(n + 1) / 32, by omega⟩ ⟨(n + 1) % 32, Nat.mod_lt _ (by omega)⟩
      else a n (by omega)) :
    ∀ (n : ℕ) (h : n < 1024), a n h = ∑ k ∈ Finset.range (n + 1), walkTerm g k := by
  intro n
  induction n with
  | zero =>
    intro h
    rw [h0, Finset.sum_range_one]
    unfold walkTerm
    simp
  | succ n ih =>
    intro h
    rw [Finset.sum_range_succ, ← ih (by omega), hs n h]
    unfold walkTerm
    rw [dif_pos h]
    split
    · rfl
    · rw [add_zero]

/-- (3) The walk over the 1024 tiles in row-major order. -/
theorem walk_tiles {M : Type} [AddCommMonoid M] (g : Fin 32 → Fin 32 → M) (a : (n : ℕ) → n < 1024 → M)
    (h0 : a 0 (by omega) = g 0 0)
    (hs : ∀ (n : ℕ) (h : n + 1 < 1024), a (n + 1) h =
      if (n + 1) / 32 ≤ (n + 1) % 32 then a n (by omega) + g ⟨(n + 1) / 32, by omega⟩ ⟨(n + 1) % 32, Nat.mod_lt _ (by omega)⟩
      else a n (by omega)) :
    a 1023 (by omega) = ∑ I : Fin 32, ∑ J : Fin 32, if I.val ≤ J.val then g I J else 0 := by
  rw [walk_invariant g a h0 hs 1023 (by omega)]
  rw [← Fin.sum_univ_eq_sum_range (walkTerm g) 1024]
  rw [← Fintype.sum_prod_type' (fun I J => if I.val ≤ J.val then g I J else 0)]
  refine (Fintype.sum_equiv tileEquiv _ _ (fun p => ?_)).symm
  obtain ⟨I, J⟩ := p
  have hI := I.isLt
  have hJ := J.isLt
  have hk : I.val * 32 + J.val < 1024 := by omega
  have hd : (I.val * 32 + J.val) / 32 = I.val := by omega
  have hm : (I.val * 32 + J.val) % 32 = J.val := by omega
  show (if I.val ≤ J.val then g I J else 0) = walkTerm g (I.val * 32 + J.val)
  unfold walkTerm
  rw [dif_pos hk]
  have e1 : (⟨(I.val * 32 + J.val) / 32, by omega⟩ : Fin 32) = I := Fin.ext hd
  have e2 : (⟨(I.val * 32 + J.val) % 32, Nat.mod_lt _ (by omega)⟩ : Fin 32) = J := Fin.ext hm
  rw [e1, e2, hd, hm]

end Cert.PairLoss

end
-- ==== Proof.LibKeepdims.lean ====
/-
  The two layout steps of a sum that keeps its axis (`jnp.sum(…, axis=1, keepdims=True)`), read at an index:
  a vector of row statistics `[a]` cast to a column `[a, 1]`, and that column broadcast along the rows to
  `[a, b]`. In row-major order the entry (i, 0) of an `[a, 1]` array is entry i of the `[a]` array, and a
  broadcast reads the operand's unit axis at 0 and its full axis at the result's coordinate. General in the
  extents; they complement the leading-unit-axis casts and the row broadcast `[1, b] → [a, b]` of the library.
-/
import Idealize.ShloMosaic.Lib.Pipeline.Value
import Idealize.ShloMosaic.Lib.ValueIdx

namespace Cert.LibKeepdims

open Idealize.ShloMosaic Idealize.ShloMosaic.ValueIdx

variable {α : Type}

/-- An `[a]` array cast to the column `[a, 1]` reads, at `(i, u)`, the operand at `i`, whatever the unit
    coordinate `u`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast to `[a, b]` reads, at `(p, c)`, the operand's entry of row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Cert.LibKeepdims
-- ==== Proof.LibContract.lean ====
/-
  A matrix unit's product over ONE contracted axis, read at an output position.

  At the exact instance a product into a zero accumulator is the sum, over the contraction's index type, of
  the products of the operands at the positions the dimension record assigns. When the contraction has one
  axis of extent `K`, that index type is `Fin K` up to a bijection, and the sum can be written over `Fin K`
  with the two operand positions named as functions of `k` — whatever axes the record contracts.
-/
import Idealize.ShloMosaic.Lib.ValueIdx
import Idealize.ShloMosaic.PureOps.Ideal.Laws

noncomputable section

namespace Cert.LibContract

open Idealize.ShloMosaic Idealize.ShloMosaic.ValueIdx

/-- A product into the zero accumulator, contracted over one axis of extent `K`, at the output position `j`:
    the sum over `k : Fin K` of the left operand at `li k` times the right operand at `ri k`, where `li`, `ri` are
    the positions the dimension record gives for the `k`-th contracted coordinate. -/
theorem matmul_zero_entry {sl sr so : Shape} {φ₁ φ₂ : FTy} (d : DotDims sl sr so) (prec : Option ContractPrecision) (K : ℕ)
    (hr : d.contr.rank = 1) (hs : d.contr.size ⟨0, by omega⟩ = K)
    (l : FVec Ideal sl φ₁) (r : FVec Ideal sr φ₂) (j : so.Idx) (li : Fin K → sl.Idx) (ri : Fin K → sr.Idx)
    (hl : ∀ k, d.lhsIdx j ((contrEquiv1 d K hr hs).symm k) = li k)
    (hr' : ∀ k, d.rhsIdx j ((contrEquiv1 d K hr hs).symm k) = ri k) :
    FloatOps.matmul d prec l r (constant (F := Ideal) so .f32 0x00000000#32) j = ∑ k : Fin K, l (li k) * r (ri k) := by
  rw [Ideal.matmul_constant_zero_apply, ← Equiv.sum_comp (contrEquiv1 d K hr hs).symm]
  exact Finset.sum_congr rfl fun k _ => by rw [hl k, hr' k]

end Cert.LibContract

end
-- ==== Proof.TileValueD2.lean ====
/-
  The squared-distance tile of the pair loss, read at a position.

  For a row block [256, 64] and a transposed column block [64, 256], the tile's entry (r, c) is
  max(|a_r|^2 + |b_c|^2 - 2 <a_r, b_c>, 0): the two squared norms are lane sums, the inner product is one entry of the
  block product into a zero accumulator, and the column and row of norms are broadcast over the tile. When the
  blocks hold rows I*256 + r and J*256 + c of the feature array this is the squared distance of those two rows; its
  floor at the distance floor is the second tile.
-/
import proofs.«115014_j88038239634243_2_alg».proof.Proof.Gen.KernelIdeal.Skeleton
import proofs.«115014_j88038239634243_2_alg».proof.Proof.Spec
import proofs.«115014_j88038239634243_2_alg».proof.Proof.LibKeepdims
import proofs.«115014_j88038239634243_2_alg».proof.Proof.LibContract
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.TileValue

open Cert.KernelIdeal Cert.KernelIdeal.Gen Cert.PairLoss Idealize.ShloMosaic Idealize.ShloMosaic.ValueIdx

/-- The lane sum of a [256, 64] block over its second axis, at row r. -/
theorem rowsum64 (v : FVec Ideal S256x64 .f32) (r : Fin 256) :
    multiReduction .add [1] S256 v 0x00000000#32 reduces_S256x64_S256 (.inl rfl) rfl (ix1 r) = ∑ k : Fin 64, v (ix2 r k) := by
  refine (Ideal.multiReduction_add_single v _ reduces_S256x64_S256 (.inl rfl) rfl (ix1 r)).trans ?_
  refine Finset.sum_congr rfl fun k _ => congrArg v ?_
  funext a
  match a with
  | ⟨0, _⟩ => rfl
  | ⟨1, _⟩ => rfl

/-- The sum of a [64, 256] block over its first axis, at column c. -/
theorem colsum64 (v : FVec Ideal S64x256 .f32) (c : Fin 256) :
    multiReduction .add [0] S256 v 0x00000000#32 reduces_S64x256_S256 (.inl rfl) rfl (ix1 c) = ∑ k : Fin 64, v (ix2 k c) := by
  refine (Ideal.multiReduction_add_single v _ reduces_S64x256_S256 (.inl rfl) rfl (ix1 c)).trans ?_
  refine Finset.sum_congr rfl fun k _ => congrArg v ?_
  funext a
  match a with
  | ⟨0, _⟩ => rfl
  | ⟨1, _⟩ => rfl

/-- The product's left operand position: its row is the output's row. -/
theorem lhs_pos_0 (j : S256x256.Idx) (q : dot_S256x64_S64x256_S256x256_1_0_0_1_n_n.contr.Idx) :
    (dot_S256x64_S64x256_S256x256_1_0_0_1_n_n.lhsIdx j q 0).val = (j 0).val := by
  unfold DotDims.lhsIdx
  rw [dif_neg (show ¬(0 : Fin S256x64.rank) ∈ dot_S256x64_S64x256_S256x256_1_0_0_1_n_n.lhsBatch by decide),
    dif_pos (show (0 : Fin S256x64.rank) ∈ dot_S256x64_S64x256_S256x256_1_0_0_1_n_n.lhsNonContracting by decide)]
  rfl

/-- The product's right operand position: its column is the output's column. -/
theorem rhs_pos_1 (j : S256x256.Idx) (q : dot_S256x64_S64x256_S256x256_1_0_0_1_n_n.contr.Idx) :
    (dot_S256x64_S64x256_S256x256_1_0_0_1_n_n.rhsIdx j q 1).val = (j 1).val := by
  unfold DotDims.rhsIdx
  rw [dif_neg (show ¬(1 : Fin S64x256.rank) ∈ dot_S256x64_S64x256_S256x256_1_0_0_1_n_n.rhsBatch by decide),
    dif_pos (show (1 : Fin S64x256.rank) ∈ dot_S256x64_S64x256_S256x256_1_0_0_1_n_n.rhsNonContracting by decide)]
  rfl

/-- The product of a [256, 64] block and a [64, 256] block into a zero accumulator, at (r, c): the inner product of
    row r of the first with column c of the second. -/
theorem matmul_entry (x0 : FVec Ideal S256x64 .f32) (x1 : FVec Ideal S64x256 .f32) (r c : Fin 256) :
    matmul dot_S256x64_S64x256_S256x256_1_0_0_1_n_n (some .fp32) x0 x1 (constant (F := Ideal) S256x256 .f32 0x00000000#32) (ix2 r c)
      = ∑ k : Fin 64, x0 (ix2 r k) * x1 (ix2 k c) := by
  refine Cert.LibContract.matmul_zero_entry dot_S256x64_S64x256_S256x256_1_0_0_1_n_n (some .fp32) 64 rfl rfl x0 x1 (ix2 r c)
    (fun k => ix2 r k) (fun k => ix2 k c) (fun k => ?_) (fun k => ?_)
  · have hk := contrEquiv1_symm_val dot_S256x64_S64x256_S256x256_1_0_0_1_n_n 64 rfl rfl k
    funext a
    refine Fin.ext ?_
    match a with
    | ⟨0, _⟩ => exact lhs_pos_0 _ _
    | ⟨1, _⟩ => exact (dot_S256x64_S64x256_S256x256_1_0_0_1_n_n.lhsIdx_val_of_single rfl _ _).trans hk
  · have hk := contrEquiv1_symm_val dot_S256x64_S64x256_S256x256_1_0_0_1_n_n 64 rfl rfl k
    funext a
    refine Fin.ext ?_
    match a with
    | ⟨0, _⟩ => exact (dot_S256x64_S64x256_S256x256_1_0_0_1_n_n.rhsIdx_val_of_single rfl _ _).trans hk
    | ⟨1, _⟩ => exact rhs_pos_1 _ _

/-- The squared-distance tile at (r, c), in terms of the two blocks. -/
theorem pay2_blocks (x0 : Vec Ideal S256x64 .f32) (x1 : Vec Ideal S64x256 .f32) (r c : Fin 256) :
    k0_pay2 (F := Ideal) x0 x1 (ix2 r c)
      = max ((∑ k : Fin 64, x0 (ix2 r k) * x0 (ix2 r k)) + (∑ k : Fin 64, x1 (ix2 k c) * x1 (ix2 k c))
          - Ideal.ofBits .f32 0x40000000#32 * ∑ k : Fin 64, x0 (ix2 r k) * x1 (ix2 k c)) 0 := by
  unfold k0_pay2
  simp only [shapeCast_self]
  show max ((broadcastTo S256x256 (shapeCast S256x1 (multiReduction .add [1] S256 (mulf x0 x0) 0x00000000#32 reduces_S256x64_S256 (.inl rfl) rfl) shapeCasts_S256_S256x1) broadcasts_S256x1_S256x256 (ix2 r c)
        + broadcastTo S256x256 (shapeCast S1x256 (multiReduction .add [0] S256 (mulf x1 x1) 0x00000000#32 reduces_S64x256_S256 (.inl rfl) rfl) shapeCasts_S256_S1x256) broadcasts_S1x256_S256x256 (ix2 r c))
      - Ideal.ofBits .f32 0x40000000#32 * matmul dot_S256x64_S64x256_S256x256_1_0_0_1_n_n (some .fp32) x0 x1 (constant (F := Ideal) S256x256 .f32 0x00000000#32) (ix2 r c))
      (Ideal.ofBits .f32 0x00000000#32) = _
  rw [Cert.LibKeepdims.broadcastTo_a1_ab_apply, Cert.LibKeepdims.shapeCast_a_a1_apply, broadcastTo_1b_ab_apply,
    shapeCast_a_1a_apply, rowsum64, colsum64, matmul_entry, Ideal.ofBits_zero_f32]
  rfl

/-- The squared-distance tile at (r, c) is the squared distance of global rows (I, r) and (J, c). -/
theorem pay2_apply (x : Feats) (I J : Fin 32) (x0 : Vec Ideal S256x64 .f32) (x1 : Vec Ideal S64x256 .f32)
    (hx0 : ∀ (r : Fin 256) (k : Fin 64), x0 (ix2 r k) = x (ix2 (row I r) k))
    (hx1 : ∀ (k : Fin 64) (c : Fin 256), x1 (ix2 k c) = x (ix2 (row J c) k)) (r c : Fin 256) :
    k0_pay2 (F := Ideal) x0 x1 (ix2 r c) = d2 x (row I r) (row J c) := by
  rw [pay2_blocks]
  unfold d2 Cert.PairLoss.sq Cert.PairLoss.dot
  simp only [hx0, hx1]

/-- The floored squared-distance tile at (r, c). -/
theorem pay8_apply (x : Feats) (I J : Fin 32) (x0 : Vec Ideal S256x64 .f32) (x1 : Vec Ideal S64x256 .f32)
    (hx0 : ∀ (r : Fin 256) (k : Fin 64), x0 (ix2 r k) = x (ix2 (row I r) k))
    (hx1 : ∀ (k : Fin 64) (c : Fin 256), x1 (ix2 k c) = x (ix2 (row J c) k)) (r c : Fin 256) :
    k0_pay8 (F := Ideal) x0 x1 (ix2 r c) = max (d2 x (row I r) (row J c)) eps := by
  unfold k0_pay8
  show max (k0_pay2 (F := Ideal) x0 x1 (ix2 r c)) (Ideal.ofBits .f32 0x2B8CBCCC#32) = _
  rw [pay2_apply x I J x0 x1 hx0 hx1]

end Cert.KernelIdeal.TileValue

end
-- ==== Proof.TileValueMask.lean ====
/-
  The pair masks of one tile of the pair loss, read at a position.

  In tile (I, J) the global row of in-tile row r is I*256 + r and the global column of in-tile column c is J*256 + c;
  both are below 8192, so the 32-bit words that hold them read, as signed integers, those numbers, and the signed
  comparison of the words is the comparison of the numbers. The class mask compares the row block's class word at r
  with the column block's at c. The positive mask is their conjunction; the negative mask is the order mask and the
  complement of the class mask. When the class blocks hold the classes of the tile's rows and columns these are the
  positive-pair and negative-pair bits of the two global rows.
-/
import proofs.«115014_j88038239634243_2_alg».proof.Proof.Gen.KernelIdeal.Skeleton
import proofs.«115014_j88038239634243_2_alg».proof.Proof.Spec
import proofs.«115014_j88038239634243_2_alg».proof.Proof.LibKeepdims
import Idealize.ShloMosaic.Lib.Affine
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.TileValue

open Cert.KernelIdeal Cert.KernelIdeal.Gen Cert.PairLoss Idealize.ShloMosaic Idealize.ShloMosaic.ValueIdx

/-- The global row index of tile coordinate I and in-tile row r, as a 32-bit word read signed. -/
theorem rowWord_isInt (I : Fin 32) (r : Fin 256) :
    Affine.IsInt (Scalar.addi (Scalar.muli (BitVec.ofNat 32 I.val) 256#32) (BitVec.ofNat 32 r.val)) ((row I r).val : Int) := by
  have hI := I.isLt
  have hr := r.isLt
  refine Affine.addi (ea := (I.val : Int) * 256) (eb := (r.val : Int)) ?_ (Affine.ofNat _ ⟨rfl, by omega⟩) ⟨?_, ?_, ?_⟩
  · exact Affine.muli (ea := (I.val : Int)) (eb := 256) (Affine.ofNat _ ⟨rfl, by omega⟩) (Affine.ofNat 256 ⟨rfl, by omega⟩) ⟨rfl, by omega, by omega⟩
  · show ((I.val * 256 + r.val : ℕ) : Int) = _
    omega
  · show _ ≤ ((I.val * 256 + r.val : ℕ) : Int)
    omega
  · show ((I.val * 256 + r.val : ℕ) : Int) < _
    omega

/-- The order mask of tile (I, J) at (r, c): global row below global column. -/
theorem pay3_apply (I J : Fin 32) (r c : Fin 256) :
    k0_pay3 (BitVec.ofNat 32 I.val) (BitVec.ofNat 32 J.val) (ix2 r c)
      = if (row I r).val < (row J c).val then 1#1 else 0#1 := by
  unfold k0_pay3
  show IntOp.cmpi .slt
      (IntOp.addi (Scalar.muli (BitVec.ofNat 32 I.val) 256#32) (iota .tc S256x256 32 [0] iota_S256x256_d0_w32 (ix2 r c)))
      (IntOp.addi (Scalar.muli (BitVec.ofNat 32 J.val) 256#32) (iota .tc S256x256 32 [1] iota_S256x256_d1_w32 (ix2 r c))) = _
  rw [iota_single_apply, iota_single_apply]
  show Scalar.cmpi .slt (Scalar.addi (Scalar.muli (BitVec.ofNat 32 I.val) 256#32) (BitVec.ofNat 32 r.val))
      (Scalar.addi (Scalar.muli (BitVec.ofNat 32 J.val) 256#32) (BitVec.ofNat 32 c.val)) = _
  by_cases h : (row I r).val < (row J c).val
  · rw [if_pos h]
    exact Affine.slt_holds (rowWord_isInt I r) (rowWord_isInt J c) (by exact_mod_cast h)
  · rw [if_neg h]
    exact eq_zero_of_ne_one (Affine.slt_fails (rowWord_isInt I r) (rowWord_isInt J c) (by exact_mod_cast h))

/-- The class-equality mask at (r, c): the row block's class word at r equals the column block's at c. -/
theorem pay4_apply (x2 : Vec Ideal S256x1 .i32) (x3 : Vec Ideal S1x256 .i32) (r c : Fin 256) :
    k0_pay4 (F := Ideal) x2 x3 (ix2 r c)
      = if x2 (ix2 r (0 : Fin 1)) = x3 (ix2 (0 : Fin 1) c) then 1#1 else 0#1 := by
  unfold k0_pay4
  simp only [shapeCast_self]
  show IntOp.cmpi .eq (broadcastTo S256x256 x2 broadcasts_S256x1_S256x256 (ix2 r c))
      (broadcastTo S256x256 x3 broadcasts_S1x256_S256x256 (ix2 r c)) = _
  rw [Cert.LibKeepdims.broadcastTo_a1_ab_apply, broadcastTo_1b_ab_apply]
  unfold IntOp.cmpi
  by_cases h : x2 (ix2 r (0 : Fin 1)) = x3 (ix2 (0 : Fin 1) c)
  · rw [if_pos h]; simp [h]
  · rw [if_neg h, beq_eq_false_iff_ne.mpr h]; rfl

/-- The positive-pair mask at (r, c): global row below global column and equal classes. -/
theorem pay5_apply (cls : Classes) (I J : Fin 32) (x2 : Vec Ideal S256x1 .i32) (x3 : Vec Ideal S1x256 .i32)
    (hx2 : ∀ (r : Fin 256), x2 (ix2 r (0 : Fin 1)) = cls (ix1 (row I r)))
    (hx3 : ∀ (c : Fin 256), x3 (ix2 (0 : Fin 1) c) = cls (ix1 (row J c))) (r c : Fin 256) :
    k0_pay5 (F := Ideal) (BitVec.ofNat 32 I.val) (BitVec.ofNat 32 J.val) x2 x3 (ix2 r c) = posB cls (row I r) (row J c) := by
  unfold k0_pay5
  show IntOp.andi (k0_pay3 (BitVec.ofNat 32 I.val) (BitVec.ofNat 32 J.val) (ix2 r c)) (k0_pay4 (F := Ideal) x2 x3 (ix2 r c)) = _
  rw [pay3_apply, pay4_apply, hx2, hx3]
  unfold posB
  by_cases h1 : (row I r).val < (row J c).val
  · by_cases h2 : cls (ix1 (row I r)) = cls (ix1 (row J c))
    · rw [if_pos h1, if_pos h2, if_pos ⟨h1, h2⟩]; rfl
    · rw [if_pos h1, if_neg h2, if_neg (fun h => h2 h.2)]; rfl
  · by_cases h2 : cls (ix1 (row I r)) = cls (ix1 (row J c))
    · rw [if_neg h1, if_pos h2, if_neg (fun h => h1 h.1)]; rfl
    · rw [if_neg h1, if_neg h2, if_neg (fun h => h1 h.1)]; rfl

/-- The negative-pair mask at (r, c): global row below global column and different classes. -/
theorem pay6_apply (cls : Classes) (I J : Fin 32) (x2 : Vec Ideal S256x1 .i32) (x3 : Vec Ideal S1x256 .i32)
    (hx2 : ∀ (r : Fin 256), x2 (ix2 r (0 : Fin 1)) = cls (ix1 (row I r)))
    (hx3 : ∀ (c : Fin 256), x3 (ix2 (0 : Fin 1) c) = cls (ix1 (row J c))) (r c : Fin 256) :
    k0_pay6 (F := Ideal) (BitVec.ofNat 32 I.val) (BitVec.ofNat 32 J.val) x2 x3 (ix2 r c) = negB cls (row I r) (row J c) := by
  unfold k0_pay6
  show IntOp.andi (k0_pay3 (BitVec.ofNat 32 I.val) (BitVec.ofNat 32 J.val) (ix2 r c))
      (IntOp.xori (k0_pay4 (F := Ideal) x2 x3 (ix2 r c)) 1#1) = _
  rw [pay3_apply, pay4_apply, hx2, hx3]
  unfold negB
  by_cases h1 : (row I r).val < (row J c).val
  · by_cases h2 : cls (ix1 (row I r)) = cls (ix1 (row J c))
    · rw [if_pos h1, if_pos h2, if_neg (fun h => h.2 h2)]; rfl
    · rw [if_pos h1, if_neg h2, if_pos ⟨h1, h2⟩]; rfl
  · by_cases h2 : cls (ix1 (row I r)) = cls (ix1 (row J c))
    · rw [if_neg h1, if_pos h2, if_neg (fun h => h1 h.1)]; rfl
    · rw [if_neg h1, if_neg h2, if_neg (fun h => h1 h.1)]; rfl

end Cert.KernelIdeal.TileValue

end
-- ==== Proof.TileValueAcc.lean ====
/-
  The accumulator update of one tile of the pair loss, read at a lane.

  A [256, 256] tile is totalled in two steps — a lane sum over the columns, the result cast to a column, a sum over
  the rows, the result cast to [1, 1] —, which is the double sum over rows and columns (the initial words are zero).
  The three totals (the positive tile; the squared hinge under the negative mask; the positive mask converted to numbers)
  are broadcast along a [1, 128] row and kept in lanes 0, 1 and 2 by selects against the lane index, zero elsewhere,
  and the row is added to the previous accumulator row.
-/
import proofs.«115014_j88038239634243_2_alg».proof.Proof.Gen.KernelIdeal.Skeleton
import proofs.«115014_j88038239634243_2_alg».proof.Proof.LibKeepdims
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.TileValue

open Cert.KernelIdeal Cert.KernelIdeal.Gen Idealize.ShloMosaic Idealize.ShloMosaic.ValueIdx

/-- The lane sum of a [256, 256] tile over its second axis, at row r. -/
theorem rowsum256 (v : FVec Ideal S256x256 .f32) (r : Fin 256) :
    multiReduction .add [1] S256 v 0x00000000#32 reduces_S256x256_S256 (.inl rfl) rfl (ix1 r) = ∑ c : Fin 256, v (ix2 r c) := by
  refine (Ideal.multiReduction_add_single v _ reduces_S256x256_S256 (.inl rfl) rfl (ix1 r)).trans ?_
  refine Finset.sum_congr rfl fun k _ => congrArg v ?_
  funext a
  match a with
  | ⟨0, _⟩ => rfl
  | ⟨1, _⟩ => rfl

/-- The sum of a [256, 1] column over its first axis. -/
theorem colsum1 (v : FVec Ideal S256x1 .f32) (u : Fin 1) :
    multiReduction .add [0] S1 v 0x00000000#32 reduces_S256x1_S1 (.inl rfl) rfl (ix1 u) = ∑ r : Fin 256, v (ix2 r u) := by
  refine (Ideal.multiReduction_add_single v _ reduces_S256x1_S1 (.inl rfl) rfl (ix1 u)).trans ?_
  refine Finset.sum_congr rfl fun k _ => congrArg v ?_
  funext a
  match a with
  | ⟨0, _⟩ => rfl
  | ⟨1, _⟩ => rfl

/-- The total of a [256, 256] tile, taken as lane sums, cast to a column, summed, and cast to [1, 1]: the double sum over
    rows and columns. -/
theorem total_apply (v : FVec Ideal S256x256 .f32) (u u' : Fin 1) :
    shapeCast S1x1 (multiReduction .add [0] S1 (shapeCast S256x1 (multiReduction .add [1] S256 v 0x00000000#32 reduces_S256x256_S256 (.inl rfl) rfl)
        shapeCasts_S256_S256x1) 0x00000000#32 reduces_S256x1_S1 (.inl rfl) rfl) shapeCasts_S1_S1x1 (ix2 u u')
      = ∑ r : Fin 256, ∑ c : Fin 256, v (ix2 r c) := by
  rw [Cert.LibKeepdims.shapeCast_a_a1_apply, colsum1]
  refine Finset.sum_congr rfl fun r _ => ?_
  rw [Cert.LibKeepdims.shapeCast_a_a1_apply, rowsum256]

/-- The lane index of a [1, 128] row compared with a small constant n: the bit of "lane l is n". -/
theorem lane_cmp (l : Fin 128) (n : Nat) (hn : n < 128) :
    IntOp.cmpi .eq (iota .tc S1x128 32 [1] iota_S1x128_d1_w32 (ix2 (0 : Fin 1) l)) (BitVec.ofNat 32 n) = if l.val = n then 1#1 else 0#1 := by
  rw [iota_single_apply]
  show IntOp.cmpi .eq (BitVec.ofNat 32 l.val) (BitVec.ofNat 32 n) = _
  unfold IntOp.cmpi
  have hl := l.isLt
  by_cases h : l.val = n
  · rw [if_pos h, h]; simp
  · have hne : BitVec.ofNat 32 l.val ≠ BitVec.ofNat 32 n := by
      intro e
      have e' := congrArg BitVec.toNat e
      rw [BitVec.toNat_ofNat, BitVec.toNat_ofNat, Nat.mod_eq_of_lt (by omega), Nat.mod_eq_of_lt (by omega)] at e'
      exact h e'
    rw [if_neg h, beq_eq_false_iff_ne.mpr hne]; rfl

/-- The accumulator update at lane l: the previous row's lane plus, in lane 0 the total of the positive tile, in lane 1
    the total of the hinge-squared tile under the negative mask, in lane 2 the total of the converted positive mask,
    elsewhere nothing. -/
theorem pay9_lane (v42 v44 : IVec S256x256 1) (v46 v48 : FVec Ideal S256x256 .f32) (cst : Ideal .f32)
    (prev : Vec Ideal S1x128 .f32) (l : Fin 128) :
    k0_pay9 (F := Ideal) v42 v44 v46 v48 cst prev (ix2 (0 : Fin 1) l)
      = prev (ix2 (0 : Fin 1) l) +
        (if l.val = 0 then ∑ r : Fin 256, ∑ c : Fin 256, v46 (ix2 r c)
         else if l.val = 1 then ∑ r : Fin 256, ∑ c : Fin 256,
            Scalar.select (v44 (ix2 r c))
              (max (Ideal.ofBits .f32 0x3F800000#32 - Ideal.sqrt (Scalar.select (v44 (ix2 r c)) (v48 (ix2 r c)) cst)) (Ideal.ofBits .f32 0x00000000#32)
                * max (Ideal.ofBits .f32 0x3F800000#32 - Ideal.sqrt (Scalar.select (v44 (ix2 r c)) (v48 (ix2 r c)) cst)) (Ideal.ofBits .f32 0x00000000#32))
              (Ideal.ofBits .f32 0x00000000#32)
         else if l.val = 2 then ∑ r : Fin 256, ∑ c : Fin 256, ((((v42 (ix2 r c)).setWidth 32).toInt : ℝ) : EReal)
         else 0) := by
  unfold k0_pay9
  simp only [shapeCast_self]
  show prev (ix2 (0 : Fin 1) l) + Scalar.select (IntOp.cmpi .eq (iota .tc S1x128 32 [1] iota_S1x128_d1_w32 (ix2 (0 : Fin 1) l)) (BitVec.ofNat 32 0))
        (broadcastTo S1x128 _ broadcasts_S1x1_S1x128 (ix2 (0 : Fin 1) l))
        (Scalar.select (IntOp.cmpi .eq (iota .tc S1x128 32 [1] iota_S1x128_d1_w32 (ix2 (0 : Fin 1) l)) (BitVec.ofNat 32 1))
          (broadcastTo S1x128 _ broadcasts_S1x1_S1x128 (ix2 (0 : Fin 1) l))
          (Scalar.select (IntOp.cmpi .eq (iota .tc S1x128 32 [1] iota_S1x128_d1_w32 (ix2 (0 : Fin 1) l)) (BitVec.ofNat 32 2))
            (broadcastTo S1x128 _ broadcasts_S1x1_S1x128 (ix2 (0 : Fin 1) l))
            (Ideal.ofBits .f32 0x00000000#32))) = _
  rw [lane_cmp l 0 (by omega), lane_cmp l 1 (by omega), lane_cmp l 2 (by omega)]
  rw [Cert.LibKeepdims.broadcastTo_a1_ab_apply, Cert.LibKeepdims.broadcastTo_a1_ab_apply, Cert.LibKeepdims.broadcastTo_a1_ab_apply]
  rw [total_apply, total_apply, total_apply]
  refine congrArg (prev (ix2 (0 : Fin 1) l) + ·) ?_
  by_cases h0 : l.val = 0
  · rw [if_pos h0, if_pos h0, select_one]
  · rw [if_neg h0, if_neg h0, select_zero]
    by_cases h1 : l.val = 1
    · rw [if_pos h1, if_pos h1, select_one]
      rfl
    · rw [if_neg h1, if_neg h1, select_zero]
      by_cases h2 : l.val = 2
      · rw [if_pos h2, if_pos h2, select_one]
        rfl
      · rw [if_neg h2, if_neg h2, select_zero, Ideal.ofBits_zero_f32]

end Cert.KernelIdeal.TileValue

end
-- ==== Proof.TileValue.lean ====
/-
  One tile of the pair loss: what the kernel body adds to the accumulator row.

  The body computes, for tile (I, J), the squared-distance tile, the positive and negative pair masks, the positive
  tile (the distance under the positive mask), the floored distance, and from these the three tile totals placed in
  lanes 0, 1 and 2 of the accumulator row. When the four blocks hold rows I*256 .. I*256+255 and J*256 .. J*256+255 of
  the feature array (the second transposed) and their classes, each entry is the corresponding term of the loss for the
  two global rows: the positive term, the squared hinge of a negative pair (zero otherwise: the outer select discards
  whatever the inner one produced), and the positive-pair indicator (a one-bit word widened to 32 bits and converted
  as a signed integer). Hence the update adds the tile's increment to the previous row.
-/
import proofs.«115014_j88038239634243_2_alg».proof.Proof.TileValueD2
import proofs.«115014_j88038239634243_2_alg».proof.Proof.TileValueMask
import proofs.«115014_j88038239634243_2_alg».proof.Proof.TileValueAcc
import proofs.«115014_j88038239634243_2_alg».proof.Proof.LibBitCount

noncomputable section

namespace Cert.KernelIdeal.TileValue

open Cert.KernelIdeal Cert.KernelIdeal.Gen Cert.PairLoss Idealize.ShloMosaic Idealize.ShloMosaic.ValueIdx

/-- The positive tile at (r, c): the squared distance under the positive-pair mask. -/
theorem pay7_apply (x : Feats) (cls : Classes) (I J : Fin 32)
    (x0 : Vec Ideal S256x64 .f32) (x1 : Vec Ideal S64x256 .f32) (x2 : Vec Ideal S256x1 .i32) (x3 : Vec Ideal S1x256 .i32)
    (hx0 : ∀ (r : Fin 256) (k : Fin 64), x0 (ix2 r k) = x (ix2 (row I r) k))
    (hx1 : ∀ (k : Fin 64) (c : Fin 256), x1 (ix2 k c) = x (ix2 (row J c) k))
    (hx2 : ∀ (r : Fin 256), x2 (ix2 r (0 : Fin 1)) = cls (ix1 (row I r)))
    (hx3 : ∀ (c : Fin 256), x3 (ix2 (0 : Fin 1) c) = cls (ix1 (row J c))) (r c : Fin 256) :
    k0_pay7 (F := Ideal) (BitVec.ofNat 32 I.val) (BitVec.ofNat 32 J.val) x0 x1 x2 x3 (ix2 r c) = posT x cls (row I r) (row J c) := by
  unfold k0_pay7
  show Scalar.select (k0_pay5 (F := Ideal) (BitVec.ofNat 32 I.val) (BitVec.ofNat 32 J.val) x2 x3 (ix2 r c))
      (k0_pay2 (F := Ideal) x0 x1 (ix2 r c)) (Ideal.ofBits .f32 0x00000000#32) = _
  rw [pay5_apply cls I J x2 x3 hx2 hx3, pay2_apply x I J x0 x1 hx0 hx1, Ideal.ofBits_zero_f32]
  rfl

/-- The negative term of a pair: the squared hinge under the negative-pair bit. Where the bit is clear the outer select
    gives zero whatever the inner one fed to the square root. -/
theorem neg_term (x : Feats) (cls : Classes) (i j : Fin 8192) :
    Scalar.select (negB cls i j)
        (max (Ideal.ofBits .f32 0x3F800000#32 - Ideal.sqrt (Scalar.select (negB cls i j) (max (d2 x i j) eps) (Ideal.ofBits .f32 0x3F800000#32)))
            (Ideal.ofBits .f32 0x00000000#32)
          * max (Ideal.ofBits .f32 0x3F800000#32 - Ideal.sqrt (Scalar.select (negB cls i j) (max (d2 x i j) eps) (Ideal.ofBits .f32 0x3F800000#32)))
            (Ideal.ofBits .f32 0x00000000#32))
        (Ideal.ofBits .f32 0x00000000#32)
      = negT x cls i j := by
  unfold negT hinge
  by_cases h : negB cls i j = 1#1
  · rw [h, select_one, select_one, if_pos rfl, Ideal.ofBits_zero_f32]
  · rw [eq_zero_of_ne_one h, select_zero, if_neg (by decide), Ideal.ofBits_zero_f32]

/-- The count term of a pair: the positive-pair bit widened to 32 bits, read signed, as an extended real. -/
theorem cnt_term (cls : Classes) (i j : Fin 8192) :
    (((((posB cls i j).setWidth 32).toInt : ℤ) : ℝ) : EReal) = cntT cls i j :=
  Cert.BitCount.signed_widen _

/-- THE TILE: the body's accumulator update at lane l adds the tile's increment. -/
theorem tile_inc (x : Feats) (cls : Classes) (I J : Fin 32)
    (x0 : Vec Ideal S256x64 .f32) (x1 : Vec Ideal S64x256 .f32) (x2 : Vec Ideal S256x1 .i32) (x3 : Vec Ideal S1x256 .i32)
    (hx0 : ∀ (r : Fin 256) (k : Fin 64), x0 (ix2 r k) = x (ix2 (row I r) k))
    (hx1 : ∀ (k : Fin 64) (c : Fin 256), x1 (ix2 k c) = x (ix2 (row J c) k))
    (hx2 : ∀ (r : Fin 256), x2 (ix2 r (0 : Fin 1)) = cls (ix1 (row I r)))
    (hx3 : ∀ (c : Fin 256), x3 (ix2 (0 : Fin 1) c) = cls (ix1 (row J c)))
    (prev : Vec Ideal S1x128 .f32) (l : Fin 128) :
    k0_pay9 (F := Ideal) (k0_pay5 (BitVec.ofNat 32 I.val) (BitVec.ofNat 32 J.val) x2 x3)
        (k0_pay6 (BitVec.ofNat 32 I.val) (BitVec.ofNat 32 J.val) x2 x3)
        (k0_pay7 (BitVec.ofNat 32 I.val) (BitVec.ofNat 32 J.val) x0 x1 x2 x3) (k0_pay8 x0 x1)
        (Scalar.ofBits .f32 0x3F800000#32) prev (ix2 (0 : Fin 1) l)
      = prev (ix2 (0 : Fin 1) l) + tileInc x cls I J l := by
  rw [pay9_lane]
  refine congrArg (prev (ix2 (0 : Fin 1) l) + ·) ?_
  unfold tileInc
  by_cases h0 : l.val = 0
  · rw [if_pos h0, if_pos h0]
    exact Finset.sum_congr rfl fun r _ => Finset.sum_congr rfl fun c _ => pay7_apply x cls I J x0 x1 x2 x3 hx0 hx1 hx2 hx3 r c
  · rw [if_neg h0, if_neg h0]
    by_cases h1 : l.val = 1
    · rw [if_pos h1, if_pos h1]
      refine Finset.sum_congr rfl fun r _ => Finset.sum_congr rfl fun c _ => ?_
      rw [pay6_apply cls I J x2 x3 hx2 hx3, pay8_apply x I J x0 x1 hx0 hx1]
      exact neg_term x cls (row I r) (row J c)
    · rw [if_neg h1, if_neg h1]
      by_cases h2 : l.val = 2
      · rw [if_pos h2, if_pos h2]
        refine Finset.sum_congr rfl fun r _ => Finset.sum_congr rfl fun c _ => ?_
        rw [pay5_apply cls I J x2 x3 hx2 hx3]
        exact cnt_term cls (row I r) (row J c)
      · rw [if_neg h2, if_neg h2]

end Cert.KernelIdeal.TileValue

end
-- ==== Proof.KValue.lean ====
/-
  The value of the pairwise-loss kernel: what its result buffer holds after the run, as the loss of the two argument
  arrays.

  What each kind of grid point leaves in the accumulator row is the body's arithmetic of the point's four input blocks and
  of the row it found (the cleared row at the first point). The blocks are rectangles of the argument arrays: rows
  256 I .. 256 I + 255 of the features for the row block, the same rows of the transposed features for the column block
  (tile column J), and the matching stretches of the class array. So lane l of the accumulator after the last point is
  the sum, over the tiles on or above the diagonal, of the tile's total for that lane; the tiles below the diagonal hold no
  pair i < j, so this is the total over the whole pair matrix. The one write-back, after the last point, puts the row in
  the result array, and the host lines after the region combine lanes 0, 1, 2 into the loss.
-/
import proofs.«115014_j88038239634243_2_alg».proof.Proof.Body
import proofs.«115014_j88038239634243_2_alg».proof.Proof.Spec
import proofs.«115014_j88038239634243_2_alg».proof.Proof.Algebra
import proofs.«115014_j88038239634243_2_alg».proof.Proof.TileValue
import Idealize.ShloMosaic.Lib.Pipeline.Value
import Idealize.ShloMosaic.Lib.StableHlo.Run
import Idealize.ShloMosaic.Lib.Tactic
import Idealize.ShloMosaic.Lib.ValueLayout
import proofs.«115014_j88038239634243_2_alg».proof.Proof.LibKeepdims

set_option maxRecDepth 16384

noncomputable section

open Idealize.ShloMosaic Idealize.ShloMosaic.TcCoe Idealize.SL.Sem
open Idealize.ShloMosaic.Pipeline (Dat)

namespace Cert.KernelIdeal.KValue

open Cert.KernelIdeal Cert.KernelIdeal.Gen Cert.KernelIdeal.Body

variable {F : FTy → Type} [FloatOps F]
variable (m : (ℓ : Loc nD τ sig) → Buf (Elt F) ℓ) (ρ : Dev nD → PrngReg)

theorem hz : (![0, 0] : Fin 2 → Nat) = fun _ => 0 := funext fun a => by fin_cases a <;> rfl

/-- The body's arithmetic at a tile: from the tile's coordinates, the four input blocks and the accumulator row found,
    the accumulator row left. -/
def tilePay (i : grid0.Coords) (x0 : Vec F S256x64 .f32) (x1 : Vec F S64x256 .f32) (x2 : Vec F S256x1 .i32) (x3 : Vec F S1x256 .i32)
    (xo : Vec F S1x128 .f32) : Vec F S1x128 .f32 :=
  k0_pay9 (k0_pay5 (BitVec.ofNat 32 (i 0).val) (BitVec.ofNat 32 (i 1).val) x2 x3) (k0_pay6 (BitVec.ofNat 32 (i 0).val) (BitVec.ofNat 32 (i 1).val) x2 x3)
    (k0_pay7 (BitVec.ofNat 32 (i 0).val) (BitVec.ofNat 32 (i 1).val) x0 x1 x2 x3) (k0_pay8 x0 x1) (Scalar.ofBits .f32 0x3F800000#32) xo

/-- The cleared accumulator row: every lane at the word of zero. -/
def zeroRow : Vec F S1x128 .f32 := k0_pay1 (F := F)

/-- What a later adding point leaves over the running row `xo`: the body's arithmetic of the four blocks and `xo`. -/
theorem outLater_eq (c : Dev nD) (i : grid0.Coords)
    (a2 : Memref sig .tc .vmem S256x64 .f32) (h2 : a2.IsWhole) (a3 : Memref sig .tc .vmem S64x256 .f32) (h3 : a3.IsWhole)
    (a4 : Memref sig .tc .vmem S256x1 .i32) (h4 : a4.IsWhole) (a5 : Memref sig .tc .vmem S1x256 .i32) (h5 : a5.IsWhole)
    (a6 : Memref sig .tc .vmem S1x128 .f32) (h6 : a6.IsWhole) (hc1 : ¬k0_cond1 i = 1#1) (hc2 : k0_cond2 i = 1#1)
    (x0 : Vec F S256x64 .f32) (x1 : Vec F S64x256 .f32) (x2 : Vec F S256x1 .i32) (x3 : Vec F S1x256 .i32) (xo : Vec F S1x128 .f32) :
    outLater c i a2 h2 a3 h3 a4 h4 a5 h5 a6 h6 hc1 hc2 x0 x1 x2 x3 xo = tilePay i x0 x1 x2 x3 xo := by
  unfold outLater
  rw [View.read_writes_eq_canon _ _ _ (coverLater c i a2 h2 a3 h3 a4 h4 a5 h5 a6 h6 hc1 hc2 x0 x1 x2 x3 xo)]
  unfold runLater
  dsimp only
  rw [View.canon_unit_zero hz]
  sl_unfold_words
  simp only [View.readAt_eq_ld, h2.read_unread, h3.read_unread, h4.read_unread, h5.read_unread, h6.read_unread,
    View.ld_unit_zero (S := S256x64) hz, View.ld_unit_zero (S := S64x256) hz, View.ld_unit_zero (S := S256x1) hz,
    View.ld_unit_zero (S := S1x256) hz, View.ld_unit_zero (S := S1x128) hz]
  rfl

/-- What the first point leaves: the body's arithmetic of the four blocks and the cleared row (the clearing store is
    read back by the adding branch). -/
theorem outFirst_eq (c : Dev nD) (i : grid0.Coords)
    (a2 : Memref sig .tc .vmem S256x64 .f32) (h2 : a2.IsWhole) (a3 : Memref sig .tc .vmem S64x256 .f32) (h3 : a3.IsWhole)
    (a4 : Memref sig .tc .vmem S256x1 .i32) (h4 : a4.IsWhole) (a5 : Memref sig .tc .vmem S1x256 .i32) (h5 : a5.IsWhole)
    (a6 : Memref sig .tc .vmem S1x128 .f32) (h6 : a6.IsWhole) (hc1 : k0_cond1 i = 1#1) (hc2 : k0_cond2 i = 1#1)
    (x0 : Vec F S256x64 .f32) (x1 : Vec F S64x256 .f32) (x2 : Vec F S256x1 .i32) (x3 : Vec F S1x256 .i32) :
    outFirst c i a2 h2 a3 h3 a4 h4 a5 h5 a6 h6 hc1 hc2 x0 x1 x2 x3 = tilePay i x0 x1 x2 x3 (zeroRow (F := F)) := by
  unfold outFirst
  rw [View.read_writes_eq_canon _ _ _ (coverFirst c i a2 h2 a3 h3 a4 h4 a5 h5 a6 h6 hc1 hc2 x0 x1 x2 x3)]
  unfold runFirst
  dsimp only
  sl_unfold_words
  rw [View.canon_cons_unit_zero (S := S1x128) hz, View.readCov_unit_zero (S := S1x128) _ hz]
  simp only [View.readAt_eq_ld, h2.read_unread, h3.read_unread, h4.read_unread, h5.read_unread,
    View.ld_unit_zero (S := S256x64) hz, View.ld_unit_zero (S := S64x256) hz, View.ld_unit_zero (S := S256x1) hz,
    View.ld_unit_zero (S := S1x256) hz]
  rfl

/-! ## The input blocks, read off the argument arrays -/

open Idealize.ShloMosaic.ValueIdx Cert.PairLoss

/-- The block index maps and the grid coordinates, decided over the grid: point t is tile (t / 32, t % 32); the row blocks
    follow the tile's row, the column blocks its column. -/
theorem idx_facts : ∀ t : Fin cfg0.N,
    win0_0.index t (0 : Fin 2) = t.val / 32 ∧ win0_0.index t (1 : Fin 2) = 0
    ∧ win0_1.index t (0 : Fin 2) = 0 ∧ win0_1.index t (1 : Fin 2) = t.val % 32
    ∧ win0_2.index t (0 : Fin 2) = t.val / 32 ∧ win0_2.index t (1 : Fin 2) = 0
    ∧ win0_3.index t (0 : Fin 2) = 0 ∧ win0_3.index t (1 : Fin 2) = t.val % 32
    ∧ (grid0.coords t 0).val = t.val / 32 ∧ (grid0.coords t 1).val = t.val % 32 :=
  (by decide +kernel : ∀ t : Fin grid0.N,
    win0_0.index t (0 : Fin 2) = t.val / 32 ∧ win0_0.index t (1 : Fin 2) = 0
    ∧ win0_1.index t (0 : Fin 2) = 0 ∧ win0_1.index t (1 : Fin 2) = t.val % 32
    ∧ win0_2.index t (0 : Fin 2) = t.val / 32 ∧ win0_2.index t (1 : Fin 2) = 0
    ∧ win0_3.index t (0 : Fin 2) = 0 ∧ win0_3.index t (1 : Fin 2) = t.val % 32
    ∧ (grid0.coords t 0).val = t.val / 32 ∧ (grid0.coords t 1).val = t.val % 32)

/-- The tile row and tile column of point t. -/
def tI (t : Fin cfg0.N) : Fin 32 := ⟨t.val / 32, by have := lt_of_lt_of_eq t.isLt N_0; omega⟩
def tJ (t : Fin cfg0.N) : Fin 32 := ⟨t.val % 32, Nat.mod_lt _ (by decide)⟩

/-- The second operand is the feature array transposed. -/
theorem V_v0 (c : Dev nD) : (V m c main_v0 : S64x8192.Idx → Elt F .f32)
    = transpose S64x8192 [1, 0] (m ((c : Thread nD τ).loc main_arg0)) transposes_S8192x64_S64x8192_1_0 := by
  show StableHlo.after hostOps0 (fun b => m (c, b)) (Proc.devRef .tc main_v0) = _
  after_results

/-- The third operand is the class array as a column. -/
theorem V_v1 (c : Dev nD) : (V m c main_v1 : S8192x1.Idx → Elt F .i32)
    = shapeCast S8192x1 (m ((c : Thread nD τ).loc main_arg1)) shapeCasts_S8192_S8192x1 := by
  show StableHlo.after hostOps0 (fun b => m (c, b)) (Proc.devRef .tc main_v1) = _
  after_results
  rfl

/-- The fourth operand is the class array as a row. -/
theorem V_v2 (c : Dev nD) : (V m c main_v2 : S1x8192.Idx → Elt F .i32)
    = shapeCast S1x8192 (m ((c : Thread nD τ).loc main_arg1)) shapeCasts_S8192_S1x8192 := by
  show StableHlo.after hostOps0 (fun b => m (c, b)) (Proc.devRef .tc main_v2) = _
  after_results
  rfl

/-- The row block of the features at point t: rows of tile row t / 32. -/
theorem blk0 (c : Dev nD) (t : Fin cfg0.N) (r : Fin 256) (k : Fin 64) :
    (iblk m c 0 t : Vec F S256x64 .f32) (ix2 r k) = m ((c : Thread nD τ).loc main_arg0) (ix2 (row (tI t) r) k) := by
  obtain ⟨e0, e1, -⟩ := idx_facts t
  unfold iblk
  rw [View.read_apply]
  show V m c main_arg0 _ = _
  rw [V_main_arg0]
  refine congrArg _ (funext fun a => Fin.ext ?_)
  match a with
  | ⟨0, _⟩ => show win0_0.index t (0 : Fin 2) * 256 + 1 * r.val = (t.val / 32) * 256 + r.val; rw [e0]; omega
  | ⟨1, _⟩ => show win0_0.index t (1 : Fin 2) * 64 + 1 * k.val = k.val; rw [e1]; omega

/-- The column block of the transposed features at point t: rows of tile column t % 32, transposed. -/
theorem blk1 (c : Dev nD) (t : Fin cfg0.N) (k : Fin 64) (cc : Fin 256) :
    (iblk m c 1 t : Vec F S64x256 .f32) (ix2 k cc) = m ((c : Thread nD τ).loc main_arg0) (ix2 (row (tJ t) cc) k) := by
  obtain ⟨-, -, e2, e3, -⟩ := idx_facts t
  unfold iblk
  rw [View.read_apply]
  show V m c main_v0 _ = _
  rw [V_v0]
  have he : ((cfg0.win 1).blk t).view.emb (ix2 k cc) = (ix2 k (row (tJ t) cc) : S64x8192.Idx) := by
    funext a; apply Fin.ext
    match a with
    | ⟨0, _⟩ => show win0_1.index t (0 : Fin 2) * 64 + 1 * k.val = k.val; rw [e2]; omega
    | ⟨1, _⟩ => show win0_1.index t (1 : Fin 2) * 256 + 1 * cc.val = (t.val % 32) * 256 + cc.val; rw [e3]; omega
  rw [he]
  exact transpose_ix2_apply _ _ _ _

/-- The row block of the classes at point t. -/
theorem blk2 (c : Dev nD) (t : Fin cfg0.N) (r : Fin 256) :
    (iblk m c 2 t : Vec F S256x1 .i32) (ix2 r (0 : Fin 1)) = m ((c : Thread nD τ).loc main_arg1) (ix1 (row (tI t) r)) := by
  obtain ⟨-, -, -, -, e4, e5, -⟩ := idx_facts t
  unfold iblk
  rw [View.read_apply]
  show V m c main_v1 _ = _
  rw [V_v1]
  have he : ((cfg0.win 2).blk t).view.emb (ix2 r (0 : Fin 1)) = (ix2 (row (tI t) r) (0 : Fin 1) : S8192x1.Idx) := by
    funext a; apply Fin.ext
    match a with
    | ⟨0, _⟩ => show win0_2.index t (0 : Fin 2) * 256 + 1 * r.val = (t.val / 32) * 256 + r.val; rw [e4]; omega
    | ⟨1, _⟩ => show win0_2.index t (1 : Fin 2) * 1 + 1 * 0 = 0; rw [e5]
  rw [he]
  exact Cert.LibKeepdims.shapeCast_a_a1_apply _ _ _ _

/-- The column block of the classes at point t. -/
theorem blk3 (c : Dev nD) (t : Fin cfg0.N) (cc : Fin 256) :
    (iblk m c 3 t : Vec F S1x256 .i32) (ix2 (0 : Fin 1) cc) = m ((c : Thread nD τ).loc main_arg1) (ix1 (row (tJ t) cc)) := by
  obtain ⟨-, -, -, -, -, -, e6, e7, -⟩ := idx_facts t
  unfold iblk
  rw [View.read_apply]
  show V m c main_v2 _ = _
  rw [V_v2]
  have he : ((cfg0.win 3).blk t).view.emb (ix2 (0 : Fin 1) cc) = (ix2 (0 : Fin 1) (row (tJ t) cc) : S1x8192.Idx) := by
    funext a; apply Fin.ext
    match a with
    | ⟨0, _⟩ => show win0_3.index t (0 : Fin 2) * 1 + 1 * 0 = 0; rw [e6]
    | ⟨1, _⟩ => show win0_3.index t (1 : Fin 2) * 256 + 1 * cc.val = (t.val % 32) * 256 + cc.val; rw [e7]; omega
  rw [he]
  refine (shapeCast_apply _ _ _ (ix1 (row (tJ t) cc)) ?_)
  rw [Shape.rowMajor_val_one, Shape.rowMajor_val_two]
  show (row (tJ t) cc).val = 0 * 8192 + (row (tJ t) cc).val
  omega

/-! ## The result array and the host lines after the region -/

/-- The last point, the only one that writes the accumulator back. -/
def tLast : Fin cfg0.N := ⟨1023, by rw [show cfg0.N = 1024 from N_0]; decide⟩

theorem tLast_val : (tLast : Fin cfg0.N).val = 1023 := rfl

/-- The accumulator depends on the point's number only. -/
theorem acc_congr (c : Dev nD) (n n' : ℕ) (h : n = n') (hn : n < cfg0.N) (hn' : n' < cfg0.N) : acc m c n hn = acc m c n' hn' := by
  subst h; rfl

/-- The accumulator row after the last point, as contents of the result array (its one block is the array). -/
def resultRow (c : Dev nD) : Buf (Elt F) ((c : Thread nD τ).loc main_v3) :=
  acc m c (tLast : Fin cfg0.N).val (tLast : Fin cfg0.N).isLt

/-- Block (0, 0) of the [1, 128] result array is the array: cutting any row to the last point's block reads it whole. -/
theorem cut_last (c : Dev nD) (X : Buf (Elt F) ((c : Thread nD τ).loc main_v3)) :
    (cfg0.win 4).cut (grid0.coords tLast) X = ((cfg0.win 4).blk tLast).view.read (Elt F) X := by
  have hz' : (fun a => win0_4.index tLast a * main_v3.ty.shape.size a) = fun _ => 0 := funext fun a => by fin_cases a <;> decide +kernel
  exact (Memref.read_access_unit_zero (Elt F) main_v3 hz' (fun a => by rw [congrFun hz' a]; simp) X).symm

/-- The one write-back writes the accumulator row. -/
theorem flushed_eq (c : Dev nD) (t : Fin cfg0.N) (hf : (cfg0.win 4).flush t = true) :
    (dats m 0 c).flushed 4 t = ((cfg0.win 4).blk t).view.read (Elt F) (resultRow m c) := by
  have hN : cfg0.N = 1024 := N_0
  have h3 : t.val = 1023 := by have := (flush0_4 t).mp hf; have := t.isLt; omega
  obtain rfl : t = tLast := Fin.ext h3
  show (cfg0.win 4).cut (grid0.coords tLast) ((dats m 0 c).after 4 tLast) = _
  rw [after4]
  exact cut_last c (resultRow m c)

/-- So the result array ends holding the accumulator row after the last point. -/
theorem final_o (c : Dev nD) : (dats m 0 c).arrAt 4 cfg0.N = resultRow m c :=
  (dats m 0 c).arrAt_eq_of_cover 4 (resultRow m c) (flushed_eq m c) fun i =>
    ⟨tLast, (flush0_4 tLast).mpr rfl, by
      show i ∈ ((View.whole main_v3).slice (win0_4.rect tLast)).set
      rw [View.set_slice_whole, Rect.mem_set_unit]
      intro a
      have h0 : (i 0 : Nat) < 1 := (i 0).isLt
      have h1 : (i 1 : Nat) < 128 := (i 1).isLt
      match a with
      | ⟨0, _⟩ => show win0_4.index tLast 0 * win0_4.size 0 ≤ (i 0 : Nat) ∧ (i 0 : Nat) < win0_4.index tLast 0 * win0_4.size 0 + win0_4.xsize (grid0.coords tLast) 0
                  rw [show win0_4.index tLast 0 * win0_4.size 0 = 0 from by decide +kernel, show win0_4.xsize (grid0.coords tLast) 0 = 1 from by decide +kernel]; omega
      | ⟨1, _⟩ => show win0_4.index tLast 1 * win0_4.size 1 ≤ (i 1 : Nat) ∧ (i 1 : Nat) < win0_4.index tLast 1 * win0_4.size 1 + win0_4.xsize (grid0.coords tLast) 1
                  rw [show win0_4.index tLast 1 * win0_4.size 1 = 0 from by decide +kernel, show win0_4.xsize (grid0.coords tLast) 1 = 128 from by decide +kernel]; omega⟩

/-- What the host lines after the region make of the result row: lanes 0, 1, 2 sliced out and combined. -/
def tailOf (o : S1x128.Idx → Elt F .f32) : S_.Idx → Elt F .f32 :=
  mulf (constant S_ .f32 0x3F000000#32)
    (addf
      (Host.divf (shapeCast S_ (extractStridedSlice S1x1 ![0, 0] o slices_S1x128_S1x1_0_0) shapeCasts_S1x1_S_)
        (addf (constant S_ .f32 0x46000000#32) (shapeCast S_ (extractStridedSlice S1x1 ![0, 2] o slices_S1x128_S1x1_0_2) shapeCasts_S1x1_S_)))
      (Host.divf (shapeCast S_ (extractStridedSlice S1x1 ![0, 1] o slices_S1x128_S1x1_0_1) shapeCasts_S1x1_S_)
        (maximumf (constant S_ .f32 0x3F800000#32)
          (subf (constant S_ .f32 0x4BFFF800#32) (shapeCast S_ (extractStridedSlice S1x1 ![0, 2] o slices_S1x128_S1x1_0_2) shapeCasts_S1x1_S_)))))

/-- The host lines after the region, from any contents of the buffers they read: the result buffer ends at `tailOf` of the
    result array. -/
theorem tail_gen (W : Valuation τ sig (Elt F)) :
    StableHlo.after (hostOps1 (F := F)) W (Proc.devRef .tc main_v16) = tailOf (W (Proc.devRef .tc main_v3)) := by
  after_results
  rfl

/-- The result buffer after the whole program. -/
theorem tail_eq (c : Dev nD) :
    Pipeline.afterTail₀ cfgs (dats m) 0 (V0 m) [hostOps1] c main_v16 = tailOf (resultRow m c) := by
  unfold Pipeline.afterTail₀
  show StableHlo.after hostOps1 _ (Proc.devRef .tc main_v16) = _
  rw [tail_gen]
  exact congrArg tailOf ((Pipeline.withArrays_arr spec0 launch0.win.arr_inj c _ _ 4).trans (final_o m c))

end Cert.KernelIdeal.KValue

/-! ## The accumulator at the exact instance -/

namespace Cert.KernelIdeal.KValue

open Cert.KernelIdeal Cert.KernelIdeal.Gen Cert.KernelIdeal.Body
open Idealize.ShloMosaic.ValueIdx Cert.PairLoss

variable (m : (ℓ : Loc nD τ sig) → Buf (Elt Ideal) ℓ)

/-- The two argument arrays as the loss reads them. -/
abbrev xOf (c : Dev nD) : Feats := m ((c : Thread nD τ).loc main_arg0)
abbrev clsOf (c : Dev nD) : Classes := m ((c : Thread nD τ).loc main_arg1)

/-- One tile's step, lane by lane: the body's arithmetic of the point's blocks adds the tile's total to the row found. -/
theorem tilePay_lane (c : Dev nD) (t : Fin cfg0.N) (prev : Vec Ideal S1x128 .f32) (l : Fin 128) :
    tilePay (F := Ideal) (grid0.coords t) (iblk m c 0 t) (iblk m c 1 t) (iblk m c 2 t) (iblk m c 3 t) prev (ix2 (0 : Fin 1) l)
      = prev (ix2 (0 : Fin 1) l) + tileInc (xOf m c) (clsOf m c) (tI t) (tJ t) l := by
  obtain ⟨-, -, -, -, -, -, -, -, e8, e9⟩ := idx_facts t
  unfold tilePay
  rw [e8, e9]
  exact Cert.KernelIdeal.TileValue.tile_inc (xOf m c) (clsOf m c) (tI t) (tJ t) _ _ _ _
    (blk0 m c t) (blk1 m c t) (blk2 m c t) (blk3 m c t) prev l

/-- The cleared row reads zero in every lane. -/
theorem zeroRow_apply (j : S1x128.Idx) : zeroRow (F := Ideal) j = 0 := by
  show Ideal.ofBits .f32 0x00000000#32 = 0
  exact Ideal.ofBits_zero_f32

/-- Lane l of the accumulator after the last point: the sum of the totals of the tiles on or above the diagonal. -/
theorem acc_lane (c : Dev nD) (l : Fin 128) :
    acc m c 1023 (by rw [show cfg0.N = 1024 from N_0]; decide) (ix2 (0 : Fin 1) l)
      = ∑ I : Fin 32, ∑ J : Fin 32, if I.val ≤ J.val then tileInc (xOf m c) (clsOf m c) I J l else 0 := by
  refine walk_tiles (fun I J => tileInc (xOf m c) (clsOf m c) I J l)
    (fun n h => acc m c n (lt_of_lt_of_eq h N_0.symm) (ix2 (0 : Fin 1) l)) ?_ ?_
  · show outFirst _ _ _ _ _ _ _ _ _ _ _ _ _ _ _ _ _ _ (ix2 (0 : Fin 1) l) = _
    rw [outFirst_eq, tilePay_lane, zeroRow_apply, zero_add]
    rfl
  · intro n h
    have hn : n + 1 < cfg0.N := lt_of_lt_of_eq h N_0.symm
    by_cases h2 : (n + 1) / 32 ≤ (n + 1) % 32
    · rw [if_pos h2]
      show acc m c (n + 1) hn (ix2 (0 : Fin 1) l) = _
      rw [acc_later m c ⟨n + 1, hn⟩ (Nat.succ_ne_zero n) h2, outLater_eq, tilePay_lane]
      rfl
    · rw [if_neg h2]
      show acc m c (n + 1) hn (ix2 (0 : Fin 1) l) = _
      rw [acc_below m c ⟨n + 1, hn⟩ h2]
      rfl

/-- A tile below the diagonal holds no pair i < j. -/
theorem not_lt_below (I J : Fin 32) (h : ¬I.val ≤ J.val) (r cc : Fin 256) : ¬((row I r).val < (row J cc).val) := by
  show ¬(I.val * 256 + r.val < J.val * 256 + cc.val)
  have := r.isLt; have := cc.isLt; omega

theorem posB_below (cls : Classes) (I J : Fin 32) (h : ¬I.val ≤ J.val) (r cc : Fin 256) : posB cls (row I r) (row J cc) = 0#1 := by
  unfold posB; exact if_neg fun hh => not_lt_below I J h r cc hh.1
theorem negB_below (cls : Classes) (I J : Fin 32) (h : ¬I.val ≤ J.val) (r cc : Fin 256) : negB cls (row I r) (row J cc) = 0#1 := by
  unfold negB; exact if_neg fun hh => not_lt_below I J h r cc hh.1

/-- So restricting the tiles to those on or above the diagonal loses nothing: lane 0 is the positive sum, -/
theorem lane0_total (x : Feats) (cls : Classes) :
    (∑ I : Fin 32, ∑ J : Fin 32, if I.val ≤ J.val then tileInc x cls I J (0 : Fin 128) else 0) = posSum x cls := by
  unfold posSum
  rw [sum_tiles]
  refine Finset.sum_congr rfl fun I _ => Finset.sum_congr rfl fun J _ => ?_
  by_cases h : I.val ≤ J.val
  · rw [if_pos h]; rfl
  · rw [if_neg h]
    refine (Finset.sum_eq_zero fun r _ => Finset.sum_eq_zero fun cc _ => ?_).symm
    unfold posT; rw [posB_below cls I J h r cc]; exact if_neg (by decide)

/-- lane 1 the negative sum, -/
theorem lane1_total (x : Feats) (cls : Classes) :
    (∑ I : Fin 32, ∑ J : Fin 32, if I.val ≤ J.val then tileInc x cls I J (1 : Fin 128) else 0) = negSum x cls := by
  unfold negSum
  rw [sum_tiles]
  refine Finset.sum_congr rfl fun I _ => Finset.sum_congr rfl fun J _ => ?_
  by_cases h : I.val ≤ J.val
  · rw [if_pos h]; rfl
  · rw [if_neg h]
    refine (Finset.sum_eq_zero fun r _ => Finset.sum_eq_zero fun cc _ => ?_).symm
    unfold negT; rw [negB_below cls I J h r cc]; exact if_neg (by decide)

/-- and lane 2 the positive count. -/
theorem lane2_total (x : Feats) (cls : Classes) :
    (∑ I : Fin 32, ∑ J : Fin 32, if I.val ≤ J.val then tileInc x cls I J (2 : Fin 128) else 0) = posCnt cls := by
  unfold posCnt
  rw [sum_tiles]
  refine Finset.sum_congr rfl fun I _ => Finset.sum_congr rfl fun J _ => ?_
  by_cases h : I.val ≤ J.val
  · rw [if_pos h]; rfl
  · rw [if_neg h]
    refine (Finset.sum_eq_zero fun r _ => Finset.sum_eq_zero fun cc _ => ?_).symm
    unfold cntT; rw [posB_below cls I J h r cc]; exact Cert.BitCount.ind_zero

/-- Lane l of the result row. -/
theorem result_lane (c : Dev nD) (l : Fin 128) :
    resultRow m c (ix2 (0 : Fin 1) l)
      = ∑ I : Fin 32, ∑ J : Fin 32, if I.val ≤ J.val then tileInc (xOf m c) (clsOf m c) I J l else 0 :=
  (congrFun (acc_congr m c _ 1023 tLast_val _ (by rw [show cfg0.N = 1024 from N_0]; decide)) _).trans (acc_lane m c l)

/-- The host tail at the exact instance: the loss of the three lanes. -/
theorem tailOf_apply (o : S1x128.Idx → EReal) (i : S_.Idx) :
    tailOf (F := Ideal) o i
      = lossOf (o (ix2 (0 : Fin 1) (0 : Fin 128))) (o (ix2 (0 : Fin 1) (1 : Fin 128))) (o (ix2 (0 : Fin 1) (2 : Fin 128))) := by
  have s0 : shapeCast S_ (extractStridedSlice S1x1 ![0, 0] o slices_S1x128_S1x1_0_0) shapeCasts_S1x1_S_ i = o (ix2 (0 : Fin 1) (0 : Fin 128)) :=
    (shapeCast_apply _ _ i (ix2 (0 : Fin 1) (0 : Fin 1)) rfl).trans
      (extractStridedSlice_apply _ _ _ _ _ fun a => by match a with | ⟨0, _⟩ => rfl | ⟨1, _⟩ => rfl)
  have s1 : shapeCast S_ (extractStridedSlice S1x1 ![0, 1] o slices_S1x128_S1x1_0_1) shapeCasts_S1x1_S_ i = o (ix2 (0 : Fin 1) (1 : Fin 128)) :=
    (shapeCast_apply _ _ i (ix2 (0 : Fin 1) (0 : Fin 1)) rfl).trans
      (extractStridedSlice_apply _ _ _ _ _ fun a => by match a with | ⟨0, _⟩ => rfl | ⟨1, _⟩ => rfl)
  have s2 : shapeCast S_ (extractStridedSlice S1x1 ![0, 2] o slices_S1x128_S1x1_0_2) shapeCasts_S1x1_S_ i = o (ix2 (0 : Fin 1) (2 : Fin 128)) :=
    (shapeCast_apply _ _ i (ix2 (0 : Fin 1) (0 : Fin 1)) rfl).trans
      (extractStridedSlice_apply _ _ _ _ _ fun a => by match a with | ⟨0, _⟩ => rfl | ⟨1, _⟩ => rfl)
  unfold tailOf lossOf
  show (Ideal.ofBits .f32 0x3F000000#32 : EReal)
      * (Ideal.div (shapeCast S_ (extractStridedSlice S1x1 ![0, 0] o slices_S1x128_S1x1_0_0) shapeCasts_S1x1_S_ i)
          (Ideal.ofBits .f32 0x46000000#32 + shapeCast S_ (extractStridedSlice S1x1 ![0, 2] o slices_S1x128_S1x1_0_2) shapeCasts_S1x1_S_ i)
        + Ideal.div (shapeCast S_ (extractStridedSlice S1x1 ![0, 1] o slices_S1x128_S1x1_0_1) shapeCasts_S1x1_S_ i)
          (max (Ideal.ofBits .f32 0x3F800000#32)
            (Ideal.ofBits .f32 0x4BFFF800#32 - shapeCast S_ (extractStridedSlice S1x1 ![0, 2] o slices_S1x128_S1x1_0_2) shapeCasts_S1x1_S_ i))) = _
  rw [s0, s1, s2]

/-- The result buffer holds the loss of the two argument arrays. -/
theorem result_loss (c : Dev nD) : tailOf (F := Ideal) (resultRow m c) = fun _ => loss (xOf m c) (clsOf m c) := by
  funext i
  rw [tailOf_apply, result_lane, result_lane, result_lane, lane0_total, lane1_total, lane2_total]
  rfl

/-- The run, read: the result buffer at the loss, the two arguments unchanged. -/
theorem run (ρ : Dev nD → PrngReg) : θ_run defs (onTc (τ := τ) (main (F := Ideal))) ⟨m, fun _ => 0, ρ⟩ fun r => ∀ c : Dev nD,
      r.2.mem ((c : Thread nD τ).loc main_v16) = (fun _ => loss (xOf m c) (clsOf m c))
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c =>
    ⟨((h c).2 main_v16 (Pipeline.mem_restRefs_of main_v16 (by decide) (by decide))).trans ((tail_eq m c).trans (result_loss m c)),
      ((h c).1 0).trans (((dats m 0 c).arrAt_in 0 rfl _).trans ((A_eq m c 0).trans (V_main_arg0 m c))),
      ((h c).2 main_arg1 (Pipeline.mem_restRefs_of main_arg1 (by decide) (by decide))).trans (W_main_arg1 m (dats m) c)⟩)
    (run_main m ρ)

end Cert.KernelIdeal.KValue

end
-- ==== Proof.LibExtReal.lean ====
/-
  Small general facts about float values read as extended reals.

  The words of the float one and of plus infinity denote `1` and `⊤`. A quotient by a nonzero REAL divisor is the
  product with one over the divisor, whatever the dividend (infinities included); at a zero divisor the two differ
  (`0 / 0` against `0 · (1 / 0)`), so the hypothesis is needed. A finite sum of reals read in the extended reals is the
  sum of the readings. An extended real whose absolute value `max x (-x)` is below `⊤` is a real. A comparison word
  that is one says its relation holds (less-than; not-equal).
-/
import Idealize.ShloMosaic.PureOps.Ideal.Laws

noncomputable section

namespace Cert.LibExtReal

open Idealize.ShloMosaic

/-- The word of the float one denotes the real one. -/
theorem ofBits_one : Ideal.ofBits .f32 0x3F800000#32 = 1 := by
  simp [Ideal.ofBits, Ideal.ieee, -EReal.coe_mul]; norm_num

/-- The word of plus infinity denotes the top element. -/
theorem ofBits_inf : Ideal.ofBits .f32 0x7F800000#32 = ⊤ := by simp [Ideal.ofBits, Ideal.ieee]

/-- A quotient by a nonzero real is the product with one over it. -/
theorem div_eq_mul_recip (a d : EReal) (y : ℝ) (hy : y ≠ 0) (hd : d = (y : EReal)) :
    Ideal.div a d = a * Ideal.div (Ideal.ofBits .f32 0x3F800000#32) d := by
  subst hd
  rw [Ideal.div_coe hy, Ideal.div_coe hy, ofBits_one, one_mul]

/-- A finite sum of reals, read in the extended reals, is the sum of the readings. -/
theorem coe_sum {ι : Type} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- An extended real whose absolute value is below the top element is a real. -/
theorem real_of_abs_lt_top (x : EReal) (h : max x (-x) < ⊤) : ∃ y : ℝ, x = (y : EReal) := by
  induction x using EReal.rec with
  | bot => simp at h
  | coe y => exact ⟨y, rfl⟩
  | top => simp at h

/-- A less-than comparison word that is one: the left value is below the right. -/
theorem lt_of_cmp_olt {x y : EReal} (h : Ideal.cmp .olt x y = 1#1) : x < y := by
  unfold Ideal.cmp at h
  by_contra hn
  simp [hn] at h

/-- A not-equal comparison word that is one: the two values differ. -/
theorem ne_of_cmp_une {x y : EReal} (h : Ideal.cmp .une x y = 1#1) : x ≠ y := by
  unfold Ideal.cmp at h
  intro hn
  simp [hn] at h

end Cert.LibExtReal

end
-- ==== Proof.RefValue.lean ====
/-
  The reference program's result, read as the loss of Spec.lean.

  Each stage of the reference is read at an index (i, j) of the pair matrix: the squared distance, the two masks, the
  three totals; the result is the loss of the three totals.
-/
import proofs.«115014_j88038239634243_2_alg».proof.Proof.Gen.ReferenceIdeal.Read
import proofs.«115014_j88038239634243_2_alg».proof.Proof.Spec
import proofs.«115014_j88038239634243_2_alg».proof.Proof.Algebra
import proofs.«115014_j88038239634243_2_alg».proof.Proof.LibExtReal
import proofs.«115014_j88038239634243_2_alg».proof.Proof.LibBitCount

noncomputable section

namespace Cert.ReferenceIdeal.RefValue

open Cert.ReferenceIdeal Cert.ReferenceIdeal.Gen Cert.ReferenceIdeal.Read Cert.PairLoss Idealize.ShloMosaic Idealize.ShloMosaic.ValueIdx
open Idealize.ShloMosaic.TcCoe Idealize.SL.Sem

/-- The index maps of the layout operations, at indices given by their coordinates. -/
theorem idx_v1 (i : Fin 8192) (k : Fin 64) : idx_main_v1 (ix1 i) k = ix2 i k := by
  funext a; match a with | ⟨0, _⟩ => rfl | ⟨1, _⟩ => rfl

/-- The squared norm of a row: the reference's row sum of squares. -/
theorem v1_eq (x : Feats) (i : Fin 8192) : val_main_v1 (F := Ideal) x (ix1 i) = PairLoss.sq x i := by
  rw [val_main_v1_apply, val_main_cst_apply]
  simp only [val_main_v0_apply, Ideal.mulf_def, Ideal.ofBits_def, Ideal.ofBits_zero_f32, zero_add]
  unfold PairLoss.sq
  simp only [idx_v1]

theorem idx_v4 (i j : Fin 8192) : idx_main_v2 (idx_main_v4 (ix2 i j)) = ix1 i := by
  funext a; match a with | ⟨0, _⟩ => rfl

theorem idx_v5 (i j : Fin 8192) : idx_main_v3 (idx_main_v5 (ix2 i j)) = ix1 j := by
  funext a; match a with | ⟨0, _⟩ => rfl

theorem lidx_v8 (i j : Fin 8192) (k : Fin 64) : lidx_main_v8 (ix2 i j) k = ix2 i k := by
  funext a; match a with | ⟨0, _⟩ => rfl | ⟨1, _⟩ => rfl

theorem ridx_v8 (i j : Fin 8192) (k : Fin 64) : idx_main_v7 (ridx_main_v8 (ix2 i j) k) = ix2 j k := by
  funext a; match a with | ⟨0, _⟩ => rfl | ⟨1, _⟩ => rfl

/-- The inner product of two rows: the reference's contraction against the transposed array. -/
theorem v8_eq (x : Feats) (i j : Fin 8192) : val_main_v8 (F := Ideal) x (ix2 i j) = PairLoss.dot x i j := by
  rw [val_main_v8_apply]
  simp only [val_main_v7_apply, lidx_v8, ridx_v8]
  rfl

/-- (a) The squared distance of two rows, floored at zero. -/
theorem v13_eq (x : Feats) (i j : Fin 8192) : val_main_v13 (F := Ideal) x (ix2 i j) = PairLoss.d2 x i j := by
  rw [val_main_v13_apply, val_main_v11_apply, val_main_v6_apply, val_main_v10_apply, val_main_v4_apply,
    val_main_v2_apply, val_main_v5_apply, val_main_v3_apply, idx_v4, idx_v5, v1_eq, v1_eq, v8_eq,
    val_main_v9_apply, val_main_cst_0_apply, val_main_v12_apply, val_main_cst_1_apply]
  simp only [Ideal.maximumf_def, Ideal.subf_def, Ideal.addf_def, Ideal.mulf_def, Ideal.ofBits_def,
    Ideal.ofBits_zero_f32]
  rfl

theorem idx_v18 (i j : Fin 8192) : idx_main_v16 (idx_main_v18 (ix2 i j)) = ix1 i := by
  funext a; match a with | ⟨0, _⟩ => rfl

theorem idx_v19 (i j : Fin 8192) : idx_main_v17 (idx_main_v19 (ix2 i j)) = ix1 j := by
  funext a; match a with | ⟨0, _⟩ => rfl

/-- A row number, as a 32-bit word read signed, is itself. -/
theorem toInt_ofNat_row (n : Nat) (h : n < 8192) : (BitVec.ofNat 32 n).toInt = (n : Int) := by
  have hn : (BitVec.ofNat 32 n).toNat = n := by
    rw [BitVec.toNat_ofNat]; exact Nat.mod_eq_of_lt (by omega)
  rw [BitVec.toInt_eq_toNat_of_lt (by rw [hn]; omega), hn]

/-- The upper-triangle mask: one exactly at the pairs i < j. -/
theorem v15_eq (i j : Fin 8192) :
    val_main_v15 (F := Ideal) (ix2 i j) = if i.val < j.val then 1#1 else 0#1 := by
  rw [val_main_v15_apply, val_main_call0_v4_apply, val_main_call0_v2_apply, val_main_call0_v0_apply,
    val_main_call0_v1_apply, val_main_call0_c_apply, val_main_call0_v3_apply, val_main_call0_v5_apply,
    val_main_call0_c_0_apply, val_main_v14_apply, val_main_c_apply]
  show Scalar.select (IntOp.cmpi .sge (IntOp.addi (BitVec.ofNat 32 i.val) 0#32) (BitVec.ofNat 32 j.val)) 0#1 1#1 = _
  have hi := i.isLt
  have hj := j.isLt
  have hs : (BitVec.ofNat 32 j.val).sle (BitVec.ofNat 32 i.val) = decide (j.val ≤ i.val) := by
    rw [BitVec.sle, toInt_ofNat_row _ hi, toInt_ofNat_row _ hj]
    simp
  unfold Scalar.select IntOp.cmpi IntOp.addi
  simp only [BitVec.add_zero, hs]
  by_cases h : i.val < j.val
  · have h' : ¬ j.val ≤ i.val := by omega
    simp [h, h']
  · have h' : j.val ≤ i.val := by omega
    simp [h, h']

/-- The equal-class mask. -/
theorem v20_eq (cls : Classes) (i j : Fin 8192) :
    val_main_v20 (F := Ideal) cls (ix2 i j) = if cls (ix1 i) = cls (ix1 j) then 1#1 else 0#1 := by
  rw [val_main_v20_apply, val_main_v18_apply, val_main_v16_apply, val_main_v19_apply, val_main_v17_apply,
    idx_v18, idx_v19]
  unfold IntOp.cmpi
  by_cases h : cls (ix1 i) = cls (ix1 j)
  · rw [if_pos h, h]
    simp
  · rw [if_neg h]
    show BitVec.ofBool (cls (ix1 i) == cls (ix1 j)) = 0#1
    rw [beq_eq_false_iff_ne.2 h]
    rfl

/-- (b) The positive mask: pairs i < j of equal classes. -/
theorem v21_eq (cls : Classes) (i j : Fin 8192) : val_main_v21 (F := Ideal) cls (ix2 i j) = posB cls i j := by
  rw [val_main_v21_apply, v15_eq, v20_eq]
  unfold posB IntOp.andi
  by_cases h1 : i.val < j.val <;> by_cases h2 : cls (ix1 i) = cls (ix1 j) <;> simp [h1, h2]

/-- (b) The negative mask: pairs i < j of different classes. -/
theorem v23_eq (cls : Classes) (i j : Fin 8192) : val_main_v23 (F := Ideal) cls (ix2 i j) = negB cls i j := by
  rw [val_main_v23_apply, val_main_v22_apply, v15_eq, v20_eq]
  unfold negB IntOp.andi
  by_cases h1 : i.val < j.val <;> by_cases h2 : cls (ix1 i) = cls (ix1 j) <;> simp [h1, h2]

/-- What a pair adds to the positive sum. -/
theorem v24_eq (x : Feats) (cls : Classes) (i j : Fin 8192) :
    val_main_v24 (F := Ideal) x cls (ix2 i j) = posT x cls i j := by
  rw [val_main_v24_apply, v21_eq, v13_eq, val_main_call1_v1_apply, val_main_call1_v0_apply, val_main_cst_2_apply]
  simp only [Ideal.ofBits_def, Ideal.ofBits_zero_f32]
  rfl

/-- (c) The positive sum. -/
theorem v25_eq (x : Feats) (cls : Classes) (i : S_.Idx) :
    val_main_v25 (F := Ideal) x cls i = posSum x cls := by
  rw [val_main_v25_apply, val_main_cst_3_apply, sum_idx2]
  simp only [Ideal.ofBits_def, Ideal.ofBits_zero_f32, zero_add, v24_eq]
  rfl

/-- What a pair adds to the negative sum. -/
theorem v34_eq (x : Feats) (cls : Classes) (i j : Fin 8192) :
    val_main_v34 (F := Ideal) x cls (ix2 i j) = negT x cls i j := by
  rw [val_main_v34_apply, v23_eq, val_main_v33_apply, val_main_v32_apply, val_main_v31_apply, val_main_v29_apply,
    val_main_v28_apply, v23_eq, val_main_v27_apply, v13_eq, val_main_v26_apply, val_main_cst_4_apply,
    val_main_v30_apply, val_main_cst_6_apply, val_main_call3_v0_apply, val_main_call3_cst_apply,
    val_main_call2_v1_apply, val_main_call2_v0_apply, val_main_cst_5_apply,
    val_main_call4_v1_apply, val_main_call4_v0_apply, val_main_cst_7_apply]
  simp only [Ideal.ofBits_def, Ideal.ofBits_zero_f32, Ideal.maximumf_def, Ideal.subf_def, Ideal.mulf_def,
    Ideal.hostUnary_sqrt_def]
  unfold negT hinge Scalar.select
  by_cases h : negB cls i j = 1#1
  · have h' : negB cls i j = (1 : BitVec 1) := h
    simp only [if_pos h, if_pos h']
  · have h' : ¬ negB cls i j = (1 : BitVec 1) := h
    simp only [if_neg h, if_neg h']

/-- (c) The negative sum. -/
theorem v35_eq (x : Feats) (cls : Classes) (i : S_.Idx) :
    val_main_v35 (F := Ideal) x cls i = negSum x cls := by
  rw [val_main_v35_apply, val_main_cst_8_apply, sum_idx2]
  simp only [Ideal.ofBits_def, Ideal.ofBits_zero_f32, zero_add, v34_eq]
  rfl

/-- The pair matrix has 2^26 entries. -/
theorem card_pairs : (Finset.univ : Finset S8192x8192.Idx).card = 67108864 := by
  rw [Finset.card_univ, Fintype.card_congr (idxEquiv2 (n0 := 8192) (n1 := 8192)), Fintype.card_prod, Fintype.card_fin]

/-- An integer sum over both axes of the pair matrix is the fold of the addition over every entry. -/
theorem reduce_all (y : S8192x8192.Idx → BitVec 32) (init : S_.Idx → BitVec 32) (j : S_.Idx) :
    Host.reduce IntOp.addi y init Facts₀.reducesTo_S8192x8192_S_d0_1 Facts₀.h_S_ j
      = Finset.univ.fold IntOp.addi (init (Shape.Idx.first Facts₀.h_S_)) y := by
  rw [Host.reduce_eq_fold]
  refine congrArg (fun S => Finset.fold IntOp.addi (init (Shape.Idx.first Facts₀.h_S_)) y S) ?_
  exact Finset.filter_true_of_mem fun i _ => funext fun b => b.elim0

/-- The number of set bits of a mask over the pair matrix, as a double sum over the rows. -/
def bitCount (f : Fin 8192 → Fin 8192 → BitVec 1) : ℕ := ∑ i : Fin 8192, ∑ j : Fin 8192, (f i j).toNat

/-- The integer total of a widened mask is the number of its set bits. -/
theorem total_toNat (g : S8192x8192.Idx → BitVec 1) (init : S_.Idx → BitVec 32) (h0 : ∀ i, init i = 0#32) (j : S_.Idx) :
    (Host.reduce IntOp.addi (fun k => (g k).setWidth 32) init Facts₀.reducesTo_S8192x8192_S_d0_1 Facts₀.h_S_ j).toNat
      = bitCount (fun a b => g (ix2 a b)) := by
  rw [reduce_all, h0, Cert.BitCount.toNat_fold_widen g Finset.univ (by rw [card_pairs]; norm_num), sum_idx2]
  rfl

/-- The word of the float 8192 denotes 8192. -/
theorem ofBits_nRows : Ideal.ofBits .f32 0x46000000#32 = ((8192 : ℝ) : EReal) := by
  simp [Ideal.ofBits, Ideal.ieee, -EReal.coe_mul]; norm_num

/-- The word of the float 33550336 = 2^12 * 8191 denotes it. -/
theorem ofBits_nPairs : Ideal.ofBits .f32 0x4BFFF800#32 = ((33550336 : ℝ) : EReal) := by
  simp [Ideal.ofBits, Ideal.ieee, -EReal.coe_mul]; norm_num

/-- The number of set bits, read as an extended real, is the sum of the bits' values. -/
theorem bitCount_cast (f : Fin 8192 → Fin 8192 → BitVec 1) :
    (((bitCount f : ℕ) : ℝ) : EReal) = ∑ i : Fin 8192, ∑ j : Fin 8192, Cert.BitCount.ind (f i j) := by
  unfold bitCount
  rw [Nat.cast_sum, Cert.LibExtReal.coe_sum]
  refine Finset.sum_congr rfl fun i _ => ?_
  exact Cert.BitCount.cast_sum_toNat (f i) Finset.univ

/-- The positive count is the number of positive pairs. -/
theorem posCnt_eq (cls : Classes) : posCnt cls = (((bitCount (posB cls) : ℕ) : ℝ) : EReal) := by
  rw [bitCount_cast]
  rfl

/-- Every pair i < j is positive or negative: the two counts add up to the number of pairs. -/
theorem counts (cls : Classes) : bitCount (negB cls) + bitCount (posB cls) = 33550336 :=
  Cert.PairLoss.neg_add_pos cls

/-- The integer total of the positive mask is the number of positive pairs. -/
theorem v37_toNat (cls : Classes) (j : S_.Idx) :
    (val_main_v37 (F := Ideal) cls j).toNat = bitCount (posB cls) := by
  unfold val_main_v37
  have e : val_main_v36 (F := Ideal) cls = fun k => (val_main_v21 (F := Ideal) cls k).setWidth 32 :=
    funext (val_main_v36_apply cls)
  rw [e, total_toNat _ _ (fun i => val_main_c_9_apply i)]
  simp only [v21_eq]

/-- The integer total of the negative mask is the number of negative pairs. -/
theorem v41_toNat (cls : Classes) (j : S_.Idx) :
    (val_main_v41 (F := Ideal) cls j).toNat = bitCount (negB cls) := by
  unfold val_main_v41
  have e : val_main_v40 (F := Ideal) cls = fun k => (val_main_v23 (F := Ideal) cls k).setWidth 32 :=
    funext (val_main_v40_apply cls)
  rw [e, total_toNat _ _ (fun i => val_main_c_11_apply i)]
  simp only [v23_eq]

/-- (d) The first divisor: 8192 plus the positive count. -/
theorem v39_eq (cls : Classes) (j : S_.Idx) : val_main_v39 (F := Ideal) cls j = nRows + posCnt cls := by
  rw [val_main_v39_apply, val_main_v38_apply, val_main_c_10_apply]
  have hP := v37_toNat cls j
  have hc := counts cls
  have hn : (IntOp.addi 8192#32 (val_main_v37 (F := Ideal) cls j)).toNat = 8192 + bitCount (posB cls) := by
    unfold IntOp.addi
    rw [BitVec.toNat_add, hP]
    show (8192 + bitCount (posB cls)) % 2 ^ 32 = _
    exact Nat.mod_eq_of_lt (by omega)
  have hi : (IntOp.addi 8192#32 (val_main_v37 (F := Ideal) cls j)).toInt
      = ((8192 + bitCount (posB cls) : ℕ) : ℤ) := by
    rw [BitVec.toInt_eq_toNat_of_lt (by rw [hn]; omega), hn]
  show ((((IntOp.addi 8192#32 (val_main_v37 (F := Ideal) cls j)).toInt : ℤ) : ℝ) : EReal) = _
  rw [hi, Int.cast_natCast, Nat.cast_add, EReal.coe_add, posCnt_eq]
  show _ = Ideal.ofBits .f32 0x46000000#32 + _
  rw [ofBits_nRows, Nat.cast_ofNat]

/-- (d) The second divisor: the negative count, at least one; the negative count is the number of pairs less the
    positive count. -/
theorem v43_eq (cls : Classes) (j : S_.Idx) :
    val_main_v43 (F := Ideal) cls j = max one (nPairs - posCnt cls) := by
  rw [val_main_v43_apply, val_main_v42_apply, val_main_c_12_apply]
  have hQ := v41_toNat cls j
  have hc := counts cls
  have hwi : (val_main_v41 (F := Ideal) cls j).toInt = ((bitCount (negB cls) : ℕ) : ℤ) := by
    rw [BitVec.toInt_eq_toNat_of_lt (by rw [hQ]; omega), hQ]
  have h1 : (1#32 : BitVec 32).toInt = 1 := by decide
  have hm : (IntOp.maxsi 1#32 (val_main_v41 (F := Ideal) cls j)).toInt
      = max 1 ((bitCount (negB cls) : ℕ) : ℤ) := by
    unfold IntOp.maxsi
    by_cases hq : bitCount (negB cls) = 0
    · have hs : (val_main_v41 (F := Ideal) cls j).slt 1#32 = true := by
        rw [BitVec.slt, hwi, h1, hq]
        decide
      rw [if_pos hs, h1, hq]
      rfl
    · have hs : ¬ ((val_main_v41 (F := Ideal) cls j).slt 1#32 = true) := by
        rw [BitVec.slt, hwi, h1, decide_eq_true_eq]
        omega
      rw [if_neg hs, hwi]
      omega
  show ((((IntOp.maxsi 1#32 (val_main_v41 (F := Ideal) cls j)).toInt : ℤ) : ℝ) : EReal) = _
  have hreal : ((bitCount (negB cls) : ℕ) : ℝ) = 33550336 - ((bitCount (posB cls) : ℕ) : ℝ) := by
    have h := congrArg (Nat.cast (R := ℝ)) hc
    push_cast at h
    linarith
  rw [hm, Int.cast_max, EReal.coe_strictMono.monotone.map_max, Int.cast_one, EReal.coe_one, Int.cast_natCast, posCnt_eq]
  show _ = max (Ideal.ofBits .f32 0x3F800000#32) (Ideal.ofBits .f32 0x4BFFF800#32 - _)
  rw [Cert.LibExtReal.ofBits_one, ofBits_nPairs, ← EReal.coe_sub, hreal]

/-- (e) The reference's result buffer holds the loss of the two argument arrays. -/
theorem result_eq (m : (ℓ : Loc nD τ sig) → Buf (Elt Ideal) ℓ) (c : Dev nD) :
    Cert.ReferenceIdeal.Value.res_main_v47 (F := Ideal) m c
      = fun _ => Cert.PairLoss.loss (m ((c.tc : Thread nD τ).loc main_arg0)) (m ((c.tc : Thread nD τ).loc main_arg1)) := by
  rw [val_main_v47_eq]
  funext i
  rw [val_main_v47_apply, val_main_v46_apply, val_main_v44_apply, val_main_v45_apply, v25_eq, v35_eq, v39_eq,
    v43_eq, val_main_cst_13_apply]
  rfl

end Cert.ReferenceIdeal.RefValue

end
-- ==== Proof.lean ====
/-
  The pairwise margin loss: a tiled kernel against the whole-matrix reference.

  Both programs compute, from features x (8192 rows of 64) and integer classes, the loss
  (1/2) (P / (8192 + C) + N / max(1, 33550336 - C)), where over the pairs of rows i < j: P sums the squared distances of
  the pairs of equal class, C counts those pairs, and N sums max(1 - sqrt(max(d2, 1e-12)), 0)^2 over the pairs of different
  class. The reference forms the whole 8192 x 8192 pair matrix and sums it; it counts the negative pairs directly. The
  kernel walks the 32 x 32 tiles of that matrix, skips the tiles below the diagonal (they hold no pair i < j), adds each
  remaining tile's three totals into lanes 0, 1, 2 of one accumulator row, and takes the negative count as the number of
  all pairs, 8192 * 8191 / 2 = 33550336, less the positive count. Over the extended reals addition is commutative and
  associative, so the tile-by-tile sums are the whole sums; the integer counts of the reference never overflow 32 bits;
  and every pair i < j is positive or negative, never both — which makes the two programs' results the same function of
  the arguments. No finiteness of the inputs is used.

  The three frames: the kernel's body is run at each of the three kinds of grid point (first tile, a later tile on or
  above the diagonal, a tile below it) at any float instance; the reference is a straight line of host operations.
  The idealization rewrote nothing, so it preserves the kernel trivially.
-/
import proofs.«115014_j88038239634243_2_alg».proof.Defs
import proofs.«115014_j88038239634243_2_alg».proof.Proof.Gen.Kernel
import proofs.«115014_j88038239634243_2_alg».proof.Proof.Gen.KernelIdeal
import proofs.«115014_j88038239634243_2_alg».proof.Proof.Gen.ReferenceIdeal
import proofs.«115014_j88038239634243_2_alg».proof.Proof.Gen.Pre_finite_inputs
import proofs.«115014_j88038239634243_2_alg».proof.Proof.Gen.ReferenceIdeal.Read
import proofs.«115014_j88038239634243_2_alg».proof.Proof.Body
import proofs.«115014_j88038239634243_2_alg».proof.Proof.BodyK
import proofs.«115014_j88038239634243_2_alg».proof.Proof.KValue
import proofs.«115014_j88038239634243_2_alg».proof.Proof.RefValue
import Idealize.ShloMosaic.Adequacy
import Idealize.ShloMosaic.Init

noncomputable section

namespace Cert.Proof

open Idealize.ShloMosaic Idealize.ShloMosaic.TcCoe Idealize.SL.Sem

/-- The kernel as printed runs and leaves its arguments unchanged. -/
theorem frame_k : Cert.frame_Kernel := fun m ρ _ => Cert.Kernel.Body.frame (F := Bits) m ρ

/-- So does its idealization. -/
theorem frame_ki : Cert.frame_KernelIdeal := fun m ρ _ => Cert.KernelIdeal.Body.frame (F := Ideal) m ρ

/-- So does the reference: its run, with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- Over the extended reals both programs end with the loss of the two argument arrays in their result buffer. -/
theorem algebraic : Cert.algebraic_KernelIdeal_ReferenceIdeal := by
  intro m ρ m' ρ' _ hagree
  refine ⟨fun c => fun _ => Cert.PairLoss.loss (m ((c.tc : Thread Cert.KernelIdeal.nD Cert.KernelIdeal.τ).loc Cert.KernelIdeal.main_arg0))
      (m ((c.tc : Thread Cert.KernelIdeal.nD Cert.KernelIdeal.τ).loc Cert.KernelIdeal.main_arg1)),
    Cert.KernelIdeal.KValue.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.RefValue.result_eq, (hagree c).1, (hagree c).2]
  rfl

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
